-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel

variable [Facts]

def fn {F : FTy → Type} [FloatOps F] (main_arg0 : FVec F S16x1x512x512 .f32) (main_arg1 : FVec F S16x1x512x512 .f32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  main_v8
-- ==== Kernel.lean ====
abbrev S16x1x512x512 : Shape := ⟨4, ![16, 1, 512, 512]⟩
abbrev S16x8x128 : Shape := ⟨3, ![16, 8, 128]⟩
abbrev S1x1x512x512 : Shape := ⟨4, ![1, 1, 512, 512]⟩
abbrev S1x8x128 : Shape := ⟨3, ![1, 8, 128]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S1x512x512 : Shape := ⟨3, ![1, 512, 512]⟩
abbrev S1 : Shape := ⟨1, ![1]⟩
abbrev S1x1x1 : Shape := ⟨3, ![1, 1, 1]⟩
abbrev S8x128 : Shape := ⟨2, ![8, 128]⟩
abbrev S16x1x1 : Shape := ⟨3, ![16, 1, 1]⟩
abbrev S16 : Shape := ⟨1, ![16]⟩
abbrev S_ : Shape := ⟨0, ![]⟩

abbrev nBuf : Space → Nat
  | .hbm => 37
  | .vmem => 12
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x8x128, .f32⟩
  | .hbm, ⟨3, _⟩ => ⟨S16x8x128, .f32⟩
  | .hbm, ⟨4, _⟩ => ⟨S16x8x128, .f32⟩
  | .hbm, ⟨5, _⟩ => ⟨S16x8x128, .f32⟩
  | .hbm, ⟨6, _⟩ => ⟨S16x1x1, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S16x1x1, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S16x1x1, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S16x1x1, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  slices_S512x512_o0_0_S511x512 : S512x512.Slices ![0, 0] S511x512
  concatenates_S1x512_S511x512_S512x512_d0 : Shape.Concatenates [S1x512, S511x512] S512x512 0
  slices_S512x512_o1_0_S511x512 : S512x512.Slices ![1, 0] S511x512
  concatenates_S511x512_S1x512_S512x512_d0 : Shape.Concatenates [S511x512, S1x512] S512x512 0
  slices_S512x512_o0_0_S512x511 : S512x512.Slices ![0, 0] S512x511
  concatenates_S512x1_S512x511_S512x512_d1 : Shape.Concatenates [S512x1, S512x511] S512x512 1
  slices_S512x512_o0_1_S512x511 : S512x512.Slices ![0, 1] S512x511
  concatenates_S512x511_S512x1_S512x512_d1 : Shape.Concatenates [S512x511, S512x1] S512x512 1
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x1x512x512.size a
  hwx0_0 : ∀ i : grid0.Coords, EltTy.bits .f32 = 32 ∨ (Rect.block (s := S16x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S16x8x128.size a
  hwx0_5 : ∀ i : grid0.Coords, EltTy.bits .f32 = 32 ∨ (Rect.block (s := S16x8x128) S1x8x128.size (cc0_transform_5 i) (hinb0_5 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1x512x512 : Shape := ⟨4, ![16, 1, 512, 512]⟩
abbrev S_ : Shape := ⟨0, ![]⟩

abbrev nBuf : Space → Nat
  | .hbm => 479
  | .vmem => 0
  | .smem => 0
  | _ => 0

abbrev hbmTy0_0 (i : Nat) : BufTy := match i % 128 with
  | 0 => ⟨S16x1x512x512, .f32⟩
  | 1 => ⟨S16x1x512x512, .f32⟩
  | 2 => ⟨S16x1x512x512, .f32⟩
  | 3 => ⟨S16x1x512x512, .f32⟩
  | 4 => ⟨S_, .f32⟩
  | 5 => ⟨S16x1x512x512, .f32⟩
  | 6 => ⟨S16x1x512x512, .f32⟩
  | 7 => ⟨S_, .f32⟩
  | 8 => ⟨S16x1x512x512, .f32⟩
  | 9 => ⟨S16x1x512x512, .f32⟩
  | 10 => ⟨S_, .f32⟩
  | 11 => ⟨S16x1x512x512, .f32⟩
  | 12 => ⟨S_, .f32⟩
  | 13 => ⟨S_, .f32⟩
  | 14 => ⟨S16x1x512x512, .f32⟩
  | 15 => ⟨S_, .f32⟩
  | 16 => ⟨S_, .f32⟩
  | 17 => ⟨S16x1x512x512, .f32⟩
  | 18 => ⟨S16x1x512x512, .f32⟩
  | 19 => ⟨S_, .f32⟩
  | 20 => ⟨S_, .f32⟩
  | 21 => ⟨S16x1x512x512, .f32⟩
  | 22 => ⟨S16x1x512x512, .f32⟩
  | 23 => ⟨S_, .f32⟩
  | 24 => ⟨S16x1x512x512, .f32⟩
  | 25 => ⟨S16x1x512x512, .f32⟩
  | 26 => ⟨S16x1x512x512, .f32⟩
  | 27 => ⟨S_, .f32⟩
  | 28 => ⟨S_, .f32⟩
  | 29 => ⟨S16x1x512x512, .f32⟩
  | 30 => ⟨S_, .f32⟩
  | 31 => ⟨S_, .f32⟩
  | 32 => ⟨S16x1x512x512, .f32⟩
  | 33 => ⟨S16x1x512x512, .f32⟩
  | 34 => ⟨S_, .f32⟩
  | 35 => ⟨S_, .f32⟩
  | 36 => ⟨S16x1x512x512, .f32⟩
  | 37 => ⟨S_, .f32⟩
  | 38 => ⟨S_, .f32⟩
  | 39 => ⟨S16x1x512x512, .f32⟩
  | 40 => ⟨S16x1x512x512, .f32⟩
  | 41 => ⟨S_, .f32⟩
  | 42 => ⟨S_, .f32⟩
  | 43 => ⟨S16x1x512x512, .f32⟩
  | 44 => ⟨S16x1x512x512, .f32⟩
  | 45 => ⟨S_, .f32⟩
  | 46 => ⟨S16x1x512x512, .f32⟩
  | 47 => ⟨S16x1x512x512, .f32⟩
  | 48 => ⟨S16x1x512x512, .f32⟩
  | 49 => ⟨S_, .f32⟩
  | 50 => ⟨S_, .f32⟩
  | 51 => ⟨S16x1x512x512, .f32⟩
  | 52 => ⟨S_, .f32⟩
  | 53 => ⟨S_, .f32⟩
  | 54 => ⟨S16x1x512x512, .f32⟩
  | 55 => ⟨S16x1x512x512, .f32⟩
  | 56 => ⟨S_, .f32⟩
  | 57 => ⟨S_, .f32⟩
  | 58 => ⟨S16x1x512x512, .f32⟩
  | 59 => ⟨S_, .f32⟩
  | 60 => ⟨S_, .f32⟩
  | 61 => ⟨S16x1x512x512, .f32⟩
  | 62 => ⟨S16x1x512x512, .f32⟩
  | 63 => ⟨S_, .f32⟩
  | 64 => ⟨S_, .f32⟩
  | 65 => ⟨S16x1x512x512, .f32⟩
  | 66 => ⟨S16x1x512x512, .f32⟩
  | 67 => ⟨S_, .f32⟩
  | 68 => ⟨S16x1x512x512, .f32⟩
  | 69 => ⟨S16x1x512x512, .f32⟩
  | 70 => ⟨S16x1x512x512, .f32⟩
  | 71 => ⟨S_, .f32⟩
  | 72 => ⟨S_, .f32⟩
  | 73 => ⟨S16x1x512x512, .f32⟩
  | 74 => ⟨S_, .f32⟩
  | 75 => ⟨S_, .f32⟩
  | 76 => ⟨S16x1x512x512, .f32⟩
  | 77 => ⟨S16x1x512x512, .f32⟩
  | 78 => ⟨S_, .f32⟩
  | 79 => ⟨S_, .f32⟩
  | 80 => ⟨S16x1x512x512, .f32⟩
  | 81 => ⟨S_, .f32⟩
  | 82 => ⟨S_, .f32⟩
  | 83 => ⟨S16x1x512x512, .f32⟩
  | 84 => ⟨S16x1x512x512, .f32⟩
  | 85 => ⟨S_, .f32⟩
  | 86 => ⟨S_, .f32⟩
  | 87 => ⟨S16x1x512x512, .f32⟩
  | 88 => ⟨S16x1x512x512, .f32⟩
  | 89 => ⟨S_, .f32⟩
  | 90 => ⟨S16x1x512x512, .f32⟩
  | 91 => ⟨S16x1x512x512, .f32⟩
  | 92 => ⟨S16x1x512x512, .f32⟩
  | 93 => ⟨S_, .f32⟩
  | 94 => ⟨S_, .f32⟩
  | 95 => ⟨S16x1x512x512, .f32⟩
  | 96 => ⟨S_, .f32⟩
  | 97 => ⟨S_, .f32⟩
  | 98 => ⟨S16x1x512x512, .f32⟩
  | 99 => ⟨S16x1x512x512, .f32⟩
  | 100 => ⟨S_, .f32⟩
  | 101 => ⟨S_, .f32⟩
  | 102 => ⟨S16x1x512x512, .f32⟩
  | 103 => ⟨S_, .f32⟩
  | 104 => ⟨S_, .f32⟩
  | 105 => ⟨S16x1x512x512, .f32⟩
  | 106 => ⟨S16x1x512x512, .f32⟩
  | 107 => ⟨S_, .f32⟩
  | 108 => ⟨S_, .f32⟩
  | 109 => ⟨S16x1x512x512, .f32⟩
  | 110 => ⟨S16x1x512x512, .f32⟩
  | 111 => ⟨S_, .f32⟩
  | 112 => ⟨S16x1x512x512, .f32⟩
  | 113 => ⟨S16x1x512x512, .f32⟩
  | 114 => ⟨S16x1x512x512, .f32⟩
  | 115 => ⟨S_, .f32⟩
  | 116 => ⟨S_, .f32⟩
  | 117 => ⟨S16x1x512x512, .f32⟩
  | 118 => ⟨S_, .f32⟩
  | 119 => ⟨S_, .f32⟩
  | 120 => ⟨S16x1x512x512, .f32⟩
  | 121 => ⟨S16x1x512x512, .f32⟩
  | 122 => ⟨S_, .f32⟩
  | 123 => ⟨S_, .f32⟩
  | 124 => ⟨S16x1x512x512, .f32⟩
  | 125 => ⟨S_, .f32⟩
  | 126 => ⟨S_, .f32⟩
  | 127 => ⟨S16x1x512x512, .f32⟩
  | _ => ⟨S16x1x512x512, .f32⟩

abbrev hbmTy0_1 (i : Nat) : BufTy := match i % 128 with
  | 0 => ⟨S16x1x512x512, .f32⟩
  | 1 => ⟨S_, .f32⟩
  | 2 => ⟨S_, .f32⟩
  | 3 => ⟨S16x1x512x512, .f32⟩
  | 4 => ⟨S16x1x512x512, .f32⟩
  | 5 => ⟨S_, .f32⟩
  | 6 => ⟨S16x1x512x512, .f32⟩
  | 7 => ⟨S16x1x512x512, .f32⟩
  | 8 => ⟨S16x1x512x512, .f32⟩
  | 9 => ⟨S_, .f32⟩
  | 10 => ⟨S_, .f32⟩
  | 11 => ⟨S16x1x512x512, .f32⟩
  | 12 => ⟨S_, .f32⟩
  | 13 => ⟨S_, .f32⟩
  | 14 => ⟨S16x1x512x512, .f32⟩
  | 15 => ⟨S16x1x512x512, .f32⟩
  | 16 => ⟨S_, .f32⟩
  | 17 => ⟨S_, .f32⟩
  | 18 => ⟨S16x1x512x512, .f32⟩
  | 19 => ⟨S_, .f32⟩
  | 20 => ⟨S_, .f32⟩
  | 21 => ⟨S16x1x512x512, .f32⟩
  | 22 => ⟨S16x1x512x512, .f32⟩
  | 23 => ⟨S_, .f32⟩
  | 24 => ⟨S_, .f32⟩
  | 25 => ⟨S16x1x512x512, .f32⟩
  | 26 => ⟨S16x1x512x512, .f32⟩
  | 27 => ⟨S_, .f32⟩
  | 28 => ⟨S16x1x512x512, .f32⟩
  | 29 => ⟨S16x1x512x512, .f32⟩
  | 30 => ⟨S16x1x512x512, .f32⟩
  | 31 => ⟨S_, .f32⟩
  | 32 => ⟨S_, .f32⟩
  | 33 => ⟨S16x1x512x512, .f32⟩
  | 34 => ⟨S_, .f32⟩
  | 35 => ⟨S_, .f32⟩
  | 36 => ⟨S16x1x512x512, .f32⟩
  | 37 => ⟨S16x1x512x512, .f32⟩
  | 38 => ⟨S_, .f32⟩
  | 39 => ⟨S_, .f32⟩
  | 40 => ⟨S16x1x512x512, .f32⟩
  | 41 => ⟨S_, .f32⟩
  | 42 => ⟨S_, .f32⟩
  | 43 => ⟨S16x1x512x512, .f32⟩
  | 44 => ⟨S16x1x512x512, .f32⟩
  | 45 => ⟨S_, .f32⟩
  | 46 => ⟨S_, .f32⟩
  | 47 => ⟨S16x1x512x512, .f32⟩
  | 48 => ⟨S16x1x512x512, .f32⟩
  | 49 => ⟨S_, .f32⟩
  | 50 => ⟨S16x1x512x512, .f32⟩
  | 51 => ⟨S16x1x512x512, .f32⟩
  | 52 => ⟨S16x1x512x512, .f32⟩
  | 53 => ⟨S_, .f32⟩
  | 54 => ⟨S_, .f32⟩
  | 55 => ⟨S16x1x512x512, .f32⟩
  | 56 => ⟨S_, .f32⟩
  | 57 => ⟨S_, .f32⟩
  | 58 => ⟨S16x1x512x512, .f32⟩
  | 59 => ⟨S16x1x512x512, .f32⟩
  | 60 => ⟨S_, .f32⟩
  | 61 => ⟨S_, .f32⟩
  | 62 => ⟨S16x1x512x512, .f32⟩
  | 63 => ⟨S_, .f32⟩
  | 64 => ⟨S_, .f32⟩
  | 65 => ⟨S16x1x512x512, .f32⟩
  | 66 => ⟨S16x1x512x512, .f32⟩
  | 67 => ⟨S_, .f32⟩
  | 68 => ⟨S_, .f32⟩
  | 69 => ⟨S16x1x512x512, .f32⟩
  | 70 => ⟨S16x1x512x512, .f32⟩
  | 71 => ⟨S_, .f32⟩
  | 72 => ⟨S16x1x512x512, .f32⟩
  | 73 => ⟨S16x1x512x512, .f32⟩
  | 74 => ⟨S16x1x512x512, .f32⟩
  | 75 => ⟨S_, .f32⟩
  | 76 => ⟨S_, .f32⟩
  | 77 => ⟨S16x1x512x512, .f32⟩
  | 78 => ⟨S_, .f32⟩
  | 79 => ⟨S_, .f32⟩
  | 80 => ⟨S16x1x512x512, .f32⟩
  | 81 => ⟨S16x1x512x512, .f32⟩
  | 82 => ⟨S_, .f32⟩
  | 83 => ⟨S_, .f32⟩
  | 84 => ⟨S16x1x512x512, .f32⟩
  | 85 => ⟨S_, .f32⟩
  | 86 => ⟨S_, .f32⟩
  | 87 => ⟨S16x1x512x512, .f32⟩
  | 88 => ⟨S16x1x512x512, .f32⟩
  | 89 => ⟨S_, .f32⟩
  | 90 => ⟨S_, .f32⟩
  | 91 => ⟨S16x1x512x512, .f32⟩
  | 92 => ⟨S16x1x512x512, .f32⟩
  | 93 => ⟨S_, .f32⟩
  | 94 => ⟨S16x1x512x512, .f32⟩
  | 95 => ⟨S16x1x512x512, .f32⟩
  | 96 => ⟨S16x1x512x512, .f32⟩
  | 97 => ⟨S_, .f32⟩
  | 98 => ⟨S_, .f32⟩
  | 99 => ⟨S16x1x512x512, .f32⟩
  | 100 => ⟨S_, .f32⟩
  | 101 => ⟨S_, .f32⟩
  | 102 => ⟨S16x1x512x512, .f32⟩
  | 103 => ⟨S16x1x512x512, .f32⟩
  | 104 => ⟨S_, .f32⟩
  | 105 => ⟨S16x1x512x512, .f32⟩
  | 106 => ⟨S_, .f32⟩
  | 107 => ⟨S_, .f32⟩
  | 108 => ⟨S16x1x512x512, .f32⟩
  | 109 => ⟨S_, .f32⟩
  | 110 => ⟨S_, .f32⟩
  | 111 => ⟨S16x1x512x512, .f32⟩
  | 112 => ⟨S16x1x512x512, .f32⟩
  | 113 => ⟨S_, .f32⟩
  | 114 => ⟨S_, .f32⟩
  | 115 => ⟨S16x1x512x512, .f32⟩
  | 116 => ⟨S16x1x512x512, .f32⟩
  | 117 => ⟨S_, .f32⟩
  | 118 => ⟨S16x1x512x512, .f32⟩
  | 119 => ⟨S16x1x512x512, .f32⟩
  | 120 => ⟨S16x1x512x512, .f32⟩
  | 121 => ⟨S_, .f32⟩
  | 122 => ⟨S_, .f32⟩
  | 123 => ⟨S16x1x512x512, .f32⟩
  | 124 => ⟨S_, .f32⟩
  | 125 => ⟨S_, .f32⟩
  | 126 => ⟨S16x1x512x512, .f32⟩
  | 127 => ⟨S16x1x512x512, .f32⟩
  | _ => ⟨S16x1x512x512, .f32⟩

abbrev hbmTy0_2 (i : Nat) : BufTy := match i % 128 with
  | 0 => ⟨S_, .f32⟩
  | 1 => ⟨S_, .f32⟩
  | 2 => ⟨S16x1x512x512, .f32⟩
  | 3 => ⟨S_, .f32⟩
  | 4 => ⟨S_, .f32⟩
  | 5 => ⟨S16x1x512x512, .f32⟩
  | 6 => ⟨S16x1x512x512, .f32⟩
  | 7 => ⟨S_, .f32⟩
  | 8 => ⟨S_, .f32⟩
  | 9 => ⟨S16x1x512x512, .f32⟩
  | 10 => ⟨S16x1x512x512, .f32⟩
  | 11 => ⟨S_, .f32⟩
  | 12 => ⟨S16x1x512x512, .f32⟩
  | 13 => ⟨S16x1x512x512, .f32⟩
  | 14 => ⟨S16x1x512x512, .f32⟩
  | 15 => ⟨S_, .f32⟩
  | 16 => ⟨S_, .f32⟩
  | 17 => ⟨S16x1x512x512, .f32⟩
  | 18 => ⟨S_, .f32⟩
  | 19 => ⟨S_, .f32⟩
  | 20 => ⟨S16x1x512x512, .f32⟩
  | 21 => ⟨S16x1x512x512, .f32⟩
  | 22 => ⟨S_, .f32⟩
  | 23 => ⟨S_, .f32⟩
  | 24 => ⟨S16x1x512x512, .f32⟩
  | 25 => ⟨S_, .f32⟩
  | 26 => ⟨S_, .f32⟩
  | 27 => ⟨S16x1x512x512, .f32⟩
  | 28 => ⟨S16x1x512x512, .f32⟩
  | 29 => ⟨S_, .f32⟩
  | 30 => ⟨S_, .f32⟩
  | 31 => ⟨S16x1x512x512, .f32⟩
  | 32 => ⟨S16x1x512x512, .f32⟩
  | 33 => ⟨S_, .f32⟩
  | 34 => ⟨S16x1x512x512, .f32⟩
  | 35 => ⟨S16x1x512x512, .f32⟩
  | 36 => ⟨S16x1x512x512, .f32⟩
  | 37 => ⟨S_, .f32⟩
  | 38 => ⟨S_, .f32⟩
  | 39 => ⟨S16x1x512x512, .f32⟩
  | 40 => ⟨S_, .f32⟩
  | 41 => ⟨S_, .f32⟩
  | 42 => ⟨S16x1x512x512, .f32⟩
  | 43 => ⟨S16x1x512x512, .f32⟩
  | 44 => ⟨S_, .f32⟩
  | 45 => ⟨S_, .f32⟩
  | 46 => ⟨S16x1x512x512, .f32⟩
  | 47 => ⟨S_, .f32⟩
  | 48 => ⟨S_, .f32⟩
  | 49 => ⟨S16x1x512x512, .f32⟩
  | 50 => ⟨S16x1x512x512, .f32⟩
  | 51 => ⟨S_, .f32⟩
  | 52 => ⟨S_, .f32⟩
  | 53 => ⟨S16x1x512x512, .f32⟩
  | 54 => ⟨S16x1x512x512, .f32⟩
  | 55 => ⟨S_, .f32⟩
  | 56 => ⟨S16x1x512x512, .f32⟩
  | 57 => ⟨S16x1x512x512, .f32⟩
  | 58 => ⟨S16x1x512x512, .f32⟩
  | 59 => ⟨S_, .f32⟩
  | 60 => ⟨S_, .f32⟩
  | 61 => ⟨S16x1x512x512, .f32⟩
  | 62 => ⟨S_, .f32⟩
  | 63 => ⟨S_, .f32⟩
  | 64 => ⟨S16x1x512x512, .f32⟩
  | 65 => ⟨S16x1x512x512, .f32⟩
  | 66 => ⟨S_, .f32⟩
  | 67 => ⟨S_, .f32⟩
  | 68 => ⟨S16x1x512x512, .f32⟩
  | 69 => ⟨S_, .f32⟩
  | 70 => ⟨S_, .f32⟩
  | 71 => ⟨S16x1x512x512, .f32⟩
  | 72 => ⟨S16x1x512x512, .f32⟩
  | 73 => ⟨S_, .f32⟩
  | 74 => ⟨S_, .f32⟩
  | 75 => ⟨S16x1x512x512, .f32⟩
  | 76 => ⟨S16x1x512x512, .f32⟩
  | 77 => ⟨S_, .f32⟩
  | 78 => ⟨S16x1x512x512, .f32⟩
  | 79 => ⟨S16x1x512x512, .f32⟩
  | 80 => ⟨S16x1x512x512, .f32⟩
  | 81 => ⟨S_, .f32⟩
  | 82 => ⟨S_, .f32⟩
  | 83 => ⟨S16x1x512x512, .f32⟩
  | 84 => ⟨S_, .f32⟩
  | 85 => ⟨S_, .f32⟩
  | 86 => ⟨S16x1x512x512, .f32⟩
  | 87 => ⟨S16x1x512x512, .f32⟩
  | 88 => ⟨S_, .f32⟩
  | 89 => ⟨S_, .f32⟩
  | 90 => ⟨S16x1x512x512, .f32⟩
  | 91 => ⟨S_, .f32⟩
  | 92 => ⟨S_, .f32⟩
  | 93 => ⟨S16x1x512x512, .f32⟩
  | 94 => ⟨S16x1x512x512, .f32⟩
  | 95 => ⟨S_, .f32⟩
  | 96 => ⟨S_, .f32⟩
  | 97 => ⟨S16x1x512x512, .f32⟩
  | 98 => ⟨S16x1x512x512, .f32⟩
  | 99 => ⟨S_, .f32⟩
  | 100 => ⟨S16x1x512x512, .f32⟩
  | 101 => ⟨S16x1x512x512, .f32⟩
  | 102 => ⟨S16x1x512x512, .f32⟩
  | 103 => ⟨S_, .f32⟩
  | 104 => ⟨S_, .f32⟩
  | 105 => ⟨S16x1x512x512, .f32⟩
  | 106 => ⟨S_, .f32⟩
  | 107 => ⟨S_, .f32⟩
  | 108 => ⟨S16x1x512x512, .f32⟩
  | 109 => ⟨S16x1x512x512, .f32⟩
  | 110 => ⟨S_, .f32⟩
  | 111 => ⟨S_, .f32⟩
  | 112 => ⟨S16x1x512x512, .f32⟩
  | 113 => ⟨S_, .f32⟩
  | 114 => ⟨S_, .f32⟩
  | 115 => ⟨S16x1x512x512, .f32⟩
  | 116 => ⟨S16x1x512x512, .f32⟩
  | 117 => ⟨S_, .f32⟩
  | 118 => ⟨S_, .f32⟩
  | 119 => ⟨S16x1x512x512, .f32⟩
  | 120 => ⟨S16x1x512x512, .f32⟩
  | 121 => ⟨S_, .f32⟩
  | 122 => ⟨S16x1x512x512, .f32⟩
  | 123 => ⟨S16x1x512x512, .f32⟩
  | 124 => ⟨S16x1x512x512, .f32⟩
  | 125 => ⟨S_, .f32⟩
  | 126 => ⟨S_, .f32⟩
  | 127 => ⟨S16x1x512x512, .f32⟩
  | _ => ⟨S16x1x512x512, .f32⟩

abbrev hbmTy0_3 (i : Nat) : BufTy := match i % 128 with
  | 0 => ⟨S_, .f32⟩
  | 1 => ⟨S_, .f32⟩
  | 2 => ⟨S16x1x512x512, .f32⟩
  | 3 => ⟨S16x1x512x512, .f32⟩
  | 4 => ⟨S_, .f32⟩
  | 5 => ⟨S_, .f32⟩
  | 6 => ⟨S16x1x512x512, .f32⟩
  | 7 => ⟨S_, .f32⟩
  | 8 => ⟨S_, .f32⟩
  | 9 => ⟨S16x1x512x512, .f32⟩
  | 10 => ⟨S16x1x512x512, .f32⟩
  | 11 => ⟨S_, .f32⟩
  | 12 => ⟨S_, .f32⟩
  | 13 => ⟨S16x1x512x512, .f32⟩
  | 14 => ⟨S16x1x512x512, .f32⟩
  | 15 => ⟨S_, .f32⟩
  | 16 => ⟨S16x1x512x512, .f32⟩
  | 17 => ⟨S16x1x512x512, .f32⟩
  | 18 => ⟨S16x1x512x512, .f32⟩
  | 19 => ⟨S_, .f32⟩
  | 20 => ⟨S_, .f32⟩
  | 21 => ⟨S16x1x512x512, .f32⟩
  | 22 => ⟨S_, .f32⟩
  | 23 => ⟨S_, .f32⟩
  | 24 => ⟨S16x1x512x512, .f32⟩
  | 25 => ⟨S16x1x512x512, .f32⟩
  | 26 => ⟨S_, .f32⟩
  | 27 => ⟨S_, .f32⟩
  | 28 => ⟨S16x1x512x512, .f32⟩
  | 29 => ⟨S_, .f32⟩
  | 30 => ⟨S_, .f32⟩
  | 31 => ⟨S16x1x512x512, .f32⟩
  | 32 => ⟨S16x1x512x512, .f32⟩
  | 33 => ⟨S_, .f32⟩
  | 34 => ⟨S_, .f32⟩
  | 35 => ⟨S16x1x512x512, .f32⟩
  | 36 => ⟨S16x1x512x512, .f32⟩
  | 37 => ⟨S_, .f32⟩
  | 38 => ⟨S16x1x512x512, .f32⟩
  | 39 => ⟨S16x1x512x512, .f32⟩
  | 40 => ⟨S16x1x512x512, .f32⟩
  | 41 => ⟨S_, .f32⟩
  | 42 => ⟨S_, .f32⟩
  | 43 => ⟨S16x1x512x512, .f32⟩
  | 44 => ⟨S_, .f32⟩
  | 45 => ⟨S_, .f32⟩
  | 46 => ⟨S16x1x512x512, .f32⟩
  | 47 => ⟨S16x1x512x512, .f32⟩
  | 48 => ⟨S_, .f32⟩
  | 49 => ⟨S_, .f32⟩
  | 50 => ⟨S16x1x512x512, .f32⟩
  | 51 => ⟨S_, .f32⟩
  | 52 => ⟨S_, .f32⟩
  | 53 => ⟨S16x1x512x512, .f32⟩
  | 54 => ⟨S16x1x512x512, .f32⟩
  | 55 => ⟨S_, .f32⟩
  | 56 => ⟨S_, .f32⟩
  | 57 => ⟨S16x1x512x512, .f32⟩
  | 58 => ⟨S16x1x512x512, .f32⟩
  | 59 => ⟨S_, .f32⟩
  | 60 => ⟨S16x1x512x512, .f32⟩
  | 61 => ⟨S16x1x512x512, .f32⟩
  | 62 => ⟨S16x1x512x512, .f32⟩
  | 63 => ⟨S_, .f32⟩
  | 64 => ⟨S_, .f32⟩
  | 65 => ⟨S16x1x512x512, .f32⟩
  | 66 => ⟨S_, .f32⟩
  | 67 => ⟨S_, .f32⟩
  | 68 => ⟨S16x1x512x512, .f32⟩
  | 69 => ⟨S16x1x512x512, .f32⟩
  | 70 => ⟨S16x1x512x512, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S16x1x512x512, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | _ => ⟨S16x1x512x512, .f32⟩

abbrev hbmTy (i : Nat) : BufTy := match i / 128 with
  | 0 => hbmTy0_0 i
  | 1 => hbmTy0_1 i
  | 2 => hbmTy0_2 i
  | 3 => hbmTy0_3 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call2_cst : Ref sig .tc := ⟨.hbm, 67, rfl⟩
abbrev main_call2_v0 : Ref sig .tc := ⟨.hbm, 68, rfl⟩
abbrev main_v45 : Ref sig .tc := ⟨.hbm, 69, rfl⟩
abbrev main_v46 : Ref sig .tc := ⟨.hbm, 70, rfl⟩
abbrev main_cst_15 : Ref sig .tc := ⟨.hbm, 71, rfl⟩
abbrev main_v47 : Ref sig .tc := ⟨.hbm, 72, rfl⟩
abbrev main_v48 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_17 : Ref sig .tc := ⟨.hbm, 78, rfl⟩
abbrev main_v52 : Ref sig .tc := ⟨.hbm, 79, rfl⟩
abbrev main_v53 : Ref sig .tc := ⟨.hbm, 80, rfl⟩
abbrev main_cst_18 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_19 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call3_cst : Ref sig .tc := ⟨.hbm, 89, rfl⟩
abbrev main_call3_v0 : Ref sig .tc := ⟨.hbm, 90, rfl⟩
abbrev main_v60 : Ref sig .tc := ⟨.hbm, 91, rfl⟩
abbrev main_v61 : Ref sig .tc := ⟨.hbm, 92, rfl⟩
abbrev main_cst_20 : Ref sig .tc := ⟨.hbm, 93, rfl⟩
abbrev main_v62 : Ref sig .tc := ⟨.hbm, 94, rfl⟩
abbrev main_v63 : Ref sig .tc := ⟨.hbm, 95, rfl⟩
abbrev main_cst_21 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_22 : Ref sig .tc := ⟨.hbm, 100, rfl⟩
abbrev main_v67 : Ref sig .tc := ⟨.hbm, 101, rfl⟩
abbrev main_v68 : Ref sig .tc := ⟨.hbm, 102, rfl⟩
abbrev main_cst_23 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_24 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call4_cst : Ref sig .tc := ⟨.hbm, 111, rfl⟩
abbrev main_call4_v0 : Ref sig .tc := ⟨.hbm, 112, rfl⟩
abbrev main_v75 : Ref sig .tc := ⟨.hbm, 113, rfl⟩
abbrev main_v76 : Ref sig .tc := ⟨.hbm, 114, rfl⟩
abbrev main_cst_25 : Ref sig .tc := ⟨.hbm, 115, rfl⟩
abbrev main_v77 : Ref sig .tc := ⟨.hbm, 116, rfl⟩
abbrev main_v78 : Ref sig .tc := ⟨.hbm, 117, rfl⟩
abbrev main_cst_26 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_27 : Ref sig .tc := ⟨.hbm, 122, rfl⟩
abbrev main_v82 : Ref sig .tc := ⟨.hbm, 123, rfl⟩
abbrev main_v83 : Ref sig .tc := ⟨.hbm, 124, rfl⟩
abbrev main_cst_28 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_29 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call5_cst : Ref sig .tc := ⟨.hbm, 133, rfl⟩
abbrev main_call5_v0 : Ref sig .tc := ⟨.hbm, 134, rfl⟩
abbrev main_v90 : Ref sig .tc := ⟨.hbm, 135, rfl⟩
abbrev main_v91 : Ref sig .tc := ⟨.hbm, 136, rfl⟩
abbrev main_cst_30 : Ref sig .tc := ⟨.hbm, 137, rfl⟩
abbrev main_v92 : Ref sig .tc := ⟨.hbm, 138, rfl⟩
abbrev main_v93 : Ref sig .tc := ⟨.hbm, 139, rfl⟩
abbrev main_cst_31 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_32 : Ref sig .tc := ⟨.hbm, 144, rfl⟩
abbrev main_v97 : Ref sig .tc := ⟨.hbm, 145, rfl⟩
abbrev main_v98 : Ref sig .tc := ⟨.hbm, 146, rfl⟩
abbrev main_cst_33 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_34 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_call6_cst : Ref sig .tc := ⟨.hbm, 155, rfl⟩
abbrev main_call6_v0 : Ref sig .tc := ⟨.hbm, 156, rfl⟩
abbrev main_v105 : Ref sig .tc := ⟨.hbm, 157, rfl⟩
abbrev main_v106 : Ref sig .tc := ⟨.hbm, 158, rfl⟩
abbrev main_cst_35 : Ref sig .tc := ⟨.hbm, 159, rfl⟩
abbrev main_v107 : Ref sig .tc := ⟨.hbm, 160, rfl⟩
abbrev main_v108 : Ref sig .tc := ⟨.hbm, 161, rfl⟩
abbrev main_cst_36 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_37 : Ref sig .tc := ⟨.hbm, 166, rfl⟩
abbrev main_v112 : Ref sig .tc := ⟨.hbm, 167, rfl⟩
abbrev main_v113 : Ref sig .tc := ⟨.hbm, 168, rfl⟩
abbrev main_cst_38 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_39 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_call7_cst : Ref sig .tc := ⟨.hbm, 177, rfl⟩
abbrev main_call7_v0 : Ref sig .tc := ⟨.hbm, 178, rfl⟩
abbrev main_v120 : Ref sig .tc := ⟨.hbm, 179, rfl⟩
abbrev main_v121 : Ref sig .tc := ⟨.hbm, 180, rfl⟩
abbrev main_cst_40 : Ref sig .tc := ⟨.hbm, 181, rfl⟩
abbrev main_v122 : Ref sig .tc := ⟨.hbm, 182, rfl⟩
abbrev main_v123 : Ref sig .tc := ⟨.hbm, 183, rfl⟩
abbrev main_cst_41 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_42 : Ref sig .tc := ⟨.hbm, 188, rfl⟩
abbrev main_v127 : Ref sig .tc := ⟨.hbm, 189, rfl⟩
abbrev main_v128 : Ref sig .tc := ⟨.hbm, 190, rfl⟩
abbrev main_cst_43 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_44 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_call8_cst : Ref sig .tc := ⟨.hbm, 199, rfl⟩
abbrev main_call8_v0 : Ref sig .tc := ⟨.hbm, 200, rfl⟩
abbrev main_v135 : Ref sig .tc := ⟨.hbm, 201, rfl⟩
abbrev main_v136 : Ref sig .tc := ⟨.hbm, 202, rfl⟩
abbrev main_cst_45 : Ref sig .tc := ⟨.hbm, 203, rfl⟩
abbrev main_v137 : Ref sig .tc := ⟨.hbm, 204, rfl⟩
abbrev main_v138 : Ref sig .tc := ⟨.hbm, 205, rfl⟩
abbrev main_cst_46 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_cst_47 : Ref sig .tc := ⟨.hbm, 210, rfl⟩
abbrev main_v142 : Ref sig .tc := ⟨.hbm, 211, rfl⟩
abbrev main_v143 : Ref sig .tc := ⟨.hbm, 212, rfl⟩
abbrev main_cst_48 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_cst_49 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_call9_cst : Ref sig .tc := ⟨.hbm, 221, rfl⟩
abbrev main_call9_v0 : Ref sig .tc := ⟨.hbm, 222, rfl⟩
abbrev main_v150 : Ref sig .tc := ⟨.hbm, 223, rfl⟩
abbrev main_v151 : Ref sig .tc := ⟨.hbm, 224, rfl⟩
abbrev main_cst_50 : Ref sig .tc := ⟨.hbm, 225, rfl⟩
abbrev main_v152 : Ref sig .tc := ⟨.hbm, 226, rfl⟩
abbrev main_v153 : Ref sig .tc := ⟨.hbm, 227, rfl⟩
abbrev main_cst_51 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_cst_52 : Ref sig .tc := ⟨.hbm, 232, rfl⟩
abbrev main_v157 : Ref sig .tc := ⟨.hbm, 233, rfl⟩
abbrev main_cst_53 : Ref sig .tc := ⟨.hbm, 234, rfl⟩
abbrev main_v158 : Ref sig .tc := ⟨.hbm, 235, rfl⟩
abbrev main_v159 : Ref sig .tc := ⟨.hbm, 236, rfl⟩
abbrev main_cst_54 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_cst_55 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_call10_cst : Ref sig .tc := ⟨.hbm, 245, rfl⟩
abbrev main_call10_v0 : Ref sig .tc := ⟨.hbm, 246, rfl⟩
abbrev main_v166 : Ref sig .tc := ⟨.hbm, 247, rfl⟩
abbrev main_v167 : Ref sig .tc := ⟨.hbm, 248, rfl⟩
abbrev main_cst_56 : Ref sig .tc := ⟨.hbm, 249, rfl⟩
abbrev main_v168 : Ref sig .tc := ⟨.hbm, 250, rfl⟩
abbrev main_v169 : Ref sig .tc := ⟨.hbm, 251, rfl⟩
abbrev main_cst_57 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_cst_58 : Ref sig .tc := ⟨.hbm, 256, rfl⟩
abbrev main_v173 : Ref sig .tc := ⟨.hbm, 257, rfl⟩
abbrev main_v174 : Ref sig .tc := ⟨.hbm, 258, rfl⟩
abbrev main_cst_59 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_cst_60 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_call11_cst : Ref sig .tc := ⟨.hbm, 267, rfl⟩
abbrev main_call11_v0 : Ref sig .tc := ⟨.hbm, 268, rfl⟩
abbrev main_v181 : Ref sig .tc := ⟨.hbm, 269, rfl⟩
abbrev main_v182 : Ref sig .tc := ⟨.hbm, 270, rfl⟩
abbrev main_cst_61 : Ref sig .tc := ⟨.hbm, 271, rfl⟩
abbrev main_v183 : Ref sig .tc := ⟨.hbm, 272, rfl⟩
abbrev main_v184 : Ref sig .tc := ⟨.hbm, 273, rfl⟩
abbrev main_cst_62 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_cst_63 : Ref sig .tc := ⟨.hbm, 278, rfl⟩
abbrev main_v188 : Ref sig .tc := ⟨.hbm, 279, rfl⟩
abbrev main_v189 : Ref sig .tc := ⟨.hbm, 280, rfl⟩
abbrev main_cst_64 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_cst_65 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_call12_cst : Ref sig .tc := ⟨.hbm, 289, rfl⟩
abbrev main_call12_v0 : Ref sig .tc := ⟨.hbm, 290, rfl⟩
abbrev main_v196 : Ref sig .tc := ⟨.hbm, 291, rfl⟩
abbrev main_v197 : Ref sig .tc := ⟨.hbm, 292, rfl⟩
abbrev main_cst_66 : Ref sig .tc := ⟨.hbm, 293, rfl⟩
abbrev main_v198 : Ref sig .tc := ⟨.hbm, 294, rfl⟩
abbrev main_v199 : Ref sig .tc := ⟨.hbm, 295, rfl⟩
abbrev main_cst_67 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_cst_68 : Ref sig .tc := ⟨.hbm, 300, rfl⟩
abbrev main_v203 : Ref sig .tc := ⟨.hbm, 301, rfl⟩
abbrev main_v204 : Ref sig .tc := ⟨.hbm, 302, rfl⟩
abbrev main_cst_69 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_cst_70 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_call13_cst : Ref sig .tc := ⟨.hbm, 311, rfl⟩
abbrev main_call13_v0 : Ref sig .tc := ⟨.hbm, 312, rfl⟩
abbrev main_v211 : Ref sig .tc := ⟨.hbm, 313, rfl⟩
abbrev main_v212 : Ref sig .tc := ⟨.hbm, 314, rfl⟩
abbrev main_cst_71 : Ref sig .tc := ⟨.hbm, 315, rfl⟩
abbrev main_v213 : Ref sig .tc := ⟨.hbm, 316, rfl⟩
abbrev main_v214 : Ref sig .tc := ⟨.hbm, 317, rfl⟩
abbrev main_cst_72 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_cst_73 : Ref sig .tc := ⟨.hbm, 322, rfl⟩
abbrev main_v218 : Ref sig .tc := ⟨.hbm, 323, rfl⟩
abbrev main_v219 : Ref sig .tc := ⟨.hbm, 324, rfl⟩
abbrev main_cst_74 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_cst_75 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_call14_cst : Ref sig .tc := ⟨.hbm, 333, rfl⟩
abbrev main_call14_v0 : Ref sig .tc := ⟨.hbm, 334, rfl⟩
abbrev main_v226 : Ref sig .tc := ⟨.hbm, 335, rfl⟩
abbrev main_v227 : Ref sig .tc := ⟨.hbm, 336, rfl⟩
abbrev main_cst_76 : Ref sig .tc := ⟨.hbm, 337, rfl⟩
abbrev main_v228 : Ref sig .tc := ⟨.hbm, 338, rfl⟩
abbrev main_v229 : Ref sig .tc := ⟨.hbm, 339, rfl⟩
abbrev main_cst_77 : Ref sig .tc := ⟨.hbm, 340, rfl⟩
abbrev main_v230 : Ref sig .tc := ⟨.hbm, 341, rfl⟩
abbrev main_v231 : Ref sig .tc := ⟨.hbm, 342, rfl⟩
abbrev main_v232 : Ref sig .tc := ⟨.hbm, 343, rfl⟩
abbrev main_cst_78 : Ref sig .tc := ⟨.hbm, 344, rfl⟩
abbrev main_v233 : Ref sig .tc := ⟨.hbm, 345, rfl⟩
abbrev main_v234 : Ref sig .tc := ⟨.hbm, 346, rfl⟩
abbrev main_cst_79 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_cst_80 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_call15_cst : Ref sig .tc := ⟨.hbm, 355, rfl⟩
abbrev main_call15_v0 : Ref sig .tc := ⟨.hbm, 356, rfl⟩
abbrev main_v241 : Ref sig .tc := ⟨.hbm, 357, rfl⟩
abbrev main_v242 : Ref sig .tc := ⟨.hbm, 358, rfl⟩
abbrev main_cst_81 : Ref sig .tc := ⟨.hbm, 359, rfl⟩
abbrev main_v243 : Ref sig .tc := ⟨.hbm, 360, rfl⟩
abbrev main_v244 : Ref sig .tc := ⟨.hbm, 361, rfl⟩
abbrev main_cst_82 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_cst_83 : Ref sig .tc := ⟨.hbm, 366, rfl⟩
abbrev main_v248 : Ref sig .tc := ⟨.hbm, 367, rfl⟩
abbrev main_v249 : Ref sig .tc := ⟨.hbm, 368, rfl⟩
abbrev main_cst_84 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_cst_85 : Ref sig .tc := ⟨.hbm, 373, rfl⟩
abbrev main_v253 : Ref sig .tc := ⟨.hbm, 374, rfl⟩
abbrev main_v254 : Ref sig .tc := ⟨.hbm, 375, rfl⟩
abbrev main_v255 : Ref sig .tc := ⟨.hbm, 376, rfl⟩
abbrev main_call16_cst : Ref sig .tc := ⟨.hbm, 377, rfl⟩
abbrev main_call16_v0 : Ref sig .tc := ⟨.hbm, 378, rfl⟩
abbrev main_v256 : Ref sig .tc := ⟨.hbm, 379, rfl⟩
abbrev main_v257 : Ref sig .tc := ⟨.hbm, 380, rfl⟩
abbrev main_cst_86 : Ref sig .tc := ⟨.hbm, 381, rfl⟩
abbrev main_v258 : Ref sig .tc := ⟨.hbm, 382, rfl⟩
abbrev main_v259 : Ref sig .tc := ⟨.hbm, 383, rfl⟩
abbrev main_cst_87 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_cst_88 : Ref sig .tc := ⟨.hbm, 388, rfl⟩
abbrev main_v263 : Ref sig .tc := ⟨.hbm, 389, rfl⟩
abbrev main_v264 : Ref sig .tc := ⟨.hbm, 390, rfl⟩
abbrev main_cst_89 : Ref sig .tc := ⟨.hbm, 391, rfl⟩
abbrev main_v265 : Ref sig .tc := ⟨.hbm, 392, rfl⟩
abbrev main_v266 : Ref sig .tc := ⟨.hbm, 393, rfl⟩
abbrev main_v267 : Ref sig .tc := ⟨.hbm, 394, rfl⟩
abbrev main_cst_90 : Ref sig .tc := ⟨.hbm, 395, rfl⟩
abbrev main_v268 : Ref sig .tc := ⟨.hbm, 396, rfl⟩
abbrev main_v269 : Ref sig .tc := ⟨.hbm, 397, rfl⟩
abbrev main_v270 : Ref sig .tc := ⟨.hbm, 398, rfl⟩
abbrev main_call17_cst : Ref sig .tc := ⟨.hbm, 399, rfl⟩
abbrev main_call17_v0 : Ref sig .tc := ⟨.hbm, 400, rfl⟩
abbrev main_v271 : Ref sig .tc := ⟨.hbm, 401, rfl⟩
abbrev main_v272 : Ref sig .tc := ⟨.hbm, 402, rfl⟩
abbrev main_cst_91 : Ref sig .tc := ⟨.hbm, 403, rfl⟩
abbrev main_v273 : Ref sig .tc := ⟨.hbm, 404, rfl⟩
abbrev main_v274 : Ref sig .tc := ⟨.hbm, 405, rfl⟩
abbrev main_cst_92 : Ref sig .tc := ⟨.hbm, 406, rfl⟩
abbrev main_v275 : Ref sig .tc := ⟨.hbm, 407, rfl⟩
abbrev main_v276 : Ref sig .tc := ⟨.hbm, 408, rfl⟩
abbrev main_v277 : Ref sig .tc := ⟨.hbm, 409, rfl⟩
abbrev main_cst_93 : Ref sig .tc := ⟨.hbm, 410, rfl⟩
abbrev main_v278 : Ref sig .tc := ⟨.hbm, 411, rfl⟩
abbrev main_v279 : Ref sig .tc := ⟨.hbm, 412, rfl⟩
abbrev main_cst_94 : Ref sig .tc := ⟨.hbm, 413, rfl⟩
abbrev main_v280 : Ref sig .tc := ⟨.hbm, 414, rfl⟩
abbrev main_v281 : Ref sig .tc := ⟨.hbm, 415, rfl⟩
abbrev main_v282 : Ref sig .tc := ⟨.hbm, 416, rfl⟩
abbrev main_cst_95 : Ref sig .tc := ⟨.hbm, 417, rfl⟩
abbrev main_v283 : Ref sig .tc := ⟨.hbm, 418, rfl⟩
abbrev main_v284 : Ref sig .tc := ⟨.hbm, 419, rfl⟩
abbrev main_v285 : Ref sig .tc := ⟨.hbm, 420, rfl⟩
abbrev main_call18_cst : Ref sig .tc := ⟨.hbm, 421, rfl⟩
abbrev main_call18_v0 : Ref sig .tc := ⟨.hbm, 422, rfl⟩
abbrev main_v286 : Ref sig .tc := ⟨.hbm, 423, rfl⟩
abbrev main_v287 : Ref sig .tc := ⟨.hbm, 424, rfl⟩
abbrev main_cst_96 : Ref sig .tc := ⟨.hbm, 425, rfl⟩
abbrev main_v288 : Ref sig .tc := ⟨.hbm, 426, rfl⟩
abbrev main_v289 : Ref sig .tc := ⟨.hbm, 427, rfl⟩
abbrev main_cst_97 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_cst_98 : Ref sig .tc := ⟨.hbm, 432, rfl⟩
abbrev main_v293 : Ref sig .tc := ⟨.hbm, 433, rfl⟩
abbrev main_v294 : Ref sig .tc := ⟨.hbm, 434, rfl⟩
abbrev main_cst_99 : Ref sig .tc := ⟨.hbm, 435, rfl⟩
abbrev main_v295 : Ref sig .tc := ⟨.hbm, 436, rfl⟩
abbrev main_v296 : Ref sig .tc := ⟨.hbm, 437, rfl⟩
abbrev main_v297 : Ref sig .tc := ⟨.hbm, 438, rfl⟩
abbrev main_cst_100 : Ref sig .tc := ⟨.hbm, 439, rfl⟩
abbrev main_v298 : Ref sig .tc := ⟨.hbm, 440, rfl⟩
abbrev main_v299 : Ref sig .tc := ⟨.hbm, 441, rfl⟩
abbrev main_v300 : Ref sig .tc := ⟨.hbm, 442, rfl⟩
abbrev main_call19_cst : Ref sig .tc := ⟨.hbm, 443, rfl⟩
abbrev main_call19_v0 : Ref sig .tc := ⟨.hbm, 444, rfl⟩
abbrev main_v301 : Ref sig .tc := ⟨.hbm, 445, rfl⟩
abbrev main_v302 : Ref sig .tc := ⟨.hbm, 446, rfl⟩
abbrev main_cst_101 : Ref sig .tc := ⟨.hbm, 447, rfl⟩
abbrev main_v303 : Ref sig .tc := ⟨.hbm, 448, rfl⟩
abbrev main_v304 : Ref sig .tc := ⟨.hbm, 449, rfl⟩
abbrev main_cst_102 : Ref sig .tc := ⟨.hbm, 450, rfl⟩
abbrev main_v305 : Ref sig .tc := ⟨.hbm, 451, rfl⟩
abbrev main_v306 : Ref sig .tc := ⟨.hbm, 452, rfl⟩
abbrev main_v307 : Ref sig .tc := ⟨.hbm, 453, rfl⟩
abbrev main_v308 : Ref sig .tc := ⟨.hbm, 454, rfl⟩
abbrev main_cst_103 : Ref sig .tc := ⟨.hbm, 455, rfl⟩
abbrev main_v309 : Ref sig .tc := ⟨.hbm, 456, rfl⟩
abbrev main_cst_104 : Ref sig .tc := ⟨.hbm, 457, rfl⟩
abbrev main_v310 : Ref sig .tc := ⟨.hbm, 458, rfl⟩
abbrev main_cst_105 : Ref sig .tc := ⟨.hbm, 459, rfl⟩
abbrev main_v311 : Ref sig .tc := ⟨.hbm, 460, rfl⟩
abbrev main_v312 : Ref sig .tc := ⟨.hbm, 461, rfl⟩
abbrev main_v313 : Ref sig .tc := ⟨.hbm, 462, rfl⟩
abbrev main_cst_106 : Ref sig .tc := ⟨.hbm, 463, rfl⟩
abbrev main_v314 : Ref sig .tc := ⟨.hbm, 464, rfl⟩
abbrev main_cst_107 : Ref sig .tc := ⟨.hbm, 465, rfl⟩
abbrev main_v315 : Ref sig .tc := ⟨.hbm, 466, rfl⟩
abbrev main_cst_108 : Ref sig .tc := ⟨.hbm, 467, rfl⟩
abbrev main_v316 : Ref sig .tc := ⟨.hbm, 468, rfl⟩
abbrev main_v317 : Ref sig .tc := ⟨.hbm, 469, rfl⟩
abbrev main_cst_109 : Ref sig .tc := ⟨.hbm, 470, rfl⟩
abbrev main_v318 : Ref sig .tc := ⟨.hbm, 471, rfl⟩
abbrev main_v319 : Ref sig .tc := ⟨.hbm, 472, rfl⟩
abbrev main_v320 : Ref sig .tc := ⟨.hbm, 473, rfl⟩
abbrev main_cst_110 : Ref sig .tc := ⟨.hbm, 474, rfl⟩
abbrev main_v321 : Ref sig .tc := ⟨.hbm, 475, rfl⟩
abbrev main_v322 : Ref sig .tc := ⟨.hbm, 476, rfl⟩
abbrev main_cst_111 : Ref sig .tc := ⟨.hbm, 477, rfl⟩
abbrev main_v323 : Ref sig .tc := ⟨.hbm, 478, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  bcast_S_S_ : S_.BroadcastsInDim S_ (![] : Fin 0 → Fin S_.rank)
  reduceWindows_S16x1x512x512_S16x1x512x512_w1s1p0_0_w1s1p0_0_w3s1p1_1_w1s1p0_0 : S16x1x512x512.ReduceWindows (![1, 1, 3, 1] : Fin 4 → Nat) ![1, 1, 1, 1] ![0, 0, 1, 0] ![0, 0, 1, 0] S16x1x512x512
  h_S_ : 0 < S_.numel
  reduceWindows_S16x1x512x512_S16x1x512x512_w1s1p0_0_w1s1p0_0_w1s1p0_0_w3s1p1_1 : S16x1x512x512.ReduceWindows (![1, 1, 1, 3] : Fin 4 → Nat) ![1, 1, 1, 1] ![0, 0, 0, 1] ![0, 0, 0, 1] S16x1x512x512
  reduceWindows_S16x1x512x512_S16x1x512x512_w1s1p0_0_w1s1p0_0_w3s1p1_1_w3s1p1_1 : S16x1x512x512.ReduceWindows (![1, 1, 3, 3] : Fin 4 → Nat) ![1, 1, 1, 1] ![0, 0, 1, 1] ![0, 0, 1, 1] S16x1x512x512
  reducesTo_S16x1x512x512_S_d0_1_2_3 : S16x1x512x512.ReducesTo [0, 1, 2, 3] S_

variable [Facts₀]

class Facts : Prop extends Facts₀ where

variable [Facts]
-- ==== Proof.RefOps0.lean ====
/-
  Lines 1 to 64 of the batched program's 477 host operations, as a list (a called function's
  operations stand in its call's place): the program's part 0 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 0, in order. -/
abbrev ops0 : List (HloOp τ sig (Elt F)) :=
  [ unary main_arg0 main_v0 (Host.negf : (⟨S16x1x512x512, .f32⟩ : BufTy).Contents (Elt F) → (⟨S16x1x512x512, .f32⟩ : BufTy).Contents (Elt F)),
    unary main_v0 main_v1 (Host.exp : (⟨S16x1x512x512, .f32⟩ : BufTy).Contents (Elt F) → (⟨S16x1x512x512, .f32⟩ : BufTy).Contents (Elt F)),
    nullary main_cst (constant S_ .f32 0x3F800000#32),
    unary main_cst main_v2 (broadcastInDim S16x1x512x512 ![] bcast_S_S16x1x512x512 : (⟨S_, .f32⟩ : BufTy).Contents (Elt F) → (⟨S16x1x512x512, .f32⟩ : BufTy).Contents (Elt F)),
    binary main_v2 main_v1 main_v3 (addf : (⟨S16x1x512x512, .f32⟩ : BufTy).Contents (Elt F) → (⟨S16x1x512x512, .f32⟩ : BufTy).Contents (Elt F) → (⟨S16x1x512x512, .f32⟩ : BufTy).Contents (Elt F)),
    nullary main_cst_0 (constant S_ .f32 0x3F800000#32),
    unary main_cst_0 main_v4 (broadcastInDim S16x1x512x512 ![] bcast_S_S16x1x512x512 : (⟨S_, .f32⟩ : BufTy).Contents (Elt F) → (⟨S16x1x512x512, .f32⟩ : BufTy).Contents (Elt F)),
    binary main_v4 main_v3 main_v5 (Host.divf : (⟨S16x1x512x512, .f32⟩ : BufTy).Contents (Elt F) → (⟨S16x1x512x512, .f32⟩ : BufTy).Contents (Elt F) → (⟨S16x1x512x512, .f32⟩ : BufTy).Contents (Elt F)),
    nullary main_cst_1 (constant S_ .f32 0x00000000#32),
    unary main_cst_1 main_v6 (broadcastInDim S16x1x512x512 ![] bcast_S_S16x1x512x512 : (⟨S_, .f32⟩ : BufTy).Contents (Elt F) → (⟨S16x1x512x512, .f32⟩ : BufTy).Contents (Elt F)),
    nullary main_cst_2 (constant S_ .f32 0x7F800000#32),
    unary main_cst_2 main_v7 (broadcastInDim S_ ![] bcast_S_S_ : (⟨S_, .f32⟩ : BufTy).Contents (Elt F) → (⟨S_, .f32⟩ : BufTy).Contents (Elt F)),
    binary main_v5 main_v7 main_v8 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_3 (constant S_ .f32 0x7F800000#32),
    unary main_cst_3 main_v9 (broadcastInDim S_ ![] bcast_S_S_ : (⟨S_, .f32⟩ : BufTy).Contents (Elt F) → (⟨S_, .f32⟩ : BufTy).Contents (Elt F)),
    binary main_v5 main_v9 main_v10 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v8 main_v10 main_v11 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_4 (constant S_ .f32 0xFF800000#32),
    unary main_cst_4 main_v12 (broadcastInDim S_ ![] bcast_S_S_ : (⟨S_, .f32⟩ : BufTy).Contents (Elt F) → (⟨S_, .f32⟩ : BufTy).Contents (Elt F)),
    binary main_v11 main_v12 main_v13 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v5 main_v13 main_v14 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x1x512x512, .f32⟩) main_call0_v0) (broadcastInDim S16x1x512x512 ![] bcast_S_S16x1x512x512),
    TRef.binary (TRef.of (T := ⟨S16x1x512x512, .f32⟩) main_v14) (TRef.of (T := ⟨S16x1x512x512, .f32⟩) main_call0_v0) (TRef.of (T := ⟨S16x1x512x512, .f32⟩) main_v15) maximumf,
    binary main_v6 main_v15 main_v16 (addf : (⟨S16x1x512x512, .f32⟩ : BufTy).Contents (Elt F) → (⟨S16x1x512x512, .f32⟩ : BufTy).Contents (Elt F) → (⟨S16x1x512x512, .f32⟩ : BufTy).Contents (Elt F)),
    nullary main_cst_5 (constant S_ .f32 0x7F800000#32),
    unary main_cst_5 main_v17 (broadcastInDim S_ ![] bcast_S_S_ : (⟨S_, .f32⟩ : BufTy).Contents (Elt F) → (⟨S_, .f32⟩ : BufTy).Contents (Elt F)),
    binary main_v5 main_v17 main_v18 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_6 (constant S_ .f32 0x7F800000#32),
    unary main_cst_6 main_v19 (broadcastInDim S_ ![] bcast_S_S_ : (⟨S_, .f32⟩ : BufTy).Contents (Elt F) → (⟨S_, .f32⟩ : BufTy).Contents (Elt F)),
    binary main_v5 main_v19 main_v20 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v18 main_v20 main_v21 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_7 (constant S_ .f32 0x7F800000#32),
    unary main_cst_7 main_v22 (broadcastInDim S_ ![] bcast_S_S_ : (⟨S_, .f32⟩ : BufTy).Contents (Elt F) → (⟨S_, .f32⟩ : BufTy).Contents (Elt F)),
    binary main_v21 main_v22 main_v23 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_8 (constant S_ .f32 0x7F800000#32),
    unary main_cst_8 main_v24 (broadcastInDim S_ ![] bcast_S_S_ : (⟨S_, .f32⟩ : BufTy).Contents (Elt F) → (⟨S_, .f32⟩ : BufTy).Contents (Elt F)),
    binary main_v21 main_v24 main_v25 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v23 main_v25 main_v26 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_9 (constant S_ .f32 0xFF800000#32),
    unary main_cst_9 main_v27 (broadcastInDim S_ ![] bcast_S_S_ : (⟨S_, .f32⟩ : BufTy).Contents (Elt F) → (⟨S_, .f32⟩ : BufTy).Contents (Elt F)),
    binary main_v26 main_v27 main_v28 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v21 main_v28 main_v29 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x1x512x512, .f32⟩) main_call1_v0) (broadcastInDim S16x1x512x512 ![] bcast_S_S16x1x512x512),
    TRef.binary (TRef.of (T := ⟨S16x1x512x512, .f32⟩) main_v29) (TRef.of (T := ⟨S16x1x512x512, .f32⟩) main_call1_v0) (TRef.of (T := ⟨S16x1x512x512, .f32⟩) main_v30) maximumf,
    binary main_v16 main_v30 main_v31 (addf : (⟨S16x1x512x512, .f32⟩ : BufTy).Contents (Elt F) → (⟨S16x1x512x512, .f32⟩ : BufTy).Contents (Elt F) → (⟨S16x1x512x512, .f32⟩ : BufTy).Contents (Elt F)),
    nullary main_cst_10 (constant S_ .f32 0x7F800000#32),
    unary main_cst_10 main_v32 (broadcastInDim S_ ![] bcast_S_S_ : (⟨S_, .f32⟩ : BufTy).Contents (Elt F) → (⟨S_, .f32⟩ : BufTy).Contents (Elt F)),
    binary main_v21 main_v32 main_v33 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_11 (constant S_ .f32 0x7F800000#32),
    unary main_cst_11 main_v34 (broadcastInDim S_ ![] bcast_S_S_ : (⟨S_, .f32⟩ : BufTy).Contents (Elt F) → (⟨S_, .f32⟩ : BufTy).Contents (Elt F)),
    binary main_v21 main_v34 main_v35 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v33 main_v35 main_v36 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_12 (constant S_ .f32 0x7F800000#32),
    unary main_cst_12 main_v37 (broadcastInDim S_ ![] bcast_S_S_ : (⟨S_, .f32⟩ : BufTy).Contents (Elt F) → (⟨S_, .f32⟩ : BufTy).Contents (Elt F)),
    binary main_v36 main_v37 main_v38 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_13 (constant S_ .f32 0x7F800000#32),
    unary main_cst_13 main_v39 (broadcastInDim S_ ![] bcast_S_S_ : (⟨S_, .f32⟩ : BufTy).Contents (Elt F) → (⟨S_, .f32⟩ : BufTy).Contents (Elt F)),
    binary main_v36 main_v39 main_v40 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v38 main_v40 main_v41 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_14 (constant S_ .f32 0xFF800000#32),
    unary main_cst_14 main_v42 (broadcastInDim S_ ![] bcast_S_S_ : (⟨S_, .f32⟩ : BufTy).Contents (Elt F) → (⟨S_, .f32⟩ : BufTy).Contents (Elt F)),
    binary main_v41 main_v42 main_v43 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)) ]

set_option maxRecDepth 8192 in
theorem part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

set_option maxRecDepth 8192 in
theorem ops0_fresh : ∀ op ∈ (ops0 : List (HloOp τ sig (Elt F))), op.fresh = ∅ := by
  intro _ h; (repeat (cases h with | head => rfl | tail _ h => ?_)); exact nomatch h

end Cert.ReferenceIdeal.Ops

end
-- ==== Proof.RefInv.lean ====
/-
  What the buffers still to be read hold between the parts of the batched program: after part K each buffer that a
  later part reads holds its stage's value of the two argument arrays (the stages are the program's operations, one at a
  time, each a function of the stages before it), and the argument buffers hold the arguments.
-/
import proofs.«131082_j25872882991527_1_alg».proof.Proof.RefReadP
import Idealize.ShloMosaic.Lib.StableHlo.Run

noncomputable section

namespace Cert.ReferenceIdeal.Chunks

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- At the start: the argument buffers hold the arguments. -/
def Inv_start (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1

/-- After part 0. -/
def Inv0 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v5) : (⟨S16x1x512x512, .f32⟩ : BufTy).Contents (Elt F)) = val_main_v5 (F := F) x0
    ∧ (V (Proc.devRef .tc main_v31) : (⟨S16x1x512x512, .f32⟩ : BufTy).Contents (Elt F)) = val_main_v31 (F := F) x0
    ∧ (V (Proc.devRef .tc main_v36) : (⟨S16x1x512x512, .f32⟩ : BufTy).Contents (Elt F)) = val_main_v36 (F := F) x0
    ∧ (V (Proc.devRef .tc main_v43) : (⟨S16x1x512x512, .f32⟩ : BufTy).Contents (Elt F)) = val_main_v43 (F := F) x0

/-- After part 1. -/
def Inv1 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v5) : (⟨S16x1x512x512, .f32⟩ : BufTy).Contents (Elt F)) = val_main_v5 (F := F) x0
    ∧ (V (Proc.devRef .tc main_v76) : (⟨S16x1x512x512, .f32⟩ : BufTy).Contents (Elt F)) = val_main_v76 (F := F) x0
    ∧ (V (Proc.devRef .tc main_v81) : (⟨S16x1x512x512, .f32⟩ : BufTy).Contents (Elt F)) = val_main_v81 (F := F) x0
    ∧ (V (Proc.devRef .tc main_v88) : (⟨S16x1x512x512, .f32⟩ : BufTy).Contents (Elt F)) = val_main_v88 (F := F) x0

/-- After part 2. -/
def Inv2 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v5) : (⟨S16x1x512x512, .f32⟩ : BufTy).Contents (Elt F)) = val_main_v5 (F := F) x0
    ∧ (V (Proc.devRef .tc main_v121) : (⟨S16x1x512x512, .f32⟩ : BufTy).Contents (Elt F)) = val_main_v121 (F := F) x0
    ∧ (V (Proc.devRef .tc main_v126) : (⟨S16x1x512x512, .f32⟩ : BufTy).Contents (Elt F)) = val_main_v126 (F := F) x0
    ∧ (V (Proc.devRef .tc main_v133) : (⟨S16x1x512x512, .f32⟩ : BufTy).Contents (Elt F)) = val_main_v133 (F := F) x0

/-- After part 3. -/
def Inv3 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v5) : (⟨S16x1x512x512, .f32⟩ : BufTy).Contents (Elt F)) = val_main_v5 (F := F) x0
    ∧ (V (Proc.devRef .tc main_v151) : (⟨S16x1x512x512, .f32⟩ : BufTy).Contents (Elt F)) = val_main_v151 (F := F) x0
    ∧ (V (Proc.devRef .tc main_v167) : (⟨S16x1x512x512, .f32⟩ : BufTy).Contents (Elt F)) = val_main_v167 (F := F) x1
    ∧ (V (Proc.devRef .tc main_v172) : (⟨S16x1x512x512, .f32⟩ : BufTy).Contents (Elt F)) = val_main_v172 (F := F) x1
    ∧ (V (Proc.devRef .tc main_v177) : (⟨S16x1x512x512, .f32⟩ : BufTy).Contents (Elt F)) = val_main_v177 (F := F) x1
    ∧ (V (Proc.devRef .tc main_cst_60) : (⟨S_, .f32⟩ : BufTy).Contents (Elt F)) = val_main_cst_60 (F := F)

/-- After part 4. -/
def Inv4 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v5) : (⟨S16x1x512x512, .f32⟩ : BufTy).Contents (Elt F)) = val_main_v5 (F := F) x0
    ∧ (V (Proc.devRef .tc main_v151) : (⟨S16x1x512x512, .f32⟩ : BufTy).Contents (Elt F)) = val_main_v151 (F := F) x0
    ∧ (V (Proc.devRef .tc main_v212) : (⟨S16x1x512x512, .f32⟩ : BufTy).Contents (Elt F)) = val_main_v212 (F := F) x1
    ∧ (V (Proc.devRef .tc main_v217) : (⟨S16x1x512x512, .f32⟩ : BufTy).Contents (Elt F)) = val_main_v217 (F := F) x1
    ∧ (V (Proc.devRef .tc main_v222) : (⟨S16x1x512x512, .f32⟩ : BufTy).Contents (Elt F)) = val_main_v222 (F := F) x1
    ∧ (V (Proc.devRef .tc main_cst_75) : (⟨S_, .f32⟩ : BufTy).Contents (Elt F)) = val_main_cst_75 (F := F)

/-- After part 5. -/
def Inv5 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v5) : (⟨S16x1x512x512, .f32⟩ : BufTy).Contents (Elt F)) = val_main_v5 (F := F) x0
    ∧ (V (Proc.devRef .tc main_v151) : (⟨S16x1x512x512, .f32⟩ : BufTy).Contents (Elt F)) = val_main_v151 (F := F) x0
    ∧ (V (Proc.devRef .tc main_v257) : (⟨S16x1x512x512, .f32⟩ : BufTy).Contents (Elt F)) = val_main_v257 (F := F) x1
    ∧ (V (Proc.devRef .tc main_v262) : (⟨S16x1x512x512, .f32⟩ : BufTy).Contents (Elt F)) = val_main_v262 (F := F) x1
    ∧ (V (Proc.devRef .tc main_v267) : (⟨S16x1x512x512, .f32⟩ : BufTy).Contents (Elt F)) = val_main_v267 (F := F) x1
    ∧ (V (Proc.devRef .tc main_cst_90) : (⟨S_, .f32⟩ : BufTy).Contents (Elt F)) = val_main_cst_90 (F := F)

/-- After part 6. -/
def Inv6 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v151) : (⟨S16x1x512x512, .f32⟩ : BufTy).Contents (Elt F)) = val_main_v151 (F := F) x0
    ∧ (V (Proc.devRef .tc main_v312) : (⟨S_, .f32⟩ : BufTy).Contents (Elt F)) = val_main_v312 (F := F) x0 x1

/-- After part 7. -/
def Inv7 (V : Valuation τ sig (Elt F)) (x0 x1 : (⟨S16x1x512x512, .f32⟩ : BufTy).Contents (Elt F)) : Prop :=
  (V (Proc.devRef .tc main_arg0) : (⟨S16x1x512x512, .f32⟩ : BufTy).Contents (Elt F)) = x0
    ∧ (V (Proc.devRef .tc main_arg1) : (⟨S16x1x512x512, .f32⟩ : BufTy).Contents (Elt F)) = x1
    ∧ (V (Proc.devRef .tc main_v323) : (⟨S_, .f32⟩ : BufTy).Contents (Elt F)) = val_main_v323 (F := F) x0 x1

end Cert.ReferenceIdeal.Chunks

end
-- ==== Proof.RefChunk0.lean ====
/-
  Part 0 of the batched program carries the stages on: if the buffers it reads hold their stages' values when it
  starts, the buffers the later parts read hold theirs when it ends (each operation's result is its stage by definition;
  a buffer the part does not write keeps its contents).
-/
import proofs.«131082_j25872882991527_1_alg».proof.Proof.RefOps0
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk0 (V : Valuation τ sig (Elt F)) (x0 x1 : (⟨S16x1x512x512, .f32⟩ : BufTy).Contents (Elt F))
    (h : Inv_start V x0 x1) : Inv0 (after (ops0 (F := F)) V) x0 x1 := by
  obtain ⟨h0, h1⟩ := h
  refine ⟨?_, ?_, ?_, ?_, ?_, ?_⟩
  · after_results_simp
    exact h0
  · after_results_simp
    exact h1
  · after_results_simp
    simp only [h0, h1]
    rfl
  · after_results_simp
    simp only [h0, h1]
    rfl
  · after_results_simp
    simp only [h0, h1]
    rfl
  · after_results_simp
    simp only [h0, h1]
    rfl

end Cert.ReferenceIdeal.Chunks

end
-- ==== Proof.RefOps1.lean ====
/-
  Lines 65 to 130 of the batched program's 477 host operations, as a list (a called function's
  operations stand in its call's place): the program's part 1 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 1, in order. -/
abbrev ops1 : List (HloOp τ sig (Elt F)) :=
  [ binary main_v36 main_v43 main_v44 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x1x512x512, .f32⟩) main_call2_v0) (broadcastInDim S16x1x512x512 ![] bcast_S_S16x1x512x512),
    TRef.binary (TRef.of (T := ⟨S16x1x512x512, .f32⟩) main_v44) (TRef.of (T := ⟨S16x1x512x512, .f32⟩) main_call2_v0) (TRef.of (T := ⟨S16x1x512x512, .f32⟩) main_v45) maximumf,
    binary main_v31 main_v45 main_v46 (addf : (⟨S16x1x512x512, .f32⟩ : BufTy).Contents (Elt F) → (⟨S16x1x512x512, .f32⟩ : BufTy).Contents (Elt F) → (⟨S16x1x512x512, .f32⟩ : BufTy).Contents (Elt F)),
    nullary main_cst_15 (constant S_ .f32 0x7F800000#32),
    unary main_cst_15 main_v47 (broadcastInDim S_ ![] bcast_S_S_ : (⟨S_, .f32⟩ : BufTy).Contents (Elt F) → (⟨S_, .f32⟩ : BufTy).Contents (Elt F)),
    binary main_v36 main_v47 main_v48 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_16 (constant S_ .f32 0x7F800000#32),
    unary main_cst_16 main_v49 (broadcastInDim S_ ![] bcast_S_S_ : (⟨S_, .f32⟩ : BufTy).Contents (Elt F) → (⟨S_, .f32⟩ : BufTy).Contents (Elt F)),
    binary main_v36 main_v49 main_v50 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v48 main_v50 main_v51 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_17 (constant S_ .f32 0x7F800000#32),
    unary main_cst_17 main_v52 (broadcastInDim S_ ![] bcast_S_S_ : (⟨S_, .f32⟩ : BufTy).Contents (Elt F) → (⟨S_, .f32⟩ : BufTy).Contents (Elt F)),
    binary main_v51 main_v52 main_v53 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_18 (constant S_ .f32 0x7F800000#32),
    unary main_cst_18 main_v54 (broadcastInDim S_ ![] bcast_S_S_ : (⟨S_, .f32⟩ : BufTy).Contents (Elt F) → (⟨S_, .f32⟩ : BufTy).Contents (Elt F)),
    binary main_v51 main_v54 main_v55 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v53 main_v55 main_v56 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_19 (constant S_ .f32 0xFF800000#32),
    unary main_cst_19 main_v57 (broadcastInDim S_ ![] bcast_S_S_ : (⟨S_, .f32⟩ : BufTy).Contents (Elt F) → (⟨S_, .f32⟩ : BufTy).Contents (Elt F)),
    binary main_v56 main_v57 main_v58 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v51 main_v58 main_v59 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x1x512x512, .f32⟩) main_call3_v0) (broadcastInDim S16x1x512x512 ![] bcast_S_S16x1x512x512),
    TRef.binary (TRef.of (T := ⟨S16x1x512x512, .f32⟩) main_v59) (TRef.of (T := ⟨S16x1x512x512, .f32⟩) main_call3_v0) (TRef.of (T := ⟨S16x1x512x512, .f32⟩) main_v60) maximumf,
    binary main_v46 main_v60 main_v61 (addf : (⟨S16x1x512x512, .f32⟩ : BufTy).Contents (Elt F) → (⟨S16x1x512x512, .f32⟩ : BufTy).Contents (Elt F) → (⟨S16x1x512x512, .f32⟩ : BufTy).Contents (Elt F)),
    nullary main_cst_20 (constant S_ .f32 0x7F800000#32),
    unary main_cst_20 main_v62 (broadcastInDim S_ ![] bcast_S_S_ : (⟨S_, .f32⟩ : BufTy).Contents (Elt F) → (⟨S_, .f32⟩ : BufTy).Contents (Elt F)),
    binary main_v51 main_v62 main_v63 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_21 (constant S_ .f32 0x7F800000#32),
    unary main_cst_21 main_v64 (broadcastInDim S_ ![] bcast_S_S_ : (⟨S_, .f32⟩ : BufTy).Contents (Elt F) → (⟨S_, .f32⟩ : BufTy).Contents (Elt F)),
    binary main_v51 main_v64 main_v65 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v63 main_v65 main_v66 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_22 (constant S_ .f32 0x7F800000#32),
    unary main_cst_22 main_v67 (broadcastInDim S_ ![] bcast_S_S_ : (⟨S_, .f32⟩ : BufTy).Contents (Elt F) → (⟨S_, .f32⟩ : BufTy).Contents (Elt F)),
    binary main_v66 main_v67 main_v68 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_23 (constant S_ .f32 0x7F800000#32),
    unary main_cst_23 main_v69 (broadcastInDim S_ ![] bcast_S_S_ : (⟨S_, .f32⟩ : BufTy).Contents (Elt F) → (⟨S_, .f32⟩ : BufTy).Contents (Elt F)),
    binary main_v66 main_v69 main_v70 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v68 main_v70 main_v71 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_24 (constant S_ .f32 0xFF800000#32),
    unary main_cst_24 main_v72 (broadcastInDim S_ ![] bcast_S_S_ : (⟨S_, .f32⟩ : BufTy).Contents (Elt F) → (⟨S_, .f32⟩ : BufTy).Contents (Elt F)),
    binary main_v71 main_v72 main_v73 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v66 main_v73 main_v74 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x1x512x512, .f32⟩) main_call4_v0) (broadcastInDim S16x1x512x512 ![] bcast_S_S16x1x512x512),
    TRef.binary (TRef.of (T := ⟨S16x1x512x512, .f32⟩) main_v74) (TRef.of (T := ⟨S16x1x512x512, .f32⟩) main_call4_v0) (TRef.of (T := ⟨S16x1x512x512, .f32⟩) main_v75) maximumf,
    binary main_v61 main_v75 main_v76 (addf : (⟨S16x1x512x512, .f32⟩ : BufTy).Contents (Elt F) → (⟨S16x1x512x512, .f32⟩ : BufTy).Contents (Elt F) → (⟨S16x1x512x512, .f32⟩ : BufTy).Contents (Elt F)),
    nullary main_cst_25 (constant S_ .f32 0x7F800000#32),
    unary main_cst_25 main_v77 (broadcastInDim S_ ![] bcast_S_S_ : (⟨S_, .f32⟩ : BufTy).Contents (Elt F) → (⟨S_, .f32⟩ : BufTy).Contents (Elt F)),
    binary main_v66 main_v77 main_v78 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_26 (constant S_ .f32 0x7F800000#32),
    unary main_cst_26 main_v79 (broadcastInDim S_ ![] bcast_S_S_ : (⟨S_, .f32⟩ : BufTy).Contents (Elt F) → (⟨S_, .f32⟩ : BufTy).Contents (Elt F)),
    binary main_v66 main_v79 main_v80 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v78 main_v80 main_v81 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_27 (constant S_ .f32 0x7F800000#32),
    unary main_cst_27 main_v82 (broadcastInDim S_ ![] bcast_S_S_ : (⟨S_, .f32⟩ : BufTy).Contents (Elt F) → (⟨S_, .f32⟩ : BufTy).Contents (Elt F)),
    binary main_v81 main_v82 main_v83 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_28 (constant S_ .f32 0x7F800000#32),
    unary main_cst_28 main_v84 (broadcastInDim S_ ![] bcast_S_S_ : (⟨S_, .f32⟩ : BufTy).Contents (Elt F) → (⟨S_, .f32⟩ : BufTy).Contents (Elt F)),
    binary main_v81 main_v84 main_v85 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v83 main_v85 main_v86 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_29 (constant S_ .f32 0xFF800000#32),
    unary main_cst_29 main_v87 (broadcastInDim S_ ![] bcast_S_S_ : (⟨S_, .f32⟩ : BufTy).Contents (Elt F) → (⟨S_, .f32⟩ : BufTy).Contents (Elt F)),
    binary main_v86 main_v87 main_v88 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)) ]

set_option maxRecDepth 8192 in
theorem part1_eq (c : Dev nD) : main_part1 (F := F) c = seq ops1 := rfl

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

set_option maxRecDepth 8192 in
theorem ops1_fresh : ∀ op ∈ (ops1 : List (HloOp τ sig (Elt F))), op.fresh = ∅ := by
  intro _ h; (repeat (cases h with | head => rfl | tail _ h => ?_)); exact nomatch h

end Cert.ReferenceIdeal.Ops

end
-- ==== Proof.RefChunk1.lean ====
/-
  Part 1 of the batched program carries the stages on: if the buffers it reads hold their stages' values when it
  starts, the buffers the later parts read hold theirs when it ends (each operation's result is its stage by definition;
  a buffer the part does not write keeps its contents).
-/
import proofs.«131082_j25872882991527_1_alg».proof.Proof.RefOps1
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk1 (V : Valuation τ sig (Elt F)) (x0 x1 : (⟨S16x1x512x512, .f32⟩ : BufTy).Contents (Elt F))
    (h : Inv0 V x0 x1) : Inv1 (after (ops1 (F := F)) V) x0 x1 := by
  obtain ⟨h0, h1, h2, h3, h4, h5⟩ := h
  refine ⟨?_, ?_, ?_, ?_, ?_, ?_⟩
  · after_results_simp
    exact h0
  · after_results_simp
    exact h1
  · after_results_simp
    exact h2
  · after_results_simp
    simp only [h0, h1, h2, h3, h4, h5]
    rfl
  · after_results_simp
    simp only [h0, h1, h2, h3, h4, h5]
    rfl
  · after_results_simp
    simp only [h0, h1, h2, h3, h4, h5]
    rfl

end Cert.ReferenceIdeal.Chunks

end
-- ==== Proof.RefOps2.lean ====
/-
  Lines 131 to 196 of the batched program's 477 host operations, as a list (a called function's
  operations stand in its call's place): the program's part 2 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 2, in order. -/
abbrev ops2 : List (HloOp τ sig (Elt F)) :=
  [ binary main_v81 main_v88 main_v89 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x1x512x512, .f32⟩) main_call5_v0) (broadcastInDim S16x1x512x512 ![] bcast_S_S16x1x512x512),
    TRef.binary (TRef.of (T := ⟨S16x1x512x512, .f32⟩) main_v89) (TRef.of (T := ⟨S16x1x512x512, .f32⟩) main_call5_v0) (TRef.of (T := ⟨S16x1x512x512, .f32⟩) main_v90) maximumf,
    binary main_v76 main_v90 main_v91 (addf : (⟨S16x1x512x512, .f32⟩ : BufTy).Contents (Elt F) → (⟨S16x1x512x512, .f32⟩ : BufTy).Contents (Elt F) → (⟨S16x1x512x512, .f32⟩ : BufTy).Contents (Elt F)),
    nullary main_cst_30 (constant S_ .f32 0x7F800000#32),
    unary main_cst_30 main_v92 (broadcastInDim S_ ![] bcast_S_S_ : (⟨S_, .f32⟩ : BufTy).Contents (Elt F) → (⟨S_, .f32⟩ : BufTy).Contents (Elt F)),
    binary main_v81 main_v92 main_v93 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_31 (constant S_ .f32 0x7F800000#32),
    unary main_cst_31 main_v94 (broadcastInDim S_ ![] bcast_S_S_ : (⟨S_, .f32⟩ : BufTy).Contents (Elt F) → (⟨S_, .f32⟩ : BufTy).Contents (Elt F)),
    binary main_v81 main_v94 main_v95 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v93 main_v95 main_v96 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_32 (constant S_ .f32 0x7F800000#32),
    unary main_cst_32 main_v97 (broadcastInDim S_ ![] bcast_S_S_ : (⟨S_, .f32⟩ : BufTy).Contents (Elt F) → (⟨S_, .f32⟩ : BufTy).Contents (Elt F)),
    binary main_v96 main_v97 main_v98 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_33 (constant S_ .f32 0x7F800000#32),
    unary main_cst_33 main_v99 (broadcastInDim S_ ![] bcast_S_S_ : (⟨S_, .f32⟩ : BufTy).Contents (Elt F) → (⟨S_, .f32⟩ : BufTy).Contents (Elt F)),
    binary main_v96 main_v99 main_v100 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v98 main_v100 main_v101 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_34 (constant S_ .f32 0xFF800000#32),
    unary main_cst_34 main_v102 (broadcastInDim S_ ![] bcast_S_S_ : (⟨S_, .f32⟩ : BufTy).Contents (Elt F) → (⟨S_, .f32⟩ : BufTy).Contents (Elt F)),
    binary main_v101 main_v102 main_v103 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v96 main_v103 main_v104 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x1x512x512, .f32⟩) main_call6_v0) (broadcastInDim S16x1x512x512 ![] bcast_S_S16x1x512x512),
    TRef.binary (TRef.of (T := ⟨S16x1x512x512, .f32⟩) main_v104) (TRef.of (T := ⟨S16x1x512x512, .f32⟩) main_call6_v0) (TRef.of (T := ⟨S16x1x512x512, .f32⟩) main_v105) maximumf,
    binary main_v91 main_v105 main_v106 (addf : (⟨S16x1x512x512, .f32⟩ : BufTy).Contents (Elt F) → (⟨S16x1x512x512, .f32⟩ : BufTy).Contents (Elt F) → (⟨S16x1x512x512, .f32⟩ : BufTy).Contents (Elt F)),
    nullary main_cst_35 (constant S_ .f32 0x7F800000#32),
    unary main_cst_35 main_v107 (broadcastInDim S_ ![] bcast_S_S_ : (⟨S_, .f32⟩ : BufTy).Contents (Elt F) → (⟨S_, .f32⟩ : BufTy).Contents (Elt F)),
    binary main_v96 main_v107 main_v108 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_36 (constant S_ .f32 0x7F800000#32),
    unary main_cst_36 main_v109 (broadcastInDim S_ ![] bcast_S_S_ : (⟨S_, .f32⟩ : BufTy).Contents (Elt F) → (⟨S_, .f32⟩ : BufTy).Contents (Elt F)),
    binary main_v96 main_v109 main_v110 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v108 main_v110 main_v111 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_37 (constant S_ .f32 0x7F800000#32),
    unary main_cst_37 main_v112 (broadcastInDim S_ ![] bcast_S_S_ : (⟨S_, .f32⟩ : BufTy).Contents (Elt F) → (⟨S_, .f32⟩ : BufTy).Contents (Elt F)),
    binary main_v111 main_v112 main_v113 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_38 (constant S_ .f32 0x7F800000#32),
    unary main_cst_38 main_v114 (broadcastInDim S_ ![] bcast_S_S_ : (⟨S_, .f32⟩ : BufTy).Contents (Elt F) → (⟨S_, .f32⟩ : BufTy).Contents (Elt F)),
    binary main_v111 main_v114 main_v115 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v113 main_v115 main_v116 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_39 (constant S_ .f32 0xFF800000#32),
    unary main_cst_39 main_v117 (broadcastInDim S_ ![] bcast_S_S_ : (⟨S_, .f32⟩ : BufTy).Contents (Elt F) → (⟨S_, .f32⟩ : BufTy).Contents (Elt F)),
    binary main_v116 main_v117 main_v118 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v111 main_v118 main_v119 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x1x512x512, .f32⟩) main_call7_v0) (broadcastInDim S16x1x512x512 ![] bcast_S_S16x1x512x512),
    TRef.binary (TRef.of (T := ⟨S16x1x512x512, .f32⟩) main_v119) (TRef.of (T := ⟨S16x1x512x512, .f32⟩) main_call7_v0) (TRef.of (T := ⟨S16x1x512x512, .f32⟩) main_v120) maximumf,
    binary main_v106 main_v120 main_v121 (addf : (⟨S16x1x512x512, .f32⟩ : BufTy).Contents (Elt F) → (⟨S16x1x512x512, .f32⟩ : BufTy).Contents (Elt F) → (⟨S16x1x512x512, .f32⟩ : BufTy).Contents (Elt F)),
    nullary main_cst_40 (constant S_ .f32 0x7F800000#32),
    unary main_cst_40 main_v122 (broadcastInDim S_ ![] bcast_S_S_ : (⟨S_, .f32⟩ : BufTy).Contents (Elt F) → (⟨S_, .f32⟩ : BufTy).Contents (Elt F)),
    binary main_v111 main_v122 main_v123 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_41 (constant S_ .f32 0x7F800000#32),
    unary main_cst_41 main_v124 (broadcastInDim S_ ![] bcast_S_S_ : (⟨S_, .f32⟩ : BufTy).Contents (Elt F) → (⟨S_, .f32⟩ : BufTy).Contents (Elt F)),
    binary main_v111 main_v124 main_v125 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v123 main_v125 main_v126 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_42 (constant S_ .f32 0x7F800000#32),
    unary main_cst_42 main_v127 (broadcastInDim S_ ![] bcast_S_S_ : (⟨S_, .f32⟩ : BufTy).Contents (Elt F) → (⟨S_, .f32⟩ : BufTy).Contents (Elt F)),
    binary main_v126 main_v127 main_v128 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_43 (constant S_ .f32 0x7F800000#32),
    unary main_cst_43 main_v129 (broadcastInDim S_ ![] bcast_S_S_ : (⟨S_, .f32⟩ : BufTy).Contents (Elt F) → (⟨S_, .f32⟩ : BufTy).Contents (Elt F)),
    binary main_v126 main_v129 main_v130 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v128 main_v130 main_v131 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_44 (constant S_ .f32 0xFF800000#32),
    unary main_cst_44 main_v132 (broadcastInDim S_ ![] bcast_S_S_ : (⟨S_, .f32⟩ : BufTy).Contents (Elt F) → (⟨S_, .f32⟩ : BufTy).Contents (Elt F)),
    binary main_v131 main_v132 main_v133 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)) ]

set_option maxRecDepth 8192 in
theorem part2_eq (c : Dev nD) : main_part2 (F := F) c = seq ops2 := rfl

set_option maxRecDepth 8192 in
theorem ops2_sub : (ops2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

set_option maxRecDepth 8192 in
theorem ops2_fresh : ∀ op ∈ (ops2 : List (HloOp τ sig (Elt F))), op.fresh = ∅ := by
  intro _ h; (repeat (cases h with | head => rfl | tail _ h => ?_)); exact nomatch h

end Cert.ReferenceIdeal.Ops

end
-- ==== Proof.RefChunk2.lean ====
/-
  Part 2 of the batched program carries the stages on: if the buffers it reads hold their stages' values when it
  starts, the buffers the later parts read hold theirs when it ends (each operation's result is its stage by definition;
  a buffer the part does not write keeps its contents).
-/
import proofs.«131082_j25872882991527_1_alg».proof.Proof.RefOps2
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk2 (V : Valuation τ sig (Elt F)) (x0 x1 : (⟨S16x1x512x512, .f32⟩ : BufTy).Contents (Elt F))
    (h : Inv1 V x0 x1) : Inv2 (after (ops2 (F := F)) V) x0 x1 := by
  obtain ⟨h0, h1, h2, h3, h4, h5⟩ := h
  refine ⟨?_, ?_, ?_, ?_, ?_, ?_⟩
  · after_results_simp
    exact h0
  · after_results_simp
    exact h1
  · after_results_simp
    exact h2
  · after_results_simp
    simp only [h0, h1, h2, h3, h4, h5]
    rfl
  · after_results_simp
    simp only [h0, h1, h2, h3, h4, h5]
    rfl
  · after_results_simp
    simp only [h0, h1, h2, h3, h4, h5]
    rfl

end Cert.ReferenceIdeal.Chunks

end
-- ==== Proof.RefOps3.lean ====
/-
  Lines 197 to 262 of the batched program's 477 host operations, as a list (a called function's
  operations stand in its call's place): the program's part 3 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 3, in order. -/
abbrev ops3 : List (HloOp τ sig (Elt F)) :=
  [ binary main_v126 main_v133 main_v134 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16x1x512x512, .f32⟩) main_call8_v0) (broadcastInDim S16x1x512x512 ![] bcast_S_S16x1x512x512),
    TRef.binary (TRef.of (T := ⟨S16x1x512x512, .f32⟩) main_v134) (TRef.of (T := ⟨S16x1x512x512, .f32⟩) main_call8_v0) (TRef.of (T := ⟨S16x1x512x512, .f32⟩) main_v135) maximumf,
    binary main_v121 main_v135 main_v136 (addf : (⟨S16x1x512x512, .f32⟩ : BufTy).Contents (Elt F) → (⟨S16x1x512x512, .f32⟩ : BufTy).Contents (Elt F) → (⟨S16x1x512x512, .f32⟩ : BufTy).Contents (Elt F)),
    nullary main_cst_45 (constant S_ .f32 0x7F800000#32),
    unary main_cst_45 main_v137 (broadcastInDim S_ ![] bcast_S_S_ : (⟨S_, .f32⟩ : BufTy).Contents (Elt F) → (⟨S_, .f32⟩ : BufTy).Contents (Elt F)),
    binary main_v126 main_v137 main_v138 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_46 (constant S_ .f32 0x7F800000#32),
    unary main_cst_46 main_v139 (broadcastInDim S_ ![] bcast_S_S_ : (⟨S_, .f32⟩ : BufTy).Contents (Elt F) → (⟨S_, .f32⟩ : BufTy).Contents (Elt F)),
    binary main_v126 main_v139 main_v140 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v138 main_v140 main_v141 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_47 (constant S_ .f32 0x7F800000#32),
    unary main_cst_47 main_v142 (broadcastInDim S_ ![] bcast_S_S_ : (⟨S_, .f32⟩ : BufTy).Contents (Elt F) → (⟨S_, .f32⟩ : BufTy).Contents (Elt F)),
    binary main_v141 main_v142 main_v143 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_48 (constant S_ .f32 0x7F800000#32),
    unary main_cst_48 main_v144 (broadcastInDim S_ ![] bcast_S_S_ : (⟨S_, .f32⟩ : BufTy).Contents (Elt F) → (⟨S_, .f32⟩ : BufTy).Contents (Elt F)),
    binary main_v141 main_v144 main_v145 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v143 main_v145 main_v146 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_49 (constant S_ .f32 0xFF800000#32),
    unary main_cst_49 main_v147 (broadcastInDim S_ ![] bcast_S_S_ : (⟨S_, .f32⟩ : BufTy).Contents (Elt F) → (⟨S_, .f32⟩ : BufTy).Contents (Elt F)),
    binary main_v146 main_v147 main_v148 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v141 main_v148 main_v149 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x1x512x512, .f32⟩) main_call9_v0) (broadcastInDim S16x1x512x512 ![] bcast_S_S16x1x512x512),
    TRef.binary (TRef.of (T := ⟨S16x1x512x512, .f32⟩) main_v149) (TRef.of (T := ⟨S16x1x512x512, .f32⟩) main_call9_v0) (TRef.of (T := ⟨S16x1x512x512, .f32⟩) main_v150) maximumf,
    binary main_v136 main_v150 main_v151 (addf : (⟨S16x1x512x512, .f32⟩ : BufTy).Contents (Elt F) → (⟨S16x1x512x512, .f32⟩ : BufTy).Contents (Elt F) → (⟨S16x1x512x512, .f32⟩ : BufTy).Contents (Elt F)),
    nullary main_cst_50 (constant S_ .f32 0x7F800000#32),
    unary main_cst_50 main_v152 (broadcastInDim S_ ![] bcast_S_S_ : (⟨S_, .f32⟩ : BufTy).Contents (Elt F) → (⟨S_, .f32⟩ : BufTy).Contents (Elt F)),
    binary main_v141 main_v152 main_v153 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_51 (constant S_ .f32 0x7F800000#32),
    unary main_cst_51 main_v154 (broadcastInDim S_ ![] bcast_S_S_ : (⟨S_, .f32⟩ : BufTy).Contents (Elt F) → (⟨S_, .f32⟩ : BufTy).Contents (Elt F)),
    binary main_v141 main_v154 main_v155 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v153 main_v155 main_v156 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_52 (constant S_ .f32 0x00000000#32),
    unary main_cst_52 main_v157 (broadcastInDim S16x1x512x512 ![] bcast_S_S16x1x512x512 : (⟨S_, .f32⟩ : BufTy).Contents (Elt F) → (⟨S16x1x512x512, .f32⟩ : BufTy).Contents (Elt F)),
    nullary main_cst_53 (constant S_ .f32 0x7F800000#32),
    unary main_cst_53 main_v158 (broadcastInDim S_ ![] bcast_S_S_ : (⟨S_, .f32⟩ : BufTy).Contents (Elt F) → (⟨S_, .f32⟩ : BufTy).Contents (Elt F)),
    binary main_arg1 main_v158 main_v159 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_54 (constant S_ .f32 0x7F800000#32),
    unary main_cst_54 main_v160 (broadcastInDim S_ ![] bcast_S_S_ : (⟨S_, .f32⟩ : BufTy).Contents (Elt F) → (⟨S_, .f32⟩ : BufTy).Contents (Elt F)),
    binary main_arg1 main_v160 main_v161 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v159 main_v161 main_v162 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_55 (constant S_ .f32 0xFF800000#32),
    unary main_cst_55 main_v163 (broadcastInDim S_ ![] bcast_S_S_ : (⟨S_, .f32⟩ : BufTy).Contents (Elt F) → (⟨S_, .f32⟩ : BufTy).Contents (Elt F)),
    binary main_v162 main_v163 main_v164 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_arg1 main_v164 main_v165 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S16x1x512x512, .f32⟩) main_call10_v0) (broadcastInDim S16x1x512x512 ![] bcast_S_S16x1x512x512),
    TRef.binary (TRef.of (T := ⟨S16x1x512x512, .f32⟩) main_v165) (TRef.of (T := ⟨S16x1x512x512, .f32⟩) main_call10_v0) (TRef.of (T := ⟨S16x1x512x512, .f32⟩) main_v166) maximumf,
    binary main_v157 main_v166 main_v167 (addf : (⟨S16x1x512x512, .f32⟩ : BufTy).Contents (Elt F) → (⟨S16x1x512x512, .f32⟩ : BufTy).Contents (Elt F) → (⟨S16x1x512x512, .f32⟩ : BufTy).Contents (Elt F)),
    nullary main_cst_56 (constant S_ .f32 0x7F800000#32),
    unary main_cst_56 main_v168 (broadcastInDim S_ ![] bcast_S_S_ : (⟨S_, .f32⟩ : BufTy).Contents (Elt F) → (⟨S_, .f32⟩ : BufTy).Contents (Elt F)),
    binary main_arg1 main_v168 main_v169 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_57 (constant S_ .f32 0x7F800000#32),
    unary main_cst_57 main_v170 (broadcastInDim S_ ![] bcast_S_S_ : (⟨S_, .f32⟩ : BufTy).Contents (Elt F) → (⟨S_, .f32⟩ : BufTy).Contents (Elt F)),
    binary main_arg1 main_v170 main_v171 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v169 main_v171 main_v172 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_58 (constant S_ .f32 0x7F800000#32),
    unary main_cst_58 main_v173 (broadcastInDim S_ ![] bcast_S_S_ : (⟨S_, .f32⟩ : BufTy).Contents (Elt F) → (⟨S_, .f32⟩ : BufTy).Contents (Elt F)),
    binary main_v172 main_v173 main_v174 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_59 (constant S_ .f32 0x7F800000#32),
    unary main_cst_59 main_v175 (broadcastInDim S_ ![] bcast_S_S_ : (⟨S_, .f32⟩ : BufTy).Contents (Elt F) → (⟨S_, .f32⟩ : BufTy).Contents (Elt F)),
    binary main_v172 main_v175 main_v176 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v174 main_v176 main_v177 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_60 (constant S_ .f32 0xFF800000#32) ]

set_option maxRecDepth 8192 in
theorem part3_eq (c : Dev nD) : main_part3 (F := F) c = seq ops3 := rfl

set_option maxRecDepth 8192 in
theorem ops3_sub : (ops3 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub ..⟩

set_option maxRecDepth 8192 in
theorem ops3_fresh : ∀ op ∈ (ops3 : List (HloOp τ sig (Elt F))), op.fresh = ∅ := by
  intro _ h; (repeat (cases h with | head => rfl | tail _ h => ?_)); exact nomatch h

end Cert.ReferenceIdeal.Ops

end
-- ==== Proof.RefChunk3.lean ====
/-
  Part 3 of the batched program carries the stages on: if the buffers it reads hold their stages' values when it
  starts, the buffers the later parts read hold theirs when it ends (each operation's result is its stage by definition;
  a buffer the part does not write keeps its contents).
-/
import proofs.«131082_j25872882991527_1_alg».proof.Proof.RefOps3
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk3 (V : Valuation τ sig (Elt F)) (x0 x1 : (⟨S16x1x512x512, .f32⟩ : BufTy).Contents (Elt F))
    (h : Inv2 V x0 x1) : Inv3 (after (ops3 (F := F)) V) x0 x1 := by
  obtain ⟨h0, h1, h2, h3, h4, h5⟩ := h
  refine ⟨?_, ?_, ?_, ?_, ?_, ?_, ?_, ?_⟩
  · after_results_simp
    exact h0
  · after_results_simp
    exact h1
  · after_results_simp
    exact h2
  · after_results_simp
    first | (simp only [h0, h1, h2, h3, h4, h5]; rfl) | rfl
  · after_results_simp
    first | (simp only [h0, h1, h2, h3, h4, h5]; rfl) | rfl
  · after_results_simp
    first | (simp only [h0, h1, h2, h3, h4, h5]; rfl) | rfl
  · after_results_simp
    first | (simp only [h0, h1, h2, h3, h4, h5]; rfl) | rfl
  · after_results_simp
    first | (simp only [h0, h1, h2, h3, h4, h5]; rfl) | rfl

end Cert.ReferenceIdeal.Chunks

end
-- ==== Proof.RefOps4.lean ====
/-
  Lines 263 to 328 of the batched program's 477 host operations, as a list (a called function's
  operations stand in its call's place): the program's part 4 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 4, in order. -/
abbrev ops4 : List (HloOp τ sig (Elt F)) :=
  [ unary main_cst_60 main_v178 (broadcastInDim S_ ![] bcast_S_S_ : (⟨S_, .f32⟩ : BufTy).Contents (Elt F) → (⟨S_, .f32⟩ : BufTy).Contents (Elt F)),
    binary main_v177 main_v178 main_v179 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v172 main_v179 main_v180 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S16x1x512x512, .f32⟩) main_call11_v0) (broadcastInDim S16x1x512x512 ![] bcast_S_S16x1x512x512),
    TRef.binary (TRef.of (T := ⟨S16x1x512x512, .f32⟩) main_v180) (TRef.of (T := ⟨S16x1x512x512, .f32⟩) main_call11_v0) (TRef.of (T := ⟨S16x1x512x512, .f32⟩) main_v181) maximumf,
    binary main_v167 main_v181 main_v182 (addf : (⟨S16x1x512x512, .f32⟩ : BufTy).Contents (Elt F) → (⟨S16x1x512x512, .f32⟩ : BufTy).Contents (Elt F) → (⟨S16x1x512x512, .f32⟩ : BufTy).Contents (Elt F)),
    nullary main_cst_61 (constant S_ .f32 0x7F800000#32),
    unary main_cst_61 main_v183 (broadcastInDim S_ ![] bcast_S_S_ : (⟨S_, .f32⟩ : BufTy).Contents (Elt F) → (⟨S_, .f32⟩ : BufTy).Contents (Elt F)),
    binary main_v172 main_v183 main_v184 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_62 (constant S_ .f32 0x7F800000#32),
    unary main_cst_62 main_v185 (broadcastInDim S_ ![] bcast_S_S_ : (⟨S_, .f32⟩ : BufTy).Contents (Elt F) → (⟨S_, .f32⟩ : BufTy).Contents (Elt F)),
    binary main_v172 main_v185 main_v186 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v184 main_v186 main_v187 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_63 (constant S_ .f32 0x7F800000#32),
    unary main_cst_63 main_v188 (broadcastInDim S_ ![] bcast_S_S_ : (⟨S_, .f32⟩ : BufTy).Contents (Elt F) → (⟨S_, .f32⟩ : BufTy).Contents (Elt F)),
    binary main_v187 main_v188 main_v189 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_64 (constant S_ .f32 0x7F800000#32),
    unary main_cst_64 main_v190 (broadcastInDim S_ ![] bcast_S_S_ : (⟨S_, .f32⟩ : BufTy).Contents (Elt F) → (⟨S_, .f32⟩ : BufTy).Contents (Elt F)),
    binary main_v187 main_v190 main_v191 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v189 main_v191 main_v192 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_65 (constant S_ .f32 0xFF800000#32),
    unary main_cst_65 main_v193 (broadcastInDim S_ ![] bcast_S_S_ : (⟨S_, .f32⟩ : BufTy).Contents (Elt F) → (⟨S_, .f32⟩ : BufTy).Contents (Elt F)),
    binary main_v192 main_v193 main_v194 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v187 main_v194 main_v195 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S16x1x512x512, .f32⟩) main_call12_v0) (broadcastInDim S16x1x512x512 ![] bcast_S_S16x1x512x512),
    TRef.binary (TRef.of (T := ⟨S16x1x512x512, .f32⟩) main_v195) (TRef.of (T := ⟨S16x1x512x512, .f32⟩) main_call12_v0) (TRef.of (T := ⟨S16x1x512x512, .f32⟩) main_v196) maximumf,
    binary main_v182 main_v196 main_v197 (addf : (⟨S16x1x512x512, .f32⟩ : BufTy).Contents (Elt F) → (⟨S16x1x512x512, .f32⟩ : BufTy).Contents (Elt F) → (⟨S16x1x512x512, .f32⟩ : BufTy).Contents (Elt F)),
    nullary main_cst_66 (constant S_ .f32 0x7F800000#32),
    unary main_cst_66 main_v198 (broadcastInDim S_ ![] bcast_S_S_ : (⟨S_, .f32⟩ : BufTy).Contents (Elt F) → (⟨S_, .f32⟩ : BufTy).Contents (Elt F)),
    binary main_v187 main_v198 main_v199 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_67 (constant S_ .f32 0x7F800000#32),
    unary main_cst_67 main_v200 (broadcastInDim S_ ![] bcast_S_S_ : (⟨S_, .f32⟩ : BufTy).Contents (Elt F) → (⟨S_, .f32⟩ : BufTy).Contents (Elt F)),
    binary main_v187 main_v200 main_v201 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v199 main_v201 main_v202 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_68 (constant S_ .f32 0x7F800000#32),
    unary main_cst_68 main_v203 (broadcastInDim S_ ![] bcast_S_S_ : (⟨S_, .f32⟩ : BufTy).Contents (Elt F) → (⟨S_, .f32⟩ : BufTy).Contents (Elt F)),
    binary main_v202 main_v203 main_v204 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_69 (constant S_ .f32 0x7F800000#32),
    unary main_cst_69 main_v205 (broadcastInDim S_ ![] bcast_S_S_ : (⟨S_, .f32⟩ : BufTy).Contents (Elt F) → (⟨S_, .f32⟩ : BufTy).Contents (Elt F)),
    binary main_v202 main_v205 main_v206 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v204 main_v206 main_v207 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_70 (constant S_ .f32 0xFF800000#32),
    unary main_cst_70 main_v208 (broadcastInDim S_ ![] bcast_S_S_ : (⟨S_, .f32⟩ : BufTy).Contents (Elt F) → (⟨S_, .f32⟩ : BufTy).Contents (Elt F)),
    binary main_v207 main_v208 main_v209 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v202 main_v209 main_v210 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S16x1x512x512, .f32⟩) main_call13_v0) (broadcastInDim S16x1x512x512 ![] bcast_S_S16x1x512x512),
    TRef.binary (TRef.of (T := ⟨S16x1x512x512, .f32⟩) main_v210) (TRef.of (T := ⟨S16x1x512x512, .f32⟩) main_call13_v0) (TRef.of (T := ⟨S16x1x512x512, .f32⟩) main_v211) maximumf,
    binary main_v197 main_v211 main_v212 (addf : (⟨S16x1x512x512, .f32⟩ : BufTy).Contents (Elt F) → (⟨S16x1x512x512, .f32⟩ : BufTy).Contents (Elt F) → (⟨S16x1x512x512, .f32⟩ : BufTy).Contents (Elt F)),
    nullary main_cst_71 (constant S_ .f32 0x7F800000#32),
    unary main_cst_71 main_v213 (broadcastInDim S_ ![] bcast_S_S_ : (⟨S_, .f32⟩ : BufTy).Contents (Elt F) → (⟨S_, .f32⟩ : BufTy).Contents (Elt F)),
    binary main_v202 main_v213 main_v214 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_72 (constant S_ .f32 0x7F800000#32),
    unary main_cst_72 main_v215 (broadcastInDim S_ ![] bcast_S_S_ : (⟨S_, .f32⟩ : BufTy).Contents (Elt F) → (⟨S_, .f32⟩ : BufTy).Contents (Elt F)),
    binary main_v202 main_v215 main_v216 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v214 main_v216 main_v217 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_73 (constant S_ .f32 0x7F800000#32),
    unary main_cst_73 main_v218 (broadcastInDim S_ ![] bcast_S_S_ : (⟨S_, .f32⟩ : BufTy).Contents (Elt F) → (⟨S_, .f32⟩ : BufTy).Contents (Elt F)),
    binary main_v217 main_v218 main_v219 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_74 (constant S_ .f32 0x7F800000#32),
    unary main_cst_74 main_v220 (broadcastInDim S_ ![] bcast_S_S_ : (⟨S_, .f32⟩ : BufTy).Contents (Elt F) → (⟨S_, .f32⟩ : BufTy).Contents (Elt F)),
    binary main_v217 main_v220 main_v221 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v219 main_v221 main_v222 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_75 (constant S_ .f32 0xFF800000#32) ]

set_option maxRecDepth 8192 in
theorem part4_eq (c : Dev nD) : main_part4 (F := F) c = seq ops4 := rfl

set_option maxRecDepth 8192 in
theorem ops4_sub : (ops4 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub ..⟩

set_option maxRecDepth 8192 in
theorem ops4_fresh : ∀ op ∈ (ops4 : List (HloOp τ sig (Elt F))), op.fresh = ∅ := by
  intro _ h; (repeat (cases h with | head => rfl | tail _ h => ?_)); exact nomatch h

end Cert.ReferenceIdeal.Ops

end
-- ==== Proof.RefChunk4.lean ====
/-
  Part 4 of the batched program carries the stages on: if the buffers it reads hold their stages' values when it
  starts, the buffers the later parts read hold theirs when it ends (each operation's result is its stage by definition;
  a buffer the part does not write keeps its contents).
-/
import proofs.«131082_j25872882991527_1_alg».proof.Proof.RefOps4
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk4 (V : Valuation τ sig (Elt F)) (x0 x1 : (⟨S16x1x512x512, .f32⟩ : BufTy).Contents (Elt F))
    (h : Inv3 V x0 x1) : Inv4 (after (ops4 (F := F)) V) x0 x1 := by
  obtain ⟨h0, h1, h2, h3, h4, h5, h6, h7⟩ := h
  refine ⟨?_, ?_, ?_, ?_, ?_, ?_, ?_, ?_⟩
  · after_results_simp
    exact h0
  · after_results_simp
    exact h1
  · after_results_simp
    exact h2
  · after_results_simp
    exact h3
  · after_results_simp
    first | (simp only [h0, h1, h2, h3, h4, h5, h6, h7]; rfl) | rfl
  · after_results_simp
    first | (simp only [h0, h1, h2, h3, h4, h5, h6, h7]; rfl) | rfl
  · after_results_simp
    first | (simp only [h0, h1, h2, h3, h4, h5, h6, h7]; rfl) | rfl
  · after_results_simp
    first | (simp only [h0, h1, h2, h3, h4, h5, h6, h7]; rfl) | rfl

end Cert.ReferenceIdeal.Chunks

end
-- ==== Proof.RefOps5.lean ====
/-
  Lines 329 to 394 of the batched program's 477 host operations, as a list (a called function's
  operations stand in its call's place): the program's part 5 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 5, in order. -/
abbrev ops5 : List (HloOp τ sig (Elt F)) :=
  [ unary main_cst_75 main_v223 (broadcastInDim S_ ![] bcast_S_S_ : (⟨S_, .f32⟩ : BufTy).Contents (Elt F) → (⟨S_, .f32⟩ : BufTy).Contents (Elt F)),
    binary main_v222 main_v223 main_v224 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v217 main_v224 main_v225 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S16x1x512x512, .f32⟩) main_call14_v0) (broadcastInDim S16x1x512x512 ![] bcast_S_S16x1x512x512),
    TRef.binary (TRef.of (T := ⟨S16x1x512x512, .f32⟩) main_v225) (TRef.of (T := ⟨S16x1x512x512, .f32⟩) main_call14_v0) (TRef.of (T := ⟨S16x1x512x512, .f32⟩) main_v226) maximumf,
    binary main_v212 main_v226 main_v227 (addf : (⟨S16x1x512x512, .f32⟩ : BufTy).Contents (Elt F) → (⟨S16x1x512x512, .f32⟩ : BufTy).Contents (Elt F) → (⟨S16x1x512x512, .f32⟩ : BufTy).Contents (Elt F)),
    nullary main_cst_76 (constant S_ .f32 0x7F800000#32),
    unary main_cst_76 main_v228 (broadcastInDim S_ ![] bcast_S_S_ : (⟨S_, .f32⟩ : BufTy).Contents (Elt F) → (⟨S_, .f32⟩ : BufTy).Contents (Elt F)),
    binary main_v217 main_v228 main_v229 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_77 (constant S_ .f32 0x7F800000#32),
    unary main_cst_77 main_v230 (broadcastInDim S_ ![] bcast_S_S_ : (⟨S_, .f32⟩ : BufTy).Contents (Elt F) → (⟨S_, .f32⟩ : BufTy).Contents (Elt F)),
    binary main_v217 main_v230 main_v231 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v229 main_v231 main_v232 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_78 (constant S_ .f32 0x7F800000#32),
    unary main_cst_78 main_v233 (broadcastInDim S_ ![] bcast_S_S_ : (⟨S_, .f32⟩ : BufTy).Contents (Elt F) → (⟨S_, .f32⟩ : BufTy).Contents (Elt F)),
    binary main_v232 main_v233 main_v234 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_79 (constant S_ .f32 0x7F800000#32),
    unary main_cst_79 main_v235 (broadcastInDim S_ ![] bcast_S_S_ : (⟨S_, .f32⟩ : BufTy).Contents (Elt F) → (⟨S_, .f32⟩ : BufTy).Contents (Elt F)),
    binary main_v232 main_v235 main_v236 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v234 main_v236 main_v237 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_80 (constant S_ .f32 0xFF800000#32),
    unary main_cst_80 main_v238 (broadcastInDim S_ ![] bcast_S_S_ : (⟨S_, .f32⟩ : BufTy).Contents (Elt F) → (⟨S_, .f32⟩ : BufTy).Contents (Elt F)),
    binary main_v237 main_v238 main_v239 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v232 main_v239 main_v240 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S16x1x512x512, .f32⟩) main_call15_v0) (broadcastInDim S16x1x512x512 ![] bcast_S_S16x1x512x512),
    TRef.binary (TRef.of (T := ⟨S16x1x512x512, .f32⟩) main_v240) (TRef.of (T := ⟨S16x1x512x512, .f32⟩) main_call15_v0) (TRef.of (T := ⟨S16x1x512x512, .f32⟩) main_v241) maximumf,
    binary main_v227 main_v241 main_v242 (addf : (⟨S16x1x512x512, .f32⟩ : BufTy).Contents (Elt F) → (⟨S16x1x512x512, .f32⟩ : BufTy).Contents (Elt F) → (⟨S16x1x512x512, .f32⟩ : BufTy).Contents (Elt F)),
    nullary main_cst_81 (constant S_ .f32 0x7F800000#32),
    unary main_cst_81 main_v243 (broadcastInDim S_ ![] bcast_S_S_ : (⟨S_, .f32⟩ : BufTy).Contents (Elt F) → (⟨S_, .f32⟩ : BufTy).Contents (Elt F)),
    binary main_v232 main_v243 main_v244 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_82 (constant S_ .f32 0x7F800000#32),
    unary main_cst_82 main_v245 (broadcastInDim S_ ![] bcast_S_S_ : (⟨S_, .f32⟩ : BufTy).Contents (Elt F) → (⟨S_, .f32⟩ : BufTy).Contents (Elt F)),
    binary main_v232 main_v245 main_v246 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v244 main_v246 main_v247 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_83 (constant S_ .f32 0x7F800000#32),
    unary main_cst_83 main_v248 (broadcastInDim S_ ![] bcast_S_S_ : (⟨S_, .f32⟩ : BufTy).Contents (Elt F) → (⟨S_, .f32⟩ : BufTy).Contents (Elt F)),
    binary main_v247 main_v248 main_v249 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_84 (constant S_ .f32 0x7F800000#32),
    unary main_cst_84 main_v250 (broadcastInDim S_ ![] bcast_S_S_ : (⟨S_, .f32⟩ : BufTy).Contents (Elt F) → (⟨S_, .f32⟩ : BufTy).Contents (Elt F)),
    binary main_v247 main_v250 main_v251 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v249 main_v251 main_v252 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_85 (constant S_ .f32 0xFF800000#32),
    unary main_cst_85 main_v253 (broadcastInDim S_ ![] bcast_S_S_ : (⟨S_, .f32⟩ : BufTy).Contents (Elt F) → (⟨S_, .f32⟩ : BufTy).Contents (Elt F)),
    binary main_v252 main_v253 main_v254 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v247 main_v254 main_v255 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S16x1x512x512, .f32⟩) main_call16_v0) (broadcastInDim S16x1x512x512 ![] bcast_S_S16x1x512x512),
    TRef.binary (TRef.of (T := ⟨S16x1x512x512, .f32⟩) main_v255) (TRef.of (T := ⟨S16x1x512x512, .f32⟩) main_call16_v0) (TRef.of (T := ⟨S16x1x512x512, .f32⟩) main_v256) maximumf,
    binary main_v242 main_v256 main_v257 (addf : (⟨S16x1x512x512, .f32⟩ : BufTy).Contents (Elt F) → (⟨S16x1x512x512, .f32⟩ : BufTy).Contents (Elt F) → (⟨S16x1x512x512, .f32⟩ : BufTy).Contents (Elt F)),
    nullary main_cst_86 (constant S_ .f32 0x7F800000#32),
    unary main_cst_86 main_v258 (broadcastInDim S_ ![] bcast_S_S_ : (⟨S_, .f32⟩ : BufTy).Contents (Elt F) → (⟨S_, .f32⟩ : BufTy).Contents (Elt F)),
    binary main_v247 main_v258 main_v259 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_87 (constant S_ .f32 0x7F800000#32),
    unary main_cst_87 main_v260 (broadcastInDim S_ ![] bcast_S_S_ : (⟨S_, .f32⟩ : BufTy).Contents (Elt F) → (⟨S_, .f32⟩ : BufTy).Contents (Elt F)),
    binary main_v247 main_v260 main_v261 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v259 main_v261 main_v262 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_88 (constant S_ .f32 0x7F800000#32),
    unary main_cst_88 main_v263 (broadcastInDim S_ ![] bcast_S_S_ : (⟨S_, .f32⟩ : BufTy).Contents (Elt F) → (⟨S_, .f32⟩ : BufTy).Contents (Elt F)),
    binary main_v262 main_v263 main_v264 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_89 (constant S_ .f32 0x7F800000#32),
    unary main_cst_89 main_v265 (broadcastInDim S_ ![] bcast_S_S_ : (⟨S_, .f32⟩ : BufTy).Contents (Elt F) → (⟨S_, .f32⟩ : BufTy).Contents (Elt F)),
    binary main_v262 main_v265 main_v266 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v264 main_v266 main_v267 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_90 (constant S_ .f32 0xFF800000#32) ]

set_option maxRecDepth 8192 in
theorem part5_eq (c : Dev nD) : main_part5 (F := F) c = seq ops5 := rfl

set_option maxRecDepth 8192 in
theorem ops5_sub : (ops5 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub ..⟩

set_option maxRecDepth 8192 in
theorem ops5_fresh : ∀ op ∈ (ops5 : List (HloOp τ sig (Elt F))), op.fresh = ∅ := by
  intro _ h; (repeat (cases h with | head => rfl | tail _ h => ?_)); exact nomatch h

end Cert.ReferenceIdeal.Ops

end
-- ==== Proof.RefChunk5.lean ====
/-
  Part 5 of the batched program carries the stages on: if the buffers it reads hold their stages' values when it
  starts, the buffers the later parts read hold theirs when it ends (each operation's result is its stage by definition;
  a buffer the part does not write keeps its contents).
-/
import proofs.«131082_j25872882991527_1_alg».proof.Proof.RefOps5
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk5 (V : Valuation τ sig (Elt F)) (x0 x1 : (⟨S16x1x512x512, .f32⟩ : BufTy).Contents (Elt F))
    (h : Inv4 V x0 x1) : Inv5 (after (ops5 (F := F)) V) x0 x1 := by
  obtain ⟨h0, h1, h2, h3, h4, h5, h6, h7⟩ := h
  refine ⟨?_, ?_, ?_, ?_, ?_, ?_, ?_, ?_⟩
  · after_results_simp
    exact h0
  · after_results_simp
    exact h1
  · after_results_simp
    exact h2
  · after_results_simp
    exact h3
  · after_results_simp
    first | (simp only [h0, h1, h2, h3, h4, h5, h6, h7]; rfl) | rfl
  · after_results_simp
    first | (simp only [h0, h1, h2, h3, h4, h5, h6, h7]; rfl) | rfl
  · after_results_simp
    first | (simp only [h0, h1, h2, h3, h4, h5, h6, h7]; rfl) | rfl
  · after_results_simp
    first | (simp only [h0, h1, h2, h3, h4, h5, h6, h7]; rfl) | rfl

end Cert.ReferenceIdeal.Chunks

end
-- ==== Proof.RefOps6.lean ====
/-
  Lines 395 to 460 of the batched program's 477 host operations, as a list (a called function's
  operations stand in its call's place): the program's part 6 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 6, in order. -/
abbrev ops6 : List (HloOp τ sig (Elt F)) :=
  [ unary main_cst_90 main_v268 (broadcastInDim S_ ![] bcast_S_S_ : (⟨S_, .f32⟩ : BufTy).Contents (Elt F) → (⟨S_, .f32⟩ : BufTy).Contents (Elt F)),
    binary main_v267 main_v268 main_v269 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v262 main_v269 main_v270 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S16x1x512x512, .f32⟩) main_call17_v0) (broadcastInDim S16x1x512x512 ![] bcast_S_S16x1x512x512),
    TRef.binary (TRef.of (T := ⟨S16x1x512x512, .f32⟩) main_v270) (TRef.of (T := ⟨S16x1x512x512, .f32⟩) main_call17_v0) (TRef.of (T := ⟨S16x1x512x512, .f32⟩) main_v271) maximumf,
    binary main_v257 main_v271 main_v272 (addf : (⟨S16x1x512x512, .f32⟩ : BufTy).Contents (Elt F) → (⟨S16x1x512x512, .f32⟩ : BufTy).Contents (Elt F) → (⟨S16x1x512x512, .f32⟩ : BufTy).Contents (Elt F)),
    nullary main_cst_91 (constant S_ .f32 0x7F800000#32),
    unary main_cst_91 main_v273 (broadcastInDim S_ ![] bcast_S_S_ : (⟨S_, .f32⟩ : BufTy).Contents (Elt F) → (⟨S_, .f32⟩ : BufTy).Contents (Elt F)),
    binary main_v262 main_v273 main_v274 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_92 (constant S_ .f32 0x7F800000#32),
    unary main_cst_92 main_v275 (broadcastInDim S_ ![] bcast_S_S_ : (⟨S_, .f32⟩ : BufTy).Contents (Elt F) → (⟨S_, .f32⟩ : BufTy).Contents (Elt F)),
    binary main_v262 main_v275 main_v276 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v274 main_v276 main_v277 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_93 (constant S_ .f32 0x7F800000#32),
    unary main_cst_93 main_v278 (broadcastInDim S_ ![] bcast_S_S_ : (⟨S_, .f32⟩ : BufTy).Contents (Elt F) → (⟨S_, .f32⟩ : BufTy).Contents (Elt F)),
    binary main_v277 main_v278 main_v279 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_94 (constant S_ .f32 0x7F800000#32),
    unary main_cst_94 main_v280 (broadcastInDim S_ ![] bcast_S_S_ : (⟨S_, .f32⟩ : BufTy).Contents (Elt F) → (⟨S_, .f32⟩ : BufTy).Contents (Elt F)),
    binary main_v277 main_v280 main_v281 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v279 main_v281 main_v282 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_95 (constant S_ .f32 0xFF800000#32),
    unary main_cst_95 main_v283 (broadcastInDim S_ ![] bcast_S_S_ : (⟨S_, .f32⟩ : BufTy).Contents (Elt F) → (⟨S_, .f32⟩ : BufTy).Contents (Elt F)),
    binary main_v282 main_v283 main_v284 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v277 main_v284 main_v285 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S16x1x512x512, .f32⟩) main_call18_v0) (broadcastInDim S16x1x512x512 ![] bcast_S_S16x1x512x512),
    TRef.binary (TRef.of (T := ⟨S16x1x512x512, .f32⟩) main_v285) (TRef.of (T := ⟨S16x1x512x512, .f32⟩) main_call18_v0) (TRef.of (T := ⟨S16x1x512x512, .f32⟩) main_v286) maximumf,
    binary main_v272 main_v286 main_v287 (addf : (⟨S16x1x512x512, .f32⟩ : BufTy).Contents (Elt F) → (⟨S16x1x512x512, .f32⟩ : BufTy).Contents (Elt F) → (⟨S16x1x512x512, .f32⟩ : BufTy).Contents (Elt F)),
    nullary main_cst_96 (constant S_ .f32 0x7F800000#32),
    unary main_cst_96 main_v288 (broadcastInDim S_ ![] bcast_S_S_ : (⟨S_, .f32⟩ : BufTy).Contents (Elt F) → (⟨S_, .f32⟩ : BufTy).Contents (Elt F)),
    binary main_v277 main_v288 main_v289 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_97 (constant S_ .f32 0x7F800000#32),
    unary main_cst_97 main_v290 (broadcastInDim S_ ![] bcast_S_S_ : (⟨S_, .f32⟩ : BufTy).Contents (Elt F) → (⟨S_, .f32⟩ : BufTy).Contents (Elt F)),
    binary main_v277 main_v290 main_v291 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v289 main_v291 main_v292 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_98 (constant S_ .f32 0x7F800000#32),
    unary main_cst_98 main_v293 (broadcastInDim S_ ![] bcast_S_S_ : (⟨S_, .f32⟩ : BufTy).Contents (Elt F) → (⟨S_, .f32⟩ : BufTy).Contents (Elt F)),
    binary main_v292 main_v293 main_v294 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_99 (constant S_ .f32 0x7F800000#32),
    unary main_cst_99 main_v295 (broadcastInDim S_ ![] bcast_S_S_ : (⟨S_, .f32⟩ : BufTy).Contents (Elt F) → (⟨S_, .f32⟩ : BufTy).Contents (Elt F)),
    binary main_v292 main_v295 main_v296 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v294 main_v296 main_v297 (minimumf : (⟨S16x1x512x512, .f32⟩ : BufTy).Contents (Elt F) → (⟨S16x1x512x512, .f32⟩ : BufTy).Contents (Elt F) → (⟨S16x1x512x512, .f32⟩ : BufTy).Contents (Elt F)),
    nullary main_cst_100 (constant S_ .f32 0xFF800000#32),
    unary main_cst_100 main_v298 (broadcastInDim S_ ![] bcast_S_S_ : (⟨S_, .f32⟩ : BufTy).Contents (Elt F) → (⟨S_, .f32⟩ : BufTy).Contents (Elt F)),
    binary main_v297 main_v298 main_v299 ((fun x v => Host.reduceWindow FloatOps.maximumf ![1, 1, 3, 3] ![1, 1, 1, 1] ![0, 0, 1, 1] ![0, 0, 1, 1] x v reduceWindows_S16x1x512x512_S16x1x512x512_w1s1p0_0_w1s1p0_0_w3s1p1_1_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v292 main_v299 main_v300 (subf : (⟨S16x1x512x512, .f32⟩ : BufTy).Contents (Elt F) → (⟨S16x1x512x512, .f32⟩ : BufTy).Contents (Elt F) → (⟨S16x1x512x512, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S16x1x512x512, .f32⟩) main_call19_v0) (broadcastInDim S16x1x512x512 ![] bcast_S_S16x1x512x512),
    TRef.binary (TRef.of (T := ⟨S16x1x512x512, .f32⟩) main_v300) (TRef.of (T := ⟨S16x1x512x512, .f32⟩) main_call19_v0) (TRef.of (T := ⟨S16x1x512x512, .f32⟩) main_v301) maximumf,
    binary main_v287 main_v301 main_v302 (addf : (⟨S16x1x512x512, .f32⟩ : BufTy).Contents (Elt F) → (⟨S16x1x512x512, .f32⟩ : BufTy).Contents (Elt F) → (⟨S16x1x512x512, .f32⟩ : BufTy).Contents (Elt F)),
    nullary main_cst_101 (constant S_ .f32 0x7F800000#32),
    unary main_cst_101 main_v303 (broadcastInDim S_ ![] bcast_S_S_ : (⟨S_, .f32⟩ : BufTy).Contents (Elt F) → (⟨S_, .f32⟩ : BufTy).Contents (Elt F)),
    binary main_v292 main_v303 main_v304 ((fun x v => Host.reduceWindow FloatOps.minimumf ![1, 1, 3, 1] ![1, 1, 1, 1] ![0, 0, 1, 0] ![0, 0, 1, 0] x v reduceWindows_S16x1x512x512_S16x1x512x512_w1s1p0_0_w1s1p0_0_w3s1p1_1_w1s1p0_0 h_S_) : (⟨S16x1x512x512, .f32⟩ : BufTy).Contents (Elt F) → (⟨S_, .f32⟩ : BufTy).Contents (Elt F) → (⟨S16x1x512x512, .f32⟩ : BufTy).Contents (Elt F)),
    nullary main_cst_102 (constant S_ .f32 0x7F800000#32),
    unary main_cst_102 main_v305 (broadcastInDim S_ ![] bcast_S_S_ : (⟨S_, .f32⟩ : BufTy).Contents (Elt F) → (⟨S_, .f32⟩ : BufTy).Contents (Elt F)),
    binary main_v292 main_v305 main_v306 ((fun x v => Host.reduceWindow FloatOps.minimumf ![1, 1, 1, 3] ![1, 1, 1, 1] ![0, 0, 0, 1] ![0, 0, 0, 1] x v reduceWindows_S16x1x512x512_S16x1x512x512_w1s1p0_0_w1s1p0_0_w1s1p0_0_w3s1p1_1 h_S_) : (⟨S16x1x512x512, .f32⟩ : BufTy).Contents (Elt F) → (⟨S_, .f32⟩ : BufTy).Contents (Elt F) → (⟨S16x1x512x512, .f32⟩ : BufTy).Contents (Elt F)),
    binary main_v304 main_v306 main_v307 (minimumf : (⟨S16x1x512x512, .f32⟩ : BufTy).Contents (Elt F) → (⟨S16x1x512x512, .f32⟩ : BufTy).Contents (Elt F) → (⟨S16x1x512x512, .f32⟩ : BufTy).Contents (Elt F)),
    binary main_v5 main_v302 main_v308 (mulf : (⟨S16x1x512x512, .f32⟩ : BufTy).Contents (Elt F) → (⟨S16x1x512x512, .f32⟩ : BufTy).Contents (Elt F) → (⟨S16x1x512x512, .f32⟩ : BufTy).Contents (Elt F)),
    nullary main_cst_103 (constant S_ .f32 0x00000000#32),
    binary main_v308 main_cst_103 main_v309 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_104 (constant S_ .f32 0x00000000#32),
    binary main_v302 main_cst_104 main_v310 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_105 (constant S_ .f32 0x358637BD#32),
    binary main_v310 main_cst_105 main_v311 (addf : (⟨S_, .f32⟩ : BufTy).Contents (Elt F) → (⟨S_, .f32⟩ : BufTy).Contents (Elt F) → (⟨S_, .f32⟩ : BufTy).Contents (Elt F)),
    binary main_v309 main_v311 main_v312 (Host.divf : (⟨S_, .f32⟩ : BufTy).Contents (Elt F) → (⟨S_, .f32⟩ : BufTy).Contents (Elt F) → (⟨S_, .f32⟩ : BufTy).Contents (Elt F)) ]

set_option maxRecDepth 8192 in
theorem part6_eq (c : Dev nD) : main_part6 (F := F) c = seq ops6 := rfl

set_option maxRecDepth 8192 in
theorem ops6_sub : (ops6 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩

set_option maxRecDepth 8192 in
theorem ops6_fresh : ∀ op ∈ (ops6 : List (HloOp τ sig (Elt F))), op.fresh = ∅ := by
  intro _ h; (repeat (cases h with | head => rfl | tail _ h => ?_)); exact nomatch h

end Cert.ReferenceIdeal.Ops

end
-- ==== Proof.RefChunk6.lean ====
/-
  Part 6 of the batched program carries the stages on: if the buffers it reads hold their stages' values when it
  starts, the buffers the later parts read hold theirs when it ends (each operation's result is its stage by definition;
  a buffer the part does not write keeps its contents).
-/
import proofs.«131082_j25872882991527_1_alg».proof.Proof.RefOps6
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk6 (V : Valuation τ sig (Elt F)) (x0 x1 : (⟨S16x1x512x512, .f32⟩ : BufTy).Contents (Elt F))
    (h : Inv5 V x0 x1) : Inv6 (after (ops6 (F := F)) V) x0 x1 := by
  obtain ⟨h0, h1, h2, h3, h4, h5, h6, h7⟩ := h
  refine ⟨?_, ?_, ?_, ?_⟩
  · after_results_simp
    exact h0
  · after_results_simp
    exact h1
  · after_results_simp
    exact h3
  · after_results_simp
    simp only [h0, h1, h2, h3, h4, h5, h6, h7]
    rfl

end Cert.ReferenceIdeal.Chunks

end
-- ==== Proof.RefOps7.lean ====
/-
  Lines 461 to 477 of the batched program's 477 host operations, as a list (a called function's
  operations stand in its call's place): the program's part 7 is this list run in order; every operation touches
  TensorCore buffers only and allocates nothing.
-/
import proofs.«131082_j25872882991527_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of part 7, in order. -/
abbrev ops7 : List (HloOp τ sig (Elt F)) :=
  [ binary main_arg1 main_v151 main_v313 (mulf : (⟨S16x1x512x512, .f32⟩ : BufTy).Contents (Elt F) → (⟨S16x1x512x512, .f32⟩ : BufTy).Contents (Elt F) → (⟨S16x1x512x512, .f32⟩ : BufTy).Contents (Elt F)),
    nullary main_cst_106 (constant S_ .f32 0x00000000#32),
    binary main_v313 main_cst_106 main_v314 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_107 (constant S_ .f32 0x00000000#32),
    binary main_v151 main_cst_107 main_v315 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_108 (constant S_ .f32 0x358637BD#32),
    binary main_v315 main_cst_108 main_v316 (addf : (⟨S_, .f32⟩ : BufTy).Contents (Elt F) → (⟨S_, .f32⟩ : BufTy).Contents (Elt F) → (⟨S_, .f32⟩ : BufTy).Contents (Elt F)),
    binary main_v314 main_v316 main_v317 (Host.divf : (⟨S_, .f32⟩ : BufTy).Contents (Elt F) → (⟨S_, .f32⟩ : BufTy).Contents (Elt F) → (⟨S_, .f32⟩ : BufTy).Contents (Elt F)),
    nullary main_cst_109 (constant S_ .f32 0x40000000#32),
    binary main_cst_109 main_v312 main_v318 (mulf : (⟨S_, .f32⟩ : BufTy).Contents (Elt F) → (⟨S_, .f32⟩ : BufTy).Contents (Elt F) → (⟨S_, .f32⟩ : BufTy).Contents (Elt F)),
    binary main_v318 main_v317 main_v319 (mulf : (⟨S_, .f32⟩ : BufTy).Contents (Elt F) → (⟨S_, .f32⟩ : BufTy).Contents (Elt F) → (⟨S_, .f32⟩ : BufTy).Contents (Elt F)),
    binary main_v312 main_v317 main_v320 (addf : (⟨S_, .f32⟩ : BufTy).Contents (Elt F) → (⟨S_, .f32⟩ : BufTy).Contents (Elt F) → (⟨S_, .f32⟩ : BufTy).Contents (Elt F)),
    nullary main_cst_110 (constant S_ .f32 0x358637BD#32),
    binary main_v320 main_cst_110 main_v321 (addf : (⟨S_, .f32⟩ : BufTy).Contents (Elt F) → (⟨S_, .f32⟩ : BufTy).Contents (Elt F) → (⟨S_, .f32⟩ : BufTy).Contents (Elt F)),
    binary main_v319 main_v321 main_v322 (Host.divf : (⟨S_, .f32⟩ : BufTy).Contents (Elt F) → (⟨S_, .f32⟩ : BufTy).Contents (Elt F) → (⟨S_, .f32⟩ : BufTy).Contents (Elt F)),
    nullary main_cst_111 (constant S_ .f32 0x3F800000#32),
    binary main_cst_111 main_v322 main_v323 (subf : (⟨S_, .f32⟩ : BufTy).Contents (Elt F) → (⟨S_, .f32⟩ : BufTy).Contents (Elt F) → (⟨S_, .f32⟩ : BufTy).Contents (Elt F)) ]

set_option maxRecDepth 8192 in
theorem part7_eq (c : Dev nD) : main_part7 (F := F) c = seq ops7 := rfl

set_option maxRecDepth 8192 in
theorem ops7_sub : (ops7 : List (HloOp τ sig (Elt F))).Forall fun op => op.bufs ⊆ tcRefs τ sig :=
  ⟨binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., nullary_bufs_sub .., binary_bufs_sub ..⟩

set_option maxRecDepth 8192 in
theorem ops7_fresh : ∀ op ∈ (ops7 : List (HloOp τ sig (Elt F))), op.fresh = ∅ := by
  intro _ h; (repeat (cases h with | head => rfl | tail _ h => ?_)); exact nomatch h

end Cert.ReferenceIdeal.Ops

end
-- ==== Proof.RefChunk7.lean ====
/-
  Part 7 of the batched program carries the stages on: if the buffers it reads hold their stages' values when it
  starts, the buffers the later parts read hold theirs when it ends (each operation's result is its stage by definition;
  a buffer the part does not write keeps its contents).
-/
import proofs.«131082_j25872882991527_1_alg».proof.Proof.RefOps7
import proofs.«131082_j25872882991527_1_alg».proof.Proof.RefInv

noncomputable section

namespace Cert.ReferenceIdeal.Chunks

open Cert.ReferenceIdeal Cert.ReferenceIdeal.Gen Cert.ReferenceIdeal.ReadP Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 8000000 in
theorem chunk7 (V : Valuation τ sig (Elt F)) (x0 x1 : (⟨S16x1x512x512, .f32⟩ : BufTy).Contents (Elt F))
    (h : Inv6 V x0 x1) : Inv7 (after (ops7 (F := F)) V) x0 x1 := by
  obtain ⟨h0, h1, h2, h3⟩ := h
  refine ⟨?_, ?_, ?_⟩
  · after_results_simp
    exact h0
  · after_results_simp
    exact h1
  · after_results_simp
    simp only [h0, h1, h2, h3]
    rfl

end Cert.ReferenceIdeal.Chunks

end
-- ==== Proof.RefRun.lean ====
/-
  The batched program's run, read back at its last stage.

  The program is its eight parts run in order, each part a list of host operations; so every weakly fair execution
  terminates with each buffer at the fold of the operations' results over its launch contents.  Part by part the buffers
  still to be read hold their stages' values of the two arguments, so at the end the result buffer holds the last stage
  and the argument buffers the arguments.
-/
import proofs.«131082_j25872882991527_1_alg».proof.Proof.RefChunk0
import proofs.«131082_j25872882991527_1_alg».proof.Proof.RefChunk1
import proofs.«131082_j25872882991527_1_alg».proof.Proof.RefChunk2
import proofs.«131082_j25872882991527_1_alg».proof.Proof.RefChunk3
import proofs.«131082_j25872882991527_1_alg».proof.Proof.RefChunk4
import proofs.«131082_j25872882991527_1_alg».proof.Proof.RefChunk5
import proofs.«131082_j25872882991527_1_alg».proof.Proof.RefChunk6
import proofs.«131082_j25872882991527_1_alg».proof.Proof.RefChunk7
import Idealize.ShloMosaic.Lib.Pipeline.Frame

noncomputable section

namespace Cert.ReferenceIdeal.RefValue

open Cert.ReferenceIdeal Cert.ReferenceIdeal.Gen Cert.ReferenceIdeal.ReadP Cert.ReferenceIdeal.Ops Cert.ReferenceIdeal.Chunks
open Idealize.ShloMosaic Idealize.ShloMosaic.TcCoe Idealize.SL.Sem Idealize.ShloMosaic.StableHlo

variable {F : FTy → Type} [FloatOps F]

/-- The program's operations: the eight parts' lists, one after the other. -/
abbrev ops : List (HloOp τ sig (Elt F)) :=
  ops0 ++ (ops1 ++ (ops2 ++ (ops3 ++ (ops4 ++ (ops5 ++ (ops6 ++ ops7))))))

theorem main_eq (c : Dev nD) : main (F := F) c = seq ops := by
  simp only [ops, seq_append]
  unfold main
  rw [part0_eq, part1_eq, part2_eq, part3_eq, part4_eq, part5_eq, part6_eq, part7_eq]

theorem scopedRefs_eq : (Finset.univ.filter fun b : Ref sig .tc => b.isScoped) = ∅ := by decide
theorem scopedSems_eq : (Finset.univ.filter fun sm : SemLoc sig => sm.isScoped .tc) = ∅ := by decide

theorem forall_append {α : Type} (p : α → Prop) (l₁ l₂ : List α) (h₁ : l₁.Forall p) (h₂ : l₂.Forall p) : (l₁ ++ l₂).Forall p := by
  rw [List.forall_iff_forall_mem] at *
  intro x hx
  rcases List.mem_append.mp hx with h | h
  · exact h₁ x h
  · exact h₂ x h

theorem ops_sub : (ops : List (HloOp τ sig (Elt F))).Forall fun op => op.bufs ⊆ tcRefs τ sig :=
  forall_append _ _ _ ops0_sub (forall_append _ _ _ ops1_sub (forall_append _ _ _ ops2_sub (forall_append _ _ _ ops3_sub
    (forall_append _ _ _ ops4_sub (forall_append _ _ _ ops5_sub (forall_append _ _ _ ops6_sub ops7_sub))))))

theorem ops_fresh : ∀ op ∈ (ops : List (HloOp τ sig (Elt F))), op.fresh = ∅ := by
  intro op h
  simp only [ops, List.mem_append] at h
  rcases h with h | h | h | h | h | h | h | h
  · exact ops0_fresh op h
  · exact ops1_fresh op h
  · exact ops2_fresh op h
  · exact ops3_fresh op h
  · exact ops4_fresh op h
  · exact ops5_fresh op h
  · exact ops6_fresh op h
  · exact ops7_fresh op h

/-- The run: the result buffer ends at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v323) = val_main_v323 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ?_)
    (run_seq scopedRefs_eq scopedSems_eq defs main (fun _ => ops) main_eq (fun _ => ops_sub) m ρ (fun _ => ops_fresh))
  have inv : Inv7 (after (ops (F := F)) (launchContents m c)) (m ((c.tc : Thread nD τ).loc main_arg0)) (m ((c.tc : Thread nD τ).loc main_arg1)) := by
    simp only [ops, StableHlo.after_append]
    exact chunk7 _ _ _ (chunk6 _ _ _ (chunk5 _ _ _ (chunk4 _ _ _ (chunk3 _ _ _ (chunk2 _ _ _ (chunk1 _ _ _ (chunk0 _ _ _ ⟨rfl, rfl⟩)))))))
  obtain ⟨i0, i1, i2⟩ := inv
  exact ⟨(h c main_v323).trans i2, (h c main_arg0).trans i0, (h c main_arg1).trans i1⟩

end Cert.ReferenceIdeal.RefValue

end
-- ==== Proof.Spec.lean ====
/-
  The soft-skeleton (cl-Dice) computation, stated once over literal shapes, in the two spellings the two programs use.

  An image is a 512 x 512 array; a batch is 16 images laid out as [16, 1, 512, 512].  One skeleton step takes a pair
  (current image, skeleton so far) to (erosion of the image, skeleton + relu (image - dilation (erosion image))).
  The erosion is the minimum over the plus-shaped 5-neighbourhood (out-of-range neighbours read +infinity), the
  dilation the maximum over the 3 x 3 neighbourhood (out-of-range neighbours read -infinity).

  * the per-image spelling shifts the image by one row / column, filling the vacated line with the neutral
    element (a one-line constant concatenated with a 511-line slice), and folds the three shifted copies;
  * the batched spelling folds a window (3 x 1, 1 x 3, 3 x 3) of the padded array from the neutral element.
-/
import Idealize.ShloMosaic.PureOps.Ideal
import Idealize.ShloMosaic.Lib.ValueIdx

noncomputable section

namespace ClDice

open Idealize.ShloMosaic

abbrev Img : Shape := ⟨2, ![512, 512]⟩
abbrev Row1 : Shape := ⟨2, ![1, 512]⟩
abbrev Rows511 : Shape := ⟨2, ![511, 512]⟩
abbrev Col1 : Shape := ⟨2, ![512, 1]⟩
abbrev Cols511 : Shape := ⟨2, ![512, 511]⟩
abbrev Img3 : Shape := ⟨3, ![1, 512, 512]⟩
abbrev One1 : Shape := ⟨1, ![1]⟩
abbrev One3 : Shape := ⟨3, ![1, 1, 1]⟩
abbrev Batch : Shape := ⟨4, ![16, 1, 512, 512]⟩
abbrev Sc : Shape := ⟨0, ![]⟩
abbrev Blk : Shape := ⟨4, ![1, 1, 512, 512]⟩

variable {F : FTy → Type} [FloatOps F]

/-! ## Per image: shifts, erosion, dilation, one step -/

theorem cat_rows_first : Shape.Concatenates [Row1, Rows511] Img 0 := by decide
theorem cat_rows_last : Shape.Concatenates [Rows511, Row1] Img 0 := by decide
theorem cat_cols_first : Shape.Concatenates [Col1, Cols511] Img 1 := by decide
theorem cat_cols_last : Shape.Concatenates [Cols511, Col1] Img 1 := by decide

/-- +infinity and -infinity and zero, as the binary32 words the programs spell. -/
def pinf : F .f32 := Scalar.ofBits .f32 0x7F800000#32
def ninf : F .f32 := Scalar.ofBits .f32 0xFF800000#32
def zero : F .f32 := Scalar.ofBits .f32 0x00000000#32

/-- Row r of the result is row r - 1 of x; row 0 is the fill. -/
def prevRow (fill : F .f32) (x : FVec F Img .f32) : FVec F Img .f32 :=
  concatenate Img 0 [⟨Row1, broadcast Row1 fill⟩, ⟨Rows511, extractStridedSlice Rows511 ![0, 0] x (by decide)⟩] cat_rows_first
/-- Row r of the result is row r + 1 of x; row 511 is the fill. -/
def nextRow (fill : F .f32) (x : FVec F Img .f32) : FVec F Img .f32 :=
  concatenate Img 0 [⟨Rows511, extractStridedSlice Rows511 ![1, 0] x (by decide)⟩, ⟨Row1, broadcast Row1 fill⟩] cat_rows_last
/-- Column c of the result is column c - 1 of x; column 0 is the fill. -/
def prevCol (fill : F .f32) (x : FVec F Img .f32) : FVec F Img .f32 :=
  concatenate Img 1 [⟨Col1, broadcast Col1 fill⟩, ⟨Cols511, extractStridedSlice Cols511 ![0, 0] x (by decide)⟩] cat_cols_first
/-- Column c of the result is column c + 1 of x; column 511 is the fill. -/
def nextCol (fill : F .f32) (x : FVec F Img .f32) : FVec F Img .f32 :=
  concatenate Img 1 [⟨Cols511, extractStridedSlice Cols511 ![0, 1] x (by decide)⟩, ⟨Col1, broadcast Col1 fill⟩] cat_cols_last

def minRows (x : FVec F Img .f32) : FVec F Img .f32 := minimumf (minimumf (prevRow pinf x) x) (nextRow pinf x)
def minCols (x : FVec F Img .f32) : FVec F Img .f32 := minimumf (minimumf (prevCol pinf x) x) (nextCol pinf x)
def maxRows (x : FVec F Img .f32) : FVec F Img .f32 := maximumf (maximumf (prevRow ninf x) x) (nextRow ninf x)
def maxCols (x : FVec F Img .f32) : FVec F Img .f32 := maximumf (maximumf (prevCol ninf x) x) (nextCol ninf x)

/-- Erosion: the minimum over the plus-shaped neighbourhood. -/
def erodeK (x : FVec F Img .f32) : FVec F Img .f32 := minimumf (minRows x) (minCols x)
/-- Dilation: the maximum over the 3 x 3 neighbourhood, columns first, then rows. -/
def dilateK (x : FVec F Img .f32) : FVec F Img .f32 := maxRows (maxCols x)
/-- What one step adds to the skeleton. -/
def ridgeK (x : FVec F Img .f32) : FVec F Img .f32 := maximumf (subf x (dilateK (erodeK x))) (broadcast Img zero)
/-- One skeleton step on (image, skeleton). -/
def stepK (s : FVec F Img .f32 × FVec F Img .f32) : FVec F Img .f32 × FVec F Img .f32 :=
  (erodeK s.1, addf s.2 (ridgeK s.1))
/-- The skeleton after ten steps from the zero skeleton. -/
def skelK (x : FVec F Img .f32) : FVec F Img .f32 := (stepK^[10] (x, broadcast Img zero)).2

/-- A staged block [1, 1, 512, 512] as an image, and its logistic. -/
def targOf (v : FVec F Blk .f32) : FVec F Img .f32 := shapeCast Img v (by decide)
def predOf (v : FVec F Blk .f32) : FVec F Img .f32 := logistic (targOf v)

/-- The sum of all entries of an image, as the per-image program spells it. -/
def sumK (v : FVec F Img .f32) : F .f32 :=
  extractAt ![0, 0, 0] (shapeCast One3 (multiReduction .add [1, 2] One1 (shapeCast Img3 v (by decide)) 0x00000000#32 (by decide) (.inl rfl) rfl) (by decide)) (by decide)

/-! ## Batched: windows, erosion, dilation, one step -/

def pinfR : FVec F Sc .f32 := broadcastInDim Sc ![] (by decide) (constant Sc .f32 0x7F800000#32)
def ninfR : FVec F Sc .f32 := broadcastInDim Sc ![] (by decide) (constant Sc .f32 0xFF800000#32)
def zeroR : FVec F Batch .f32 := broadcastInDim Batch ![] (by decide) (constant Sc .f32 0x00000000#32)

def minRowsR (X : FVec F Batch .f32) : FVec F Batch .f32 :=
  Host.reduceWindow FloatOps.minimumf ![1, 1, 3, 1] ![1, 1, 1, 1] ![0, 0, 1, 0] ![0, 0, 1, 0] X pinfR (by decide) (by decide)
def minColsR (X : FVec F Batch .f32) : FVec F Batch .f32 :=
  Host.reduceWindow FloatOps.minimumf ![1, 1, 1, 3] ![1, 1, 1, 1] ![0, 0, 0, 1] ![0, 0, 0, 1] X pinfR (by decide) (by decide)
def erodeR (X : FVec F Batch .f32) : FVec F Batch .f32 := minimumf (minRowsR X) (minColsR X)
def dilateR (X : FVec F Batch .f32) : FVec F Batch .f32 :=
  Host.reduceWindow FloatOps.maximumf ![1, 1, 3, 3] ![1, 1, 1, 1] ![0, 0, 1, 1] ![0, 0, 1, 1] X ninfR (by decide) (by decide)
def ridgeR (X : FVec F Batch .f32) : FVec F Batch .f32 := maximumf (subf X (dilateR (erodeR X))) zeroR
def stepR (s : FVec F Batch .f32 × FVec F Batch .f32) : FVec F Batch .f32 × FVec F Batch .f32 :=
  (erodeR s.1, addf s.2 (ridgeR s.1))
def skelR (X : FVec F Batch .f32) : FVec F Batch .f32 := (stepR^[10] (X, zeroR)).2

theorem reducesAll : Batch.ReducesTo [0, 1, 2, 3] Sc := by decide

/-- The sum of all entries of a batch, as the batched program spells it. -/
def sumR (X : FVec F Batch .f32) : FVec F Sc .f32 :=
  Host.reduceAdd X (constant Sc .f32 0x00000000#32) reducesAll (by decide)

/-- The loss from the four sums: with tprec = s1 / (s2 + e) and tsens = s3 / (s4 + e),
    1 - 2 tprec tsens / (tprec + tsens + e), e the binary32 value nearest 1e-6; both programs end with these lines. -/
def combine (s1 s2 s3 s4 : FVec F Sc .f32) : FVec F Sc .f32 :=
  subf (constant Sc .f32 0x3F800000#32)
    (Host.divf (mulf (mulf (constant Sc .f32 0x40000000#32) (Host.divf s1 (addf s2 (constant Sc .f32 0x358637BD#32))))
        (Host.divf s3 (addf s4 (constant Sc .f32 0x358637BD#32))))
      (addf (addf (Host.divf s1 (addf s2 (constant Sc .f32 0x358637BD#32))) (Host.divf s3 (addf s4 (constant Sc .f32 0x358637BD#32))))
        (constant Sc .f32 0x358637BD#32)))

/-- Image b of a batch. -/
def imgOf {α : Type} (X : Batch.Idx → α) (b : Fin 16) : Img.Idx → α :=
  fun j => X (ValueIdx.ix4 b (0 : Fin 1) (j 0) (j 1))

/-! ## The four sums of one image, and the per-image program's output arrays -/

abbrev Out : Shape := ⟨3, ![16, 8, 128]⟩

/-- For image b of the two argument batches (p the logistic of the first, t the second): the sums of
    p * skeleton t, of skeleton t, of t * skeleton p and of skeleton p. -/
def s1 (A0 A1 : FVec F Batch .f32) (b : Fin 16) : F .f32 := sumK (mulf (logistic (imgOf A0 b)) (skelK (imgOf A1 b)))
def s2 (A0 A1 : FVec F Batch .f32) (b : Fin 16) : F .f32 := sumK (skelK (imgOf A1 b))
def s3 (A0 A1 : FVec F Batch .f32) (b : Fin 16) : F .f32 := sumK (mulf (imgOf A1 b) (skelK (logistic (imgOf A0 b))))
def s4 (A0 A1 : FVec F Batch .f32) (b : Fin 16) : F .f32 := sumK (skelK (logistic (imgOf A0 b)))

/-- An output array [16, 8, 128] whose every entry of slab b is the number s b. -/
def spread (s : Fin 16 → F .f32) : FVec F Out .f32 := fun i => s (i 0)

abbrev Out11 : Shape := ⟨3, ![16, 1, 1]⟩
abbrev Vec16 : Shape := ⟨1, ![16]⟩
theorem slicesOut : Out.Slices ![0, 0, 0] Out11 := by decide
theorem reduces16 : Vec16.ReducesTo [0] Sc := by decide

/-- The sum over the sixteen slabs of an output array's entry (b, 0, 0), as the per-image program's host lines spell it. -/
def sum16 (A : FVec F Out .f32) : FVec F Sc .f32 :=
  Host.reduceAdd (shapeCast Vec16 (extractStridedSlice Out11 ![0, 0, 0] A slicesOut) (by decide)) (constant Sc .f32 0x00000000#32)
    reduces16 (by decide)

/-! ## The neighbourhood operations, entry by entry, on the extended reals -/

open ValueIdx in
/-- The entry above (r, c), or `fill` on the first row; below, left and right likewise. -/
def upAt {α : Type} (fill : α) (x : Img.Idx → α) (r c : Fin 512) : α :=
  if h : 0 < r.val then x (ix2 (⟨r.val - 1, by omega⟩ : Fin 512) c) else fill
open ValueIdx in
def downAt {α : Type} (fill : α) (x : Img.Idx → α) (r c : Fin 512) : α :=
  if h : r.val + 1 < 512 then x (ix2 (⟨r.val + 1, h⟩ : Fin 512) c) else fill
open ValueIdx in
def leftAt {α : Type} (fill : α) (x : Img.Idx → α) (r c : Fin 512) : α :=
  if h : 0 < c.val then x (ix2 r (⟨c.val - 1, by omega⟩ : Fin 512)) else fill
open ValueIdx in
def rightAt {α : Type} (fill : α) (x : Img.Idx → α) (r c : Fin 512) : α :=
  if h : c.val + 1 < 512 then x (ix2 r (⟨c.val + 1, h⟩ : Fin 512)) else fill

open ValueIdx in
/-- Erosion at (r, c): the minimum of the entry, the two in its column and the two in its row (+infinity outside). -/
def erodeAt (x : Img.Idx → EReal) (r c : Fin 512) : EReal :=
  min (min (min (upAt ⊤ x r c) (x (ix2 r c))) (downAt ⊤ x r c)) (min (min (leftAt ⊤ x r c) (x (ix2 r c))) (rightAt ⊤ x r c))
open ValueIdx in
/-- The maximum of the entry and its two row neighbours (-infinity outside). -/
def maxColsAt (x : Img.Idx → EReal) (r c : Fin 512) : EReal :=
  max (max (leftAt ⊥ x r c) (x (ix2 r c))) (rightAt ⊥ x r c)
/-- Dilation at (r, c): the maximum over the 3 x 3 neighbourhood, as the column maximum of the row maxima. -/
def dilateAt (x : Img.Idx → EReal) (r c : Fin 512) : EReal :=
  max (max (upAt ⊥ (fun j => maxColsAt x (j 0) (j 1)) r c) (maxColsAt x r c)) (downAt ⊥ (fun j => maxColsAt x (j 0) (j 1)) r c)

end ClDice

end
-- ==== Proof.KernelPay.lean ====
/-
  Each value the per-image program computes between two memory operations, named by what it is: an erosion, a dilation,
  a partial fold of shifted copies, a skeleton so far.  Every equation is the program text re-read through the
  definitions of the specification (both sides unfold to the same term).
-/
import proofs.«131082_j25872882991527_1_alg».proof.Proof.Gen.KernelIdeal.Skeleton
import proofs.«131082_j25872882991527_1_alg».proof.Proof.Spec

noncomputable section

namespace Cert.KernelIdeal.Pay

open Idealize.ShloMosaic Cert.KernelIdeal Cert.KernelIdeal.Gen ClDice

variable {F : FTy → Type} [FloatOps F]

theorem k0_pay5_eq (v0 : Vec F S1x1x512x512 .f32) :
    k0_pay5 (F := F) v0
      = (predOf v0) := rfl

theorem k0_pay6_eq (v3 : Vec F S1x1x512x512 .f32) :
    k0_pay6 (F := F) v3
      = (targOf v3) := rfl

theorem k0_pay7_eq  :
    k0_pay7 (F := F)
      = (broadcast Img (zero (F := F))) := rfl

theorem k0_pay8_eq (v0 : Vec F S1x1x512x512 .f32) :
    k0_pay8 (F := F) v0
      = (erodeK (predOf v0)) := rfl

theorem k0_pay9_eq (v0 : Vec F S1x1x512x512 .f32) :
    k0_pay9 (F := F) v0
      = (subf (predOf v0) (dilateK (erodeK (predOf v0)))) := rfl

theorem k0_pay10_eq  :
    k0_pay10 (F := F)
      = (broadcast Img (zero (F := F))) := rfl

theorem k0_pay11_eq  (P : FVec F Img .f32) :
    k0_pay11 (F := F) (erodeK P)
      = (erodeK (erodeK P)) := rfl

theorem k0_pay12_eq  (P : FVec F Img .f32) :
    k0_pay12 (F := F) (broadcast Img (zero (F := F))) (erodeK P) (subf P (dilateK (erodeK P))) (broadcast Img (zero (F := F)))
      = (addf (addf (broadcast Img (zero (F := F))) (ridgeK P)) (ridgeK (erodeK P))) := rfl

theorem k0_pay13_eq  (P : FVec F Img .f32) :
    k0_pay13 (F := F) (erodeK P)
      = (minRows (erodeK (erodeK P))) := rfl

theorem k0_pay14_eq  :
    k0_pay14 (F := F)
      = (broadcast Col1 (pinf (F := F))) := rfl

theorem k0_pay15_eq  (P : FVec F Img .f32) :
    k0_pay15 (F := F) (erodeK (erodeK P)) (minRows (erodeK (erodeK P))) (broadcast Col1 (pinf (F := F)))
      = (erodeK (erodeK (erodeK P))) := rfl

theorem k0_pay16_eq  (P : FVec F Img .f32) :
    k0_pay16 (F := F) (erodeK (erodeK P)) (addf (addf (broadcast Img (zero (F := F))) (ridgeK P)) (ridgeK (erodeK P))) (minRows (erodeK (erodeK P))) (broadcast Col1 (pinf (F := F)))
      = (addf (addf (addf (broadcast Img (zero (F := F))) (ridgeK P)) (ridgeK (erodeK P))) (ridgeK (erodeK (erodeK P)))) := rfl

theorem k0_pay17_eq  (P : FVec F Img .f32) :
    k0_pay17 (F := F) (erodeK (erodeK P)) (minRows (erodeK (erodeK P))) (broadcast Col1 (pinf (F := F)))
      = (erodeK (erodeK (erodeK (erodeK P)))) := rfl

theorem k0_pay18_eq  (P : FVec F Img .f32) :
    k0_pay18 (F := F) (erodeK (erodeK P)) (minRows (erodeK (erodeK P))) (broadcast Col1 (pinf (F := F)))
      = (prevCol (ninf (F := F)) (erodeK (erodeK (erodeK (erodeK P))))) := rfl

theorem k0_pay19_eq  (P : FVec F Img .f32) :
    k0_pay19 (F := F) (erodeK (erodeK (erodeK P))) (addf (addf (addf (broadcast Img (zero (F := F))) (ridgeK P)) (ridgeK (erodeK P))) (ridgeK (erodeK (erodeK P)))) (erodeK (erodeK (erodeK (erodeK P)))) (prevCol (ninf (F := F)) (erodeK (erodeK (erodeK (erodeK P))))) (ninf (F := F))
      = (addf (addf (addf (addf (broadcast Img (zero (F := F))) (ridgeK P)) (ridgeK (erodeK P))) (ridgeK (erodeK (erodeK P)))) (ridgeK (erodeK (erodeK (erodeK P))))) := rfl

theorem k0_pay20_eq  (P : FVec F Img .f32) :
    k0_pay20 (F := F) (erodeK (erodeK (erodeK (erodeK P))))
      = (erodeK (erodeK (erodeK (erodeK (erodeK P))))) := rfl

theorem k0_pay21_eq  (P : FVec F Img .f32) :
    k0_pay21 (F := F) (erodeK (erodeK (erodeK (erodeK P))))
      = (maxCols (erodeK (erodeK (erodeK (erodeK (erodeK P)))))) := rfl

theorem k0_pay22_eq  (P : FVec F Img .f32) :
    k0_pay22 (F := F) (erodeK (erodeK (erodeK (erodeK P))))
      = (nextRow (ninf (F := F)) (maxCols (erodeK (erodeK (erodeK (erodeK (erodeK P))))))) := rfl

theorem k0_pay23_eq  (P : FVec F Img .f32) :
    k0_pay23 (F := F) (erodeK (erodeK (erodeK (erodeK P))))
      = (maximumf (prevRow (ninf (F := F)) (maxCols (erodeK (erodeK (erodeK (erodeK (erodeK P))))))) (maxCols (erodeK (erodeK (erodeK (erodeK (erodeK P))))))) := rfl

theorem k0_pay24_eq  (P : FVec F Img .f32) :
    k0_pay24 (F := F) (erodeK (erodeK (erodeK (erodeK (erodeK P)))))
      = (erodeK (erodeK (erodeK (erodeK (erodeK (erodeK P)))))) := rfl

theorem k0_pay25_eq  (P : FVec F Img .f32) :
    k0_pay25 (F := F) (erodeK (erodeK (erodeK (erodeK P)))) (addf (addf (addf (addf (broadcast Img (zero (F := F))) (ridgeK P)) (ridgeK (erodeK P))) (ridgeK (erodeK (erodeK P)))) (ridgeK (erodeK (erodeK (erodeK P))))) (erodeK (erodeK (erodeK (erodeK (erodeK P))))) (nextRow (ninf (F := F)) (maxCols (erodeK (erodeK (erodeK (erodeK (erodeK P))))))) (maximumf (prevRow (ninf (F := F)) (maxCols (erodeK (erodeK (erodeK (erodeK (erodeK P))))))) (maxCols (erodeK (erodeK (erodeK (erodeK (erodeK P)))))))
      = (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) := rfl

theorem k0_pay26_eq  (P : FVec F Img .f32) :
    k0_pay26 (F := F) (erodeK (erodeK (erodeK (erodeK (erodeK P)))))
      = (prevRow (pinf (F := F)) (erodeK (erodeK (erodeK (erodeK (erodeK (erodeK P))))))) := rfl

theorem k0_pay27_eq  (P : FVec F Img .f32) :
    k0_pay27 (F := F) (erodeK (erodeK (erodeK (erodeK (erodeK P)))))
      = (nextRow (pinf (F := F)) (erodeK (erodeK (erodeK (erodeK (erodeK (erodeK P))))))) := rfl

theorem k0_pay28_eq  (P : FVec F Img .f32) :
    k0_pay28 (F := F) (erodeK (erodeK (erodeK (erodeK (erodeK (erodeK P)))))) (prevRow (pinf (F := F)) (erodeK (erodeK (erodeK (erodeK (erodeK (erodeK P))))))) (nextRow (pinf (F := F)) (erodeK (erodeK (erodeK (erodeK (erodeK (erodeK P)))))))
      = (erodeK (erodeK (erodeK (erodeK (erodeK (erodeK (erodeK P))))))) := rfl

theorem k0_pay29_eq  (P : FVec F Img .f32) :
    k0_pay29 (F := F) (erodeK (erodeK (erodeK (erodeK (erodeK (erodeK P)))))) (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (prevRow (pinf (F := F)) (erodeK (erodeK (erodeK (erodeK (erodeK (erodeK P))))))) (nextRow (pinf (F := F)) (erodeK (erodeK (erodeK (erodeK (erodeK (erodeK P)))))))
      = (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) := rfl

theorem k0_pay30_eq  (P : FVec F Img .f32) :
    k0_pay30 (F := F) (erodeK (erodeK (erodeK (erodeK (erodeK (erodeK P)))))) (prevRow (pinf (F := F)) (erodeK (erodeK (erodeK (erodeK (erodeK (erodeK P))))))) (nextRow (pinf (F := F)) (erodeK (erodeK (erodeK (erodeK (erodeK (erodeK P)))))))
      = (erodeK (erodeK (erodeK (erodeK (erodeK (erodeK (erodeK (erodeK P)))))))) := rfl

theorem k0_pay31_eq  (P : FVec F Img .f32) :
    k0_pay31 (F := F) (erodeK (erodeK (erodeK (erodeK (erodeK (erodeK (erodeK P))))))) (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (erodeK (erodeK (erodeK (erodeK (erodeK (erodeK (erodeK (erodeK P)))))))) (ninf (F := F))
      = (addf (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (ridgeK (erodeK (erodeK (erodeK (erodeK (erodeK (erodeK (erodeK P))))))))) := rfl

theorem k0_pay32_eq  (P : FVec F Img .f32) :
    k0_pay32 (F := F) (erodeK (erodeK (erodeK (erodeK (erodeK (erodeK (erodeK (erodeK P))))))))
      = (erodeK (erodeK (erodeK (erodeK (erodeK (erodeK (erodeK (erodeK (erodeK P))))))))) := rfl

theorem k0_pay33_eq  (P : FVec F Img .f32) :
    k0_pay33 (F := F) (erodeK (erodeK (erodeK (erodeK (erodeK (erodeK (erodeK (erodeK P))))))))
      = (maxCols (erodeK (erodeK (erodeK (erodeK (erodeK (erodeK (erodeK (erodeK (erodeK P)))))))))) := rfl

theorem k0_pay34_eq  (P : FVec F Img .f32) :
    k0_pay34 (F := F) (erodeK (erodeK (erodeK (erodeK (erodeK (erodeK (erodeK (erodeK P))))))))
      = (prevRow (ninf (F := F)) (maxCols (erodeK (erodeK (erodeK (erodeK (erodeK (erodeK (erodeK (erodeK (erodeK P))))))))))) := rfl

theorem k0_pay35_eq  (P : FVec F Img .f32) :
    k0_pay35 (F := F) (erodeK (erodeK (erodeK (erodeK (erodeK (erodeK (erodeK (erodeK P)))))))) (addf (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (ridgeK (erodeK (erodeK (erodeK (erodeK (erodeK (erodeK (erodeK P))))))))) (erodeK (erodeK (erodeK (erodeK (erodeK (erodeK (erodeK (erodeK (erodeK P))))))))) (maxCols (erodeK (erodeK (erodeK (erodeK (erodeK (erodeK (erodeK (erodeK (erodeK P)))))))))) (prevRow (ninf (F := F)) (maxCols (erodeK (erodeK (erodeK (erodeK (erodeK (erodeK (erodeK (erodeK (erodeK P))))))))))) (ninf (F := F))
      = (addf (addf (addf (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (ridgeK (erodeK (erodeK (erodeK (erodeK (erodeK (erodeK (erodeK P))))))))) (ridgeK (erodeK (erodeK (erodeK (erodeK (erodeK (erodeK (erodeK (erodeK P)))))))))) (ridgeK (erodeK (erodeK (erodeK (erodeK (erodeK (erodeK (erodeK (erodeK (erodeK P))))))))))) := rfl

theorem k0_pay36_eq  :
    k0_pay36 (F := F)
      = (broadcast Img (zero (F := F))) := rfl

theorem k0_pay37_eq  :
    k0_pay37 (F := F)
      = (broadcast Row1 (pinf (F := F))) := rfl

theorem k0_pay38_eq  (T : FVec F Img .f32) :
    k0_pay38 (F := F) T (broadcast Row1 (pinf (F := F)))
      = (erodeK T) := rfl

theorem k0_pay39_eq  (T : FVec F Img .f32) :
    k0_pay39 (F := F) T (broadcast Img (zero (F := F))) (broadcast Row1 (pinf (F := F)))
      = (addf (broadcast Img (zero (F := F))) (ridgeK T)) := rfl

theorem k0_pay40_eq  (T : FVec F Img .f32) :
    k0_pay40 (F := F) T (broadcast Row1 (pinf (F := F)))
      = (minRows (erodeK T)) := rfl

theorem k0_pay41_eq  (T : FVec F Img .f32) :
    k0_pay41 (F := F) T (broadcast Row1 (pinf (F := F)))
      = (prevCol (pinf (F := F)) (erodeK T)) := rfl

theorem k0_pay42_eq  :
    k0_pay42 (F := F)
      = (broadcast Col1 (pinf (F := F))) := rfl

theorem k0_pay43_eq  (T : FVec F Img .f32) :
    k0_pay43 (F := F) (erodeK T) (minRows (erodeK T)) (prevCol (pinf (F := F)) (erodeK T)) (broadcast Col1 (pinf (F := F)))
      = (erodeK (erodeK T)) := rfl

theorem k0_pay44_eq  (T : FVec F Img .f32) :
    k0_pay44 (F := F) (erodeK T) (addf (broadcast Img (zero (F := F))) (ridgeK T)) (minRows (erodeK T)) (prevCol (pinf (F := F)) (erodeK T)) (broadcast Col1 (pinf (F := F)))
      = (addf (addf (broadcast Img (zero (F := F))) (ridgeK T)) (ridgeK (erodeK T))) := rfl

theorem k0_pay45_eq  (T : FVec F Img .f32) :
    k0_pay45 (F := F) (erodeK T) (minRows (erodeK T)) (prevCol (pinf (F := F)) (erodeK T)) (broadcast Col1 (pinf (F := F)))
      = (erodeK (erodeK (erodeK T))) := rfl

theorem k0_pay46_eq  (T : FVec F Img .f32) :
    k0_pay46 (F := F) (erodeK T) (minRows (erodeK T)) (prevCol (pinf (F := F)) (erodeK T)) (broadcast Col1 (pinf (F := F)))
      = (nextCol (ninf (F := F)) (erodeK (erodeK (erodeK T)))) := rfl

theorem k0_pay47_eq  (T : FVec F Img .f32) :
    k0_pay47 (F := F) (erodeK T) (minRows (erodeK T)) (prevCol (pinf (F := F)) (erodeK T)) (broadcast Col1 (pinf (F := F)))
      = (maximumf (prevCol (ninf (F := F)) (erodeK (erodeK (erodeK T)))) (erodeK (erodeK (erodeK T)))) := rfl

theorem k0_pay48_eq  (T : FVec F Img .f32) :
    k0_pay48 (F := F) (erodeK (erodeK T)) (addf (addf (broadcast Img (zero (F := F))) (ridgeK T)) (ridgeK (erodeK T))) (nextCol (ninf (F := F)) (erodeK (erodeK (erodeK T)))) (maximumf (prevCol (ninf (F := F)) (erodeK (erodeK (erodeK T)))) (erodeK (erodeK (erodeK T))))
      = (addf (addf (addf (broadcast Img (zero (F := F))) (ridgeK T)) (ridgeK (erodeK T))) (ridgeK (erodeK (erodeK T)))) := rfl

theorem k0_pay49_eq  (T : FVec F Img .f32) :
    k0_pay49 (F := F) (erodeK (erodeK (erodeK T)))
      = (erodeK (erodeK (erodeK (erodeK T)))) := rfl

theorem k0_pay50_eq  (T : FVec F Img .f32) :
    k0_pay50 (F := F) (erodeK (erodeK (erodeK T)))
      = (subf (erodeK (erodeK (erodeK T))) (dilateK (erodeK (erodeK (erodeK (erodeK T)))))) := rfl

theorem k0_pay51_eq  :
    k0_pay51 (F := F)
      = (broadcast Img (zero (F := F))) := rfl

theorem k0_pay52_eq  (T : FVec F Img .f32) :
    k0_pay52 (F := F) (erodeK (erodeK (erodeK (erodeK T))))
      = (erodeK (erodeK (erodeK (erodeK (erodeK T))))) := rfl

theorem k0_pay53_eq  (T : FVec F Img .f32) :
    k0_pay53 (F := F) (addf (addf (addf (broadcast Img (zero (F := F))) (ridgeK T)) (ridgeK (erodeK T))) (ridgeK (erodeK (erodeK T)))) (erodeK (erodeK (erodeK (erodeK T)))) (subf (erodeK (erodeK (erodeK T))) (dilateK (erodeK (erodeK (erodeK (erodeK T)))))) (broadcast Img (zero (F := F)))
      = (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) := rfl

theorem k0_pay54_eq  (T : FVec F Img .f32) :
    k0_pay54 (F := F) (erodeK (erodeK (erodeK (erodeK T))))
      = (minRows (erodeK (erodeK (erodeK (erodeK (erodeK T)))))) := rfl

theorem k0_pay55_eq  :
    k0_pay55 (F := F)
      = (broadcast Col1 (pinf (F := F))) := rfl

theorem k0_pay56_eq  (T : FVec F Img .f32) :
    k0_pay56 (F := F) (erodeK (erodeK (erodeK (erodeK (erodeK T))))) (minRows (erodeK (erodeK (erodeK (erodeK (erodeK T)))))) (broadcast Col1 (pinf (F := F)))
      = (erodeK (erodeK (erodeK (erodeK (erodeK (erodeK T)))))) := rfl

theorem k0_pay57_eq  (T : FVec F Img .f32) :
    k0_pay57 (F := F) (erodeK (erodeK (erodeK (erodeK (erodeK T))))) (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (minRows (erodeK (erodeK (erodeK (erodeK (erodeK T)))))) (broadcast Col1 (pinf (F := F)))
      = (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) := rfl

theorem k0_pay58_eq  (T : FVec F Img .f32) :
    k0_pay58 (F := F) (erodeK (erodeK (erodeK (erodeK (erodeK T))))) (minRows (erodeK (erodeK (erodeK (erodeK (erodeK T)))))) (broadcast Col1 (pinf (F := F)))
      = (erodeK (erodeK (erodeK (erodeK (erodeK (erodeK (erodeK T))))))) := rfl

theorem k0_pay59_eq  (T : FVec F Img .f32) :
    k0_pay59 (F := F) (erodeK (erodeK (erodeK (erodeK (erodeK T))))) (minRows (erodeK (erodeK (erodeK (erodeK (erodeK T)))))) (broadcast Col1 (pinf (F := F)))
      = (prevCol (ninf (F := F)) (erodeK (erodeK (erodeK (erodeK (erodeK (erodeK (erodeK T)))))))) := rfl

theorem k0_pay60_eq  (T : FVec F Img .f32) :
    k0_pay60 (F := F) (erodeK (erodeK (erodeK (erodeK (erodeK (erodeK T)))))) (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (erodeK (erodeK (erodeK (erodeK (erodeK (erodeK (erodeK T))))))) (prevCol (ninf (F := F)) (erodeK (erodeK (erodeK (erodeK (erodeK (erodeK (erodeK T)))))))) (ninf (F := F))
      = (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) := rfl

theorem k0_pay61_eq  (T : FVec F Img .f32) :
    k0_pay61 (F := F) (erodeK (erodeK (erodeK (erodeK (erodeK (erodeK (erodeK T)))))))
      = (erodeK (erodeK (erodeK (erodeK (erodeK (erodeK (erodeK (erodeK T)))))))) := rfl

theorem k0_pay62_eq  (T : FVec F Img .f32) :
    k0_pay62 (F := F) (erodeK (erodeK (erodeK (erodeK (erodeK (erodeK (erodeK T)))))))
      = (maxCols (erodeK (erodeK (erodeK (erodeK (erodeK (erodeK (erodeK (erodeK T))))))))) := rfl

theorem k0_pay63_eq  (T : FVec F Img .f32) :
    k0_pay63 (F := F) (erodeK (erodeK (erodeK (erodeK (erodeK (erodeK (erodeK T)))))))
      = (nextRow (ninf (F := F)) (maxCols (erodeK (erodeK (erodeK (erodeK (erodeK (erodeK (erodeK (erodeK T)))))))))) := rfl

theorem k0_pay64_eq  (T : FVec F Img .f32) :
    k0_pay64 (F := F) (erodeK (erodeK (erodeK (erodeK (erodeK (erodeK (erodeK T)))))))
      = (maximumf (prevRow (ninf (F := F)) (maxCols (erodeK (erodeK (erodeK (erodeK (erodeK (erodeK (erodeK (erodeK T)))))))))) (maxCols (erodeK (erodeK (erodeK (erodeK (erodeK (erodeK (erodeK (erodeK T)))))))))) := rfl

theorem k0_pay65_eq  (T : FVec F Img .f32) :
    k0_pay65 (F := F) (erodeK (erodeK (erodeK (erodeK (erodeK (erodeK (erodeK (erodeK T))))))))
      = (erodeK (erodeK (erodeK (erodeK (erodeK (erodeK (erodeK (erodeK (erodeK T))))))))) := rfl

theorem k0_pay66_eq  (T : FVec F Img .f32) :
    k0_pay66 (F := F) (erodeK (erodeK (erodeK (erodeK (erodeK (erodeK (erodeK T))))))) (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (erodeK (erodeK (erodeK (erodeK (erodeK (erodeK (erodeK (erodeK T)))))))) (nextRow (ninf (F := F)) (maxCols (erodeK (erodeK (erodeK (erodeK (erodeK (erodeK (erodeK (erodeK T)))))))))) (maximumf (prevRow (ninf (F := F)) (maxCols (erodeK (erodeK (erodeK (erodeK (erodeK (erodeK (erodeK (erodeK T)))))))))) (maxCols (erodeK (erodeK (erodeK (erodeK (erodeK (erodeK (erodeK (erodeK T))))))))))
      = (addf (addf (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (ridgeK (erodeK (erodeK (erodeK (erodeK (erodeK (erodeK (erodeK T))))))))) (ridgeK (erodeK (erodeK (erodeK (erodeK (erodeK (erodeK (erodeK (erodeK T)))))))))) := rfl

theorem k0_pay67_eq  (T : FVec F Img .f32) :
    k0_pay67 (F := F) (erodeK (erodeK (erodeK (erodeK (erodeK (erodeK (erodeK (erodeK T))))))))
      = (prevRow (pinf (F := F)) (erodeK (erodeK (erodeK (erodeK (erodeK (erodeK (erodeK (erodeK (erodeK T)))))))))) := rfl

theorem k0_pay68_eq  (T : FVec F Img .f32) :
    k0_pay68 (F := F) (erodeK (erodeK (erodeK (erodeK (erodeK (erodeK (erodeK (erodeK T))))))))
      = (nextRow (pinf (F := F)) (erodeK (erodeK (erodeK (erodeK (erodeK (erodeK (erodeK (erodeK (erodeK T)))))))))) := rfl

theorem k0_pay69_eq  (T : FVec F Img .f32) :
    k0_pay69 (F := F) (erodeK (erodeK (erodeK (erodeK (erodeK (erodeK (erodeK (erodeK (erodeK T))))))))) (addf (addf (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (ridgeK (erodeK (erodeK (erodeK (erodeK (erodeK (erodeK (erodeK T))))))))) (ridgeK (erodeK (erodeK (erodeK (erodeK (erodeK (erodeK (erodeK (erodeK T)))))))))) (prevRow (pinf (F := F)) (erodeK (erodeK (erodeK (erodeK (erodeK (erodeK (erodeK (erodeK (erodeK T)))))))))) (nextRow (pinf (F := F)) (erodeK (erodeK (erodeK (erodeK (erodeK (erodeK (erodeK (erodeK (erodeK T))))))))))
      = (addf (addf (addf (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (ridgeK (erodeK (erodeK (erodeK (erodeK (erodeK (erodeK (erodeK T))))))))) (ridgeK (erodeK (erodeK (erodeK (erodeK (erodeK (erodeK (erodeK (erodeK T)))))))))) (ridgeK (erodeK (erodeK (erodeK (erodeK (erodeK (erodeK (erodeK (erodeK (erodeK T))))))))))) := rfl

theorem k0_pay70_eq  (P T : FVec F Img .f32) :
    k0_pay70 (F := F) P (erodeK (erodeK (erodeK (erodeK (erodeK (erodeK (erodeK (erodeK (erodeK T))))))))) (addf (addf (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (ridgeK (erodeK (erodeK (erodeK (erodeK (erodeK (erodeK (erodeK T))))))))) (ridgeK (erodeK (erodeK (erodeK (erodeK (erodeK (erodeK (erodeK (erodeK T)))))))))) (prevRow (pinf (F := F)) (erodeK (erodeK (erodeK (erodeK (erodeK (erodeK (erodeK (erodeK (erodeK T)))))))))) (nextRow (pinf (F := F)) (erodeK (erodeK (erodeK (erodeK (erodeK (erodeK (erodeK (erodeK (erodeK T))))))))))
      = (sumK (mulf P (addf (addf (addf (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (ridgeK (erodeK (erodeK (erodeK (erodeK (erodeK (erodeK (erodeK T))))))))) (ridgeK (erodeK (erodeK (erodeK (erodeK (erodeK (erodeK (erodeK (erodeK T)))))))))) (ridgeK (erodeK (erodeK (erodeK (erodeK (erodeK (erodeK (erodeK (erodeK (erodeK T))))))))))))) := rfl

theorem k0_pay71_eq  (T : FVec F Img .f32) :
    k0_pay71 (F := F) (erodeK (erodeK (erodeK (erodeK (erodeK (erodeK (erodeK (erodeK (erodeK T))))))))) (addf (addf (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (ridgeK (erodeK (erodeK (erodeK (erodeK (erodeK (erodeK (erodeK T))))))))) (ridgeK (erodeK (erodeK (erodeK (erodeK (erodeK (erodeK (erodeK (erodeK T)))))))))) (prevRow (pinf (F := F)) (erodeK (erodeK (erodeK (erodeK (erodeK (erodeK (erodeK (erodeK (erodeK T)))))))))) (nextRow (pinf (F := F)) (erodeK (erodeK (erodeK (erodeK (erodeK (erodeK (erodeK (erodeK (erodeK T))))))))))
      = (sumK (addf (addf (addf (addf (addf (addf (addf (addf (addf (addf (broadcast Img (zero (F := F))) (ridgeK T)) (ridgeK (erodeK T))) (ridgeK (erodeK (erodeK T)))) (ridgeK (erodeK (erodeK (erodeK T))))) (ridgeK (erodeK (erodeK (erodeK (erodeK T)))))) (ridgeK (erodeK (erodeK (erodeK (erodeK (erodeK T))))))) (ridgeK (erodeK (erodeK (erodeK (erodeK (erodeK (erodeK T)))))))) (ridgeK (erodeK (erodeK (erodeK (erodeK (erodeK (erodeK (erodeK T))))))))) (ridgeK (erodeK (erodeK (erodeK (erodeK (erodeK (erodeK (erodeK (erodeK T)))))))))) (ridgeK (erodeK (erodeK (erodeK (erodeK (erodeK (erodeK (erodeK (erodeK (erodeK T)))))))))))) := rfl

theorem k0_pay72_eq  (P T : FVec F Img .f32) :
    k0_pay72 (F := F) T (addf (addf (addf (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (ridgeK (erodeK (erodeK (erodeK (erodeK (erodeK (erodeK (erodeK P))))))))) (ridgeK (erodeK (erodeK (erodeK (erodeK (erodeK (erodeK (erodeK (erodeK P)))))))))) (ridgeK (erodeK (erodeK (erodeK (erodeK (erodeK (erodeK (erodeK (erodeK (erodeK P)))))))))))
      = (sumK (mulf T (addf (addf (addf (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (ridgeK (erodeK (erodeK (erodeK (erodeK (erodeK (erodeK (erodeK P))))))))) (ridgeK (erodeK (erodeK (erodeK (erodeK (erodeK (erodeK (erodeK (erodeK P)))))))))) (ridgeK (erodeK (erodeK (erodeK (erodeK (erodeK (erodeK (erodeK (erodeK (erodeK P))))))))))))) := rfl

theorem k0_pay73_eq  (P : FVec F Img .f32) :
    k0_pay73 (F := F) (addf (addf (addf (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (ridgeK (erodeK (erodeK (erodeK (erodeK (erodeK (erodeK (erodeK P))))))))) (ridgeK (erodeK (erodeK (erodeK (erodeK (erodeK (erodeK (erodeK (erodeK P)))))))))) (ridgeK (erodeK (erodeK (erodeK (erodeK (erodeK (erodeK (erodeK (erodeK (erodeK P)))))))))))
      = (sumK (addf (addf (addf (addf (addf (addf (addf (addf (addf (addf (broadcast Img (zero (F := F))) (ridgeK P)) (ridgeK (erodeK P))) (ridgeK (erodeK (erodeK P)))) (ridgeK (erodeK (erodeK (erodeK P))))) (ridgeK (erodeK (erodeK (erodeK (erodeK P)))))) (ridgeK (erodeK (erodeK (erodeK (erodeK (erodeK P))))))) (ridgeK (erodeK (erodeK (erodeK (erodeK (erodeK (erodeK P)))))))) (ridgeK (erodeK (erodeK (erodeK (erodeK (erodeK (erodeK (erodeK P))))))))) (ridgeK (erodeK (erodeK (erodeK (erodeK (erodeK (erodeK (erodeK (erodeK P)))))))))) (ridgeK (erodeK (erodeK (erodeK (erodeK (erodeK (erodeK (erodeK (erodeK (erodeK P)))))))))))) := rfl

end Cert.KernelIdeal.Pay

end
-- ==== Proof.KernelOut.lean ====
/-
  What the per-image program leaves in each of its four output buffers at a grid point: every entry of the [1, 8, 128]
  buffer is one sum over the point's image — the sum of p * skeleton(t), of skeleton(t), of t * skeleton(p) and of
  skeleton(p), where p is the logistic of the first input's block and t the second input's block.
-/
import proofs.«131082_j25872882991527_1_alg».proof.Proof.FramePKernelIdeal
import proofs.«131082_j25872882991527_1_alg».proof.Proof.KernelPay

set_option maxRecDepth 16384

noncomputable section

namespace Cert.KernelIdeal.Out

open Idealize.ShloMosaic Cert.KernelIdeal Cert.KernelIdeal.Gen Cert.KernelIdeal.GenP Cert.KernelIdeal.Pay ClDice

variable {F : FTy → Type} [FloatOps F]

theorem out0_2_eq (x0 x1 : Vec F S1x1x512x512 .f32) :
    out0_2 x0 x1 = View.canon [⟨r0_1, k0_pay1 (sumK (mulf (predOf (View.ld x0 r0_0)) (skelK (targOf (View.ld x1 r0_0)))))⟩] := by
  unfold out0_2
  simp only [k0_pay5_eq, k0_pay6_eq, k0_pay7_eq, k0_pay8_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq]
  rfl

theorem out0_3_eq (x0 x1 : Vec F S1x1x512x512 .f32) :
    out0_3 x0 x1 = View.canon [⟨r0_1, k0_pay2 (sumK (skelK (targOf (View.ld x1 r0_0))))⟩] := by
  unfold out0_3
  simp only [k0_pay5_eq, k0_pay6_eq, k0_pay7_eq, k0_pay8_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq]
  rfl

theorem out0_4_eq (x0 x1 : Vec F S1x1x512x512 .f32) :
    out0_4 x0 x1 = View.canon [⟨r0_1, k0_pay3 (sumK (mulf (targOf (View.ld x1 r0_0)) (skelK (predOf (View.ld x0 r0_0)))))⟩] := by
  unfold out0_4
  simp only [k0_pay5_eq, k0_pay6_eq, k0_pay7_eq, k0_pay8_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq]
  rfl

theorem out0_5_eq (x0 x1 : Vec F S1x1x512x512 .f32) :
    out0_5 x0 x1 = View.canon [⟨r0_1, k0_pay4 (sumK (skelK (predOf (View.ld x0 r0_0))))⟩] := by
  unfold out0_5
  simp only [k0_pay5_eq, k0_pay6_eq, k0_pay7_eq, k0_pay8_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq]
  rfl

end Cert.KernelIdeal.Out

end
-- ==== Proof.KernelBlocks.lean ====
/-
  From blocks to arrays: each of the per-image program's four output arrays [16, 8, 128] ends holding, on slab b,
  the corresponding sum of image b of the two argument batches.

  Grid point t stages block t of each input (the image number is the point's number; the other block coordinates are
  zero), so the staged [1, 1, 512, 512] block read as an image is image t of the argument; what the point writes back is
  the [1, 8, 128] slab t of the output; the sixteen slabs cover the output array.
-/
import proofs.«131082_j25872882991527_1_alg».proof.Proof.FramePKernelIdeal
import proofs.«131082_j25872882991527_1_alg».proof.Proof.KernelOut
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.Pipeline
open Cert.KernelIdeal Cert.KernelIdeal.Gen Cert.KernelIdeal.GenP Cert.KernelIdeal.Out ClDice ValueIdx

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The image number of a grid point. -/
def bOf (t : Fin cfg0.N) : Fin 16 := ⟨t.val, by have h := t.isLt; have e : cfg0.N = 16 := N_0; omega⟩

/-- The printed index maps, decided over the grid: every window's block at point t is block (t, 0, …, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- A [1, 1, 512, 512] block read as an image, entry by entry. -/
theorem targOf_apply (v : FVec F Blk .f32) (r c : Fin 512) : targOf v (ix2 r c) = v (ix4 (0 : Fin 1) (0 : Fin 1) r c) := by
  unfold targOf
  refine shapeCast_apply v _ (ix2 r c) (ix4 (0 : Fin 1) (0 : Fin 1) r c) ?_
  rw [Shape.rowMajor_val_four, Shape.rowMajor_val_two]
  simp

/-- A block of a batch that sits at image b, read as an image, is image b of the batch. -/
theorem targOf_read (A : Batch.Idx → F .f32) (e : Blk.Idx → Batch.Idx) (b : Fin 16)
    (he : ∀ r c : Fin 512, e (ix4 (0 : Fin 1) (0 : Fin 1) r c) = ix4 b (0 : Fin 1) r c) :
    targOf (F := F) (fun y => A (e y)) = imgOf A b := by
  funext j
  obtain ⟨r, c, rfl⟩ : ∃ (r c : Fin 512), j = ix2 r c := ⟨j 0, j 1, eq_ix2 j⟩
  rw [targOf_apply]
  show A (e _) = A _
  rw [he]

variable (m : (ℓ : Loc nD τ sig) → Buf (Elt F) ℓ)

/-- Input window 0's block at point t, read as an image, is image t of the first argument. -/
theorem blk0_img (c : Dev nD) (t : Fin cfg0.N) : targOf (F := F) (iblk m c 0 t) = imgOf (V m c main_arg0) (bOf t) := by
  obtain ⟨e0, e1, e2, e3, -⟩ := idx_facts t
  show targOf (F := F) (fun y => V m c main_arg0 (((cfg0.win 0).blk t).view.emb y)) = _
  refine targOf_read (V m c main_arg0) _ (bOf t) (fun r c => ?_)
  funext a; apply Fin.ext
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 512 + 1 * r.val = r.val; omega
  | ⟨3, _⟩ => show win0_0.index t (3 : Fin 4) * 512 + 1 * c.val = c.val; omega

/-- Input window 1's block at point t, read as an image, is image t of the second argument. -/
theorem blk1_img (c : Dev nD) (t : Fin cfg0.N) : targOf (F := F) (iblk m c 1 t) = imgOf (V m c main_arg1) (bOf t) := by
  obtain ⟨-, -, -, -, e0, e1, e2, e3, -⟩ := idx_facts t
  show targOf (F := F) (fun y => V m c main_arg1 (((cfg0.win 1).blk t).view.emb y)) = _
  refine targOf_read (V m c main_arg1) _ (bOf t) (fun r c => ?_)
  funext a; apply Fin.ext
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 512 + 1 * r.val = r.val; omega
  | ⟨3, _⟩ => show win0_1.index t (3 : Fin 4) * 512 + 1 * c.val = c.val; omega

/-! ## Output window 2 -/

/-- What point t writes back is slab t of the spread of the images' sums. -/
theorem flushed2_eq (c : Dev nD) (t : Fin cfg0.N) :
    (dats m 0 c).flushed 2 t = ((cfg0.win 2).blk t).view.read (Elt F) (spread (s1 (V m c main_arg0) (V m c main_arg1))) := by
  obtain ⟨-, -, -, -, -, -, -, -, e0, e1, e2, -⟩ := idx_facts t
  show (cfg0.win 2).cut (grid0.coords t) ((dats m 0 c).after 2 t) = _
  rw [after0_2, out0_2_eq, View.canon_unit_zero hz3]
  simp only [View.ld_unit_zero (S := S1x1x512x512) hz4]
  funext j
  have hj : (j 0).val < 1 := (j 0).isLt
  have hb : ((((cfg0.win 2).blk t).view.emb j) 0 : Fin 16) = bOf t :=
    Fin.ext (by show win0_2.index t (0 : Fin 3) * 1 + 1 * (j 0).val = t.val; omega)
  show sumK (mulf (predOf (iblk m c 0 t)) (skelK (targOf (iblk m c 1 t)))) = s1 (V m c main_arg0) (V m c main_arg1) ((((cfg0.win 2).blk t).view.emb j) 0)
  rw [hb]
  simp only [s1, predOf, blk0_img, blk1_img]

/-- An index of the array is in point t's block iff each coordinate is in the block's range on its axis. -/
theorem mem_blk2 (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0_0).slice (win0_2.rect t)).set ↔ _
  rw [View.set_slice_whole, Rect.mem_set_unit]
  exact Iff.rfl

/-- Every index of the array is in the block of the point numbered by its slab. -/
theorem cover2 (i : S16x8x128.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 128 := (i 2).isLt
  obtain ⟨-, -, -, -, -, -, -, -, e0, e1, e2, -⟩ := idx_facts (⟨(i 0).val, by rw [show cfg0.N = 16 from N_0]; exact hi0⟩ : Fin cfg0.N)
  refine ⟨⟨(i 0).val, by rw [show cfg0.N = 16 from N_0]; exact hi0⟩, flush0_2 _, ?_⟩
  rw [mem_blk2]
  intro a
  match a with
  | ⟨0, _⟩ => show win0_2.index _ (0 : Fin 3) * 1 ≤ (i 0).val ∧ (i 0).val < win0_2.index _ (0 : Fin 3) * 1 + 1; rw [e0]; constructor <;> simp
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 128 ≤ (i 2).val ∧ (i 2).val < win0_2.index _ (2 : Fin 3) * 128 + 128; rw [e2]; omega

/-- The array after the run: the spread of the images' sums. -/
theorem final2 (c : Dev nD) : (dats m 0 c).arrAt 2 cfg0.N = spread (s1 (V m c main_arg0) (V m c main_arg1)) :=
  (dats m 0 c).arrAt_eq_of_cover 2 _ (fun t _ => flushed2_eq m c t) cover2

/-! ## Output window 3 -/

/-- What point t writes back is slab t of the spread of the images' sums. -/
theorem flushed3_eq (c : Dev nD) (t : Fin cfg0.N) :
    (dats m 0 c).flushed 3 t = ((cfg0.win 3).blk t).view.read (Elt F) (spread (s2 (V m c main_arg0) (V m c main_arg1))) := by
  obtain ⟨-, -, -, -, -, -, -, -, -, -, -, e0, e1, e2, -⟩ := idx_facts t
  show (cfg0.win 3).cut (grid0.coords t) ((dats m 0 c).after 3 t) = _
  rw [after0_3, out0_3_eq, View.canon_unit_zero hz3]
  simp only [View.ld_unit_zero (S := S1x1x512x512) hz4]
  funext j
  have hj : (j 0).val < 1 := (j 0).isLt
  have hb : ((((cfg0.win 3).blk t).view.emb j) 0 : Fin 16) = bOf t :=
    Fin.ext (by show win0_3.index t (0 : Fin 3) * 1 + 1 * (j 0).val = t.val; omega)
  show sumK (skelK (targOf (iblk m c 1 t))) = s2 (V m c main_arg0) (V m c main_arg1) ((((cfg0.win 3).blk t).view.emb j) 0)
  rw [hb]
  simp only [s2, predOf, blk0_img, blk1_img]

/-- An index of the array is in point t's block iff each coordinate is in the block's range on its axis. -/
theorem mem_blk3 (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- Every index of the array is in the block of the point numbered by its slab. -/
theorem cover3 (i : S16x8x128.Idx) :
    ∃ t : Fin cfg0.N, (cfg0.win 3).flush t = true ∧ i ∈ ((cfg0.win 3).blk t).view.set := by
  have hi0 : (i 0).val < 16 := (i 0).isLt
  have hi1 : (i 1).val < 8 := (i 1).isLt
  have hi2 : (i 2).val < 128 := (i 2).isLt
  obtain ⟨-, -, -, -, -, -, -, -, -, -, -, e0, e1, e2, -⟩ := idx_facts (⟨(i 0).val, by rw [show cfg0.N = 16 from N_0]; exact hi0⟩ : Fin cfg0.N)
  refine ⟨⟨(i 0).val, by rw [show cfg0.N = 16 from N_0]; exact hi0⟩, flush0_3 _, ?_⟩
  rw [mem_blk3]
  intro a
  match a with
  | ⟨0, _⟩ => show win0_3.index _ (0 : Fin 3) * 1 ≤ (i 0).val ∧ (i 0).val < win0_3.index _ (0 : Fin 3) * 1 + 1; rw [e0]; constructor <;> simp
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 128 ≤ (i 2).val ∧ (i 2).val < win0_3.index _ (2 : Fin 3) * 128 + 128; rw [e2]; omega

/-- The array after the run: the spread of the images' sums. -/
theorem final3 (c : Dev nD) : (dats m 0 c).arrAt 3 cfg0.N = spread (s2 (V m c main_arg0) (V m c main_arg1)) :=
  (dats m 0 c).arrAt_eq_of_cover 3 _ (fun t _ => flushed3_eq m c t) cover3

/-! ## Output window 4 -/

/-- What point t writes back is slab t of the spread of the images' sums. -/
theorem flushed4_eq (c : Dev nD) (t : Fin cfg0.N) :
    (dats m 0 c).flushed 4 t = ((cfg0.win 4).blk t).view.read (Elt F) (spread (s3 (V m c main_arg0) (V m c main_arg1))) := by
  obtain ⟨-, -, -, -, -, -, -, -, -, -, -, -, -, -, e0, e1, e2, -⟩ := idx_facts t
  show (cfg0.win 4).cut (grid0.coords t) ((dats m 0 c).after 4 t) = _
  rw [after0_4, out0_4_eq, View.canon_unit_zero hz3]
  simp only [View.ld_unit_zero (S := S1x1x512x512) hz4]
  funext j
  have hj : (j 0).val < 1 := (j 0).isLt
  have hb : ((((cfg0.win 4).blk t).view.emb j) 0 : Fin 16) = bOf t :=
    Fin.ext (by show win0_4.index t (0 : Fin 3) * 1 + 1 * (j 0).val = t.val; omega)
  show sumK (mulf (targOf (iblk m c 1 t)) (skelK (predOf (iblk m c 0 t)))) = s3 (V m c main_arg0) (V m c main_arg1) ((((cfg0.win 4).blk t).view.emb j) 0)
  rw [hb]
  simp only [s3, predOf, blk0_img, blk1_img]

/-- An index of the array is in point t's block iff each coordinate is in the block's range on its axis. -/
theorem mem_blk4 (t : Fin cfg0.N) (i : S16x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_2).slice (win0_4.rect t)).set ↔ _
  rw [View.set_slice_whole, Rect.mem_set_unit]
  exact Iff.rfl

/-- Every index of the array is in the block of the point numbered by its slab. -/
theorem cover4 (i : S16x8x128.Idx) :
    ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 128 := (i 2).isLt
  obtain ⟨-, -, -, -, -, -, -, -, -, -, -, -, -, -, e0, e1, e2, -⟩ := idx_facts (⟨(i 0).val, by rw [show cfg0.N = 16 from N_0]; exact hi0⟩ : Fin cfg0.N)
  refine ⟨⟨(i 0).val, by rw [show cfg0.N = 16 from N_0]; exact hi0⟩, flush0_4 _, ?_⟩
  rw [mem_blk4]
  intro a
  match a with
  | ⟨0, _⟩ => show win0_4.index _ (0 : Fin 3) * 1 ≤ (i 0).val ∧ (i 0).val < win0_4.index _ (0 : Fin 3) * 1 + 1; rw [e0]; constructor <;> simp
  | ⟨1, _⟩ => show win0_4.index _ (1 : Fin 3) * 8 ≤ (i 1).val ∧ (i 1).val < win0_4.index _ (1 : Fin 3) * 8 + 8; rw [e1]; omega
  | ⟨2, _⟩ => show win0_4.index _ (2 : Fin 3) * 128 ≤ (i 2).val ∧ (i 2).val < win0_4.index _ (2 : Fin 3) * 128 + 128; rw [e2]; omega

/-- The array after the run: the spread of the images' sums. -/
theorem final4 (c : Dev nD) : (dats m 0 c).arrAt 4 cfg0.N = spread (s3 (V m c main_arg0) (V m c main_arg1)) :=
  (dats m 0 c).arrAt_eq_of_cover 4 _ (fun t _ => flushed4_eq m c t) cover4

/-! ## Output window 5 -/

/-- What point t writes back is slab t of the spread of the images' sums. -/
theorem flushed5_eq (c : Dev nD) (t : Fin cfg0.N) :
    (dats m 0 c).flushed 5 t = ((cfg0.win 5).blk t).view.read (Elt F) (spread (s4 (V m c main_arg0) (V m c main_arg1))) := by
  obtain ⟨-, -, -, -, -, -, -, -, -, -, -, -, -, -, -, -, -, e0, e1, e2⟩ := idx_facts t
  show (cfg0.win 5).cut (grid0.coords t) ((dats m 0 c).after 5 t) = _
  rw [after0_5, out0_5_eq, View.canon_unit_zero hz3]
  simp only [View.ld_unit_zero (S := S1x1x512x512) hz4]
  funext j
  have hj : (j 0).val < 1 := (j 0).isLt
  have hb : ((((cfg0.win 5).blk t).view.emb j) 0 : Fin 16) = bOf t :=
    Fin.ext (by show win0_5.index t (0 : Fin 3) * 1 + 1 * (j 0).val = t.val; omega)
  show sumK (skelK (predOf (iblk m c 0 t))) = s4 (V m c main_arg0) (V m c main_arg1) ((((cfg0.win 5).blk t).view.emb j) 0)
  rw [hb]
  simp only [s4, predOf, blk0_img, blk1_img]

/-- An index of the array is in point t's block iff each coordinate is in the block's range on its axis. -/
theorem mem_blk5 (t : Fin cfg0.N) (i : S16x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v0_3).slice (win0_5.rect t)).set ↔ _
  rw [View.set_slice_whole, Rect.mem_set_unit]
  exact Iff.rfl

/-- Every index of the array is in the block of the point numbered by its slab. -/
theorem cover5 (i : S16x8x128.Idx) :
    ∃ t : Fin cfg0.N, (cfg0.win 5).flush t = true ∧ i ∈ ((cfg0.win 5).blk t).view.set := by
  have hi0 : (i 0).val < 16 := (i 0).isLt
  have hi1 : (i 1).val < 8 := (i 1).isLt
  have hi2 : (i 2).val < 128 := (i 2).isLt
  obtain ⟨-, -, -, -, -, -, -, -, -, -, -, -, -, -, -, -, -, e0, e1, e2⟩ := idx_facts (⟨(i 0).val, by rw [show cfg0.N = 16 from N_0]; exact hi0⟩ : Fin cfg0.N)
  refine ⟨⟨(i 0).val, by rw [show cfg0.N = 16 from N_0]; exact hi0⟩, flush0_5 _, ?_⟩
  rw [mem_blk5]
  intro a
  match a with
  | ⟨0, _⟩ => show win0_5.index _ (0 : Fin 3) * 1 ≤ (i 0).val ∧ (i 0).val < win0_5.index _ (0 : Fin 3) * 1 + 1; rw [e0]; constructor <;> simp
  | ⟨1, _⟩ => show win0_5.index _ (1 : Fin 3) * 8 ≤ (i 1).val ∧ (i 1).val < win0_5.index _ (1 : Fin 3) * 8 + 8; rw [e1]; omega
  | ⟨2, _⟩ => show win0_5.index _ (2 : Fin 3) * 128 ≤ (i 2).val ∧ (i 2).val < win0_5.index _ (2 : Fin 3) * 128 + 128; rw [e2]; omega

/-- The array after the run: the spread of the images' sums. -/
theorem final5 (c : Dev nD) : (dats m 0 c).arrAt 5 cfg0.N = spread (s4 (V m c main_arg0) (V m c main_arg1)) :=
  (dats m 0 c).arrAt_eq_of_cover 5 _ (fun t _ => flushed5_eq m c t) cover5

end Cert.KernelIdeal.Blocks

end
-- ==== Proof.KernelTail.lean ====
/-
  The per-image program's run, read: its result is the loss of the four sums over the sixteen slabs of its output arrays,
  and each output array is the spread of the per-image sums of the argument batches.

  After the region the host lines take entry (b, 0, 0) of each output array, sum the sixteen of them, and combine the
  four totals into the loss; the region leaves each output array at the spread of the images' sums.
-/
import proofs.«131082_j25872882991527_1_alg».proof.Proof.FramePKernelIdeal
import proofs.«131082_j25872882991527_1_alg».proof.Proof.KernelBlocks
import Idealize.ShloMosaic.Lib.StableHlo.Run

set_option maxRecDepth 16384

noncomputable section

namespace Cert.KernelIdeal.Tail

open Idealize.ShloMosaic Idealize.ShloMosaic.TcCoe Idealize.SL.Sem Idealize.ShloMosaic.Pipeline Idealize.ShloMosaic.StableHlo
open Cert.KernelIdeal Cert.KernelIdeal.Gen Cert.KernelIdeal.GenP Cert.KernelIdeal.Blocks ClDice

variable {F : FTy → Type} [FloatOps F]
variable (m : (ℓ : Loc nD τ sig) → Buf (Elt F) ℓ) (ρ : Dev nD → PrngReg)

/-- The loss from the per-image sums of the two argument batches. -/
def result (A0 A1 : FVec F Batch .f32) : FVec F Sc .f32 :=
  combine (sum16 (spread (s1 A0 A1))) (sum16 (spread (s2 A0 A1))) (sum16 (spread (s3 A0 A1))) (sum16 (spread (s4 A0 A1)))

set_option maxHeartbeats 4000000 in
/-- The host lines after the region compute the loss from the four output arrays as the region left them. -/
theorem tail_eq (c : Dev nD) :
    Pipeline.afterTail₀ cfgs (dats m) 0 (V0 m) [hostOps1] c main_v22
      = result (V m c main_arg0) (V m c main_arg1) := by
  have e2 : Pipeline.withArrays spec0 c (V0 m c) (fun w => (dats m 0 c).arrAt w cfg0.N) (Proc.devRef .tc main_v0_0) = spread (s1 (V m c main_arg0) (V m c main_arg1)) :=
    (Pipeline.withArrays_arr spec0 launch0.win.arr_inj c _ _ 2).trans (final2 m c)
  have e3 : Pipeline.withArrays spec0 c (V0 m c) (fun w => (dats m 0 c).arrAt w cfg0.N) (Proc.devRef .tc main_v0_1) = spread (s2 (V m c main_arg0) (V m c main_arg1)) :=
    (Pipeline.withArrays_arr spec0 launch0.win.arr_inj c _ _ 3).trans (final3 m c)
  have e4 : Pipeline.withArrays spec0 c (V0 m c) (fun w => (dats m 0 c).arrAt w cfg0.N) (Proc.devRef .tc main_v0_2) = spread (s3 (V m c main_arg0) (V m c main_arg1)) :=
    (Pipeline.withArrays_arr spec0 launch0.win.arr_inj c _ _ 4).trans (final4 m c)
  have e5 : Pipeline.withArrays spec0 c (V0 m c) (fun w => (dats m 0 c).arrAt w cfg0.N) (Proc.devRef .tc main_v0_3) = spread (s4 (V m c main_arg0) (V m c main_arg1)) :=
    (Pipeline.withArrays_arr spec0 launch0.win.arr_inj c _ _ 5).trans (final5 m c)
  unfold Pipeline.afterTail₀
  show StableHlo.after hostOps1 (Pipeline.withArrays spec0 c (V0 m c) (fun w => (dats m 0 c).arrAt w cfg0.N)) (Proc.devRef .tc main_v22) = _
  after_results_simp
  rw [e2, e3, e4, e5]
  rfl

/-- The run: the result buffer ends at the loss of the per-image sums, the arguments unchanged. -/
theorem run : θ_run defs (onTc (τ := τ) (main (F := F))) ⟨m, fun _ => 0, ρ⟩ fun r => ∀ c : Dev nD,
      r.2.mem ((c.tc : Thread nD τ).loc main_v22) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v22 (Pipeline.mem_restRefs_of main_v22 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.RefStages.lean ====
/-
  The batched program's stages, named by what they are: each erosion stage is the erosion of the stage before it,
  each skeleton stage adds the ridge of its image stage; the last stages are the four sums and the loss.  Every
  equation is the program's own stage re-read through the definitions of the specification.
-/
import proofs.«131082_j25872882991527_1_alg».proof.Proof.RefReadP
import proofs.«131082_j25872882991527_1_alg».proof.Proof.Spec

noncomputable section

namespace Cert.ReferenceIdeal.Stages

open Idealize.ShloMosaic Cert.ReferenceIdeal Cert.ReferenceIdeal.ReadP ClDice

variable {F : FTy → Type} [FloatOps F]

theorem val_main_v11_stage (x0 : (⟨S16x1x512x512, .f32⟩ : BufTy).Contents (Elt F)) :
    val_main_v11 (F := F) x0 = erodeR (val_main_v5 (F := F) x0) := rfl
theorem val_main_v16_stage (x0 : (⟨S16x1x512x512, .f32⟩ : BufTy).Contents (Elt F)) :
    val_main_v16 (F := F) x0 = addf (zeroR (F := F)) (ridgeR (val_main_v5 (F := F) x0)) := rfl
theorem val_main_v21_stage (x0 : (⟨S16x1x512x512, .f32⟩ : BufTy).Contents (Elt F)) :
    val_main_v21 (F := F) x0 = erodeR (val_main_v5 (F := F) x0) := rfl
theorem val_main_v26_stage (x0 : (⟨S16x1x512x512, .f32⟩ : BufTy).Contents (Elt F)) :
    val_main_v26 (F := F) x0 = erodeR (val_main_v11 (F := F) x0) := rfl
theorem val_main_v31_stage (x0 : (⟨S16x1x512x512, .f32⟩ : BufTy).Contents (Elt F)) :
    val_main_v31 (F := F) x0 = addf (val_main_v16 (F := F) x0) (ridgeR (val_main_v11 (F := F) x0)) := rfl
theorem val_main_v36_stage (x0 : (⟨S16x1x512x512, .f32⟩ : BufTy).Contents (Elt F)) :
    val_main_v36 (F := F) x0 = erodeR (val_main_v11 (F := F) x0) := rfl
theorem val_main_v41_stage (x0 : (⟨S16x1x512x512, .f32⟩ : BufTy).Contents (Elt F)) :
    val_main_v41 (F := F) x0 = erodeR (val_main_v26 (F := F) x0) := rfl
theorem val_main_v46_stage (x0 : (⟨S16x1x512x512, .f32⟩ : BufTy).Contents (Elt F)) :
    val_main_v46 (F := F) x0 = addf (val_main_v31 (F := F) x0) (ridgeR (val_main_v26 (F := F) x0)) := rfl
theorem val_main_v51_stage (x0 : (⟨S16x1x512x512, .f32⟩ : BufTy).Contents (Elt F)) :
    val_main_v51 (F := F) x0 = erodeR (val_main_v26 (F := F) x0) := rfl
theorem val_main_v56_stage (x0 : (⟨S16x1x512x512, .f32⟩ : BufTy).Contents (Elt F)) :
    val_main_v56 (F := F) x0 = erodeR (val_main_v41 (F := F) x0) := rfl
theorem val_main_v61_stage (x0 : (⟨S16x1x512x512, .f32⟩ : BufTy).Contents (Elt F)) :
    val_main_v61 (F := F) x0 = addf (val_main_v46 (F := F) x0) (ridgeR (val_main_v41 (F := F) x0)) := rfl
theorem val_main_v66_stage (x0 : (⟨S16x1x512x512, .f32⟩ : BufTy).Contents (Elt F)) :
    val_main_v66 (F := F) x0 = erodeR (val_main_v41 (F := F) x0) := rfl
theorem val_main_v71_stage (x0 : (⟨S16x1x512x512, .f32⟩ : BufTy).Contents (Elt F)) :
    val_main_v71 (F := F) x0 = erodeR (val_main_v56 (F := F) x0) := rfl
theorem val_main_v76_stage (x0 : (⟨S16x1x512x512, .f32⟩ : BufTy).Contents (Elt F)) :
    val_main_v76 (F := F) x0 = addf (val_main_v61 (F := F) x0) (ridgeR (val_main_v56 (F := F) x0)) := rfl
theorem val_main_v81_stage (x0 : (⟨S16x1x512x512, .f32⟩ : BufTy).Contents (Elt F)) :
    val_main_v81 (F := F) x0 = erodeR (val_main_v56 (F := F) x0) := rfl
theorem val_main_v86_stage (x0 : (⟨S16x1x512x512, .f32⟩ : BufTy).Contents (Elt F)) :
    val_main_v86 (F := F) x0 = erodeR (val_main_v71 (F := F) x0) := rfl
theorem val_main_v91_stage (x0 : (⟨S16x1x512x512, .f32⟩ : BufTy).Contents (Elt F)) :
    val_main_v91 (F := F) x0 = addf (val_main_v76 (F := F) x0) (ridgeR (val_main_v71 (F := F) x0)) := rfl
theorem val_main_v96_stage (x0 : (⟨S16x1x512x512, .f32⟩ : BufTy).Contents (Elt F)) :
    val_main_v96 (F := F) x0 = erodeR (val_main_v71 (F := F) x0) := rfl
theorem val_main_v101_stage (x0 : (⟨S16x1x512x512, .f32⟩ : BufTy).Contents (Elt F)) :
    val_main_v101 (F := F) x0 = erodeR (val_main_v86 (F := F) x0) := rfl
theorem val_main_v106_stage (x0 : (⟨S16x1x512x512, .f32⟩ : BufTy).Contents (Elt F)) :
    val_main_v106 (F := F) x0 = addf (val_main_v91 (F := F) x0) (ridgeR (val_main_v86 (F := F) x0)) := rfl
theorem val_main_v111_stage (x0 : (⟨S16x1x512x512, .f32⟩ : BufTy).Contents (Elt F)) :
    val_main_v111 (F := F) x0 = erodeR (val_main_v86 (F := F) x0) := rfl
theorem val_main_v116_stage (x0 : (⟨S16x1x512x512, .f32⟩ : BufTy).Contents (Elt F)) :
    val_main_v116 (F := F) x0 = erodeR (val_main_v101 (F := F) x0) := rfl
theorem val_main_v121_stage (x0 : (⟨S16x1x512x512, .f32⟩ : BufTy).Contents (Elt F)) :
    val_main_v121 (F := F) x0 = addf (val_main_v106 (F := F) x0) (ridgeR (val_main_v101 (F := F) x0)) := rfl
theorem val_main_v126_stage (x0 : (⟨S16x1x512x512, .f32⟩ : BufTy).Contents (Elt F)) :
    val_main_v126 (F := F) x0 = erodeR (val_main_v101 (F := F) x0) := rfl
theorem val_main_v131_stage (x0 : (⟨S16x1x512x512, .f32⟩ : BufTy).Contents (Elt F)) :
    val_main_v131 (F := F) x0 = erodeR (val_main_v116 (F := F) x0) := rfl
theorem val_main_v136_stage (x0 : (⟨S16x1x512x512, .f32⟩ : BufTy).Contents (Elt F)) :
    val_main_v136 (F := F) x0 = addf (val_main_v121 (F := F) x0) (ridgeR (val_main_v116 (F := F) x0)) := rfl
theorem val_main_v141_stage (x0 : (⟨S16x1x512x512, .f32⟩ : BufTy).Contents (Elt F)) :
    val_main_v141 (F := F) x0 = erodeR (val_main_v116 (F := F) x0) := rfl
theorem val_main_v146_stage (x0 : (⟨S16x1x512x512, .f32⟩ : BufTy).Contents (Elt F)) :
    val_main_v146 (F := F) x0 = erodeR (val_main_v131 (F := F) x0) := rfl
theorem val_main_v151_stage (x0 : (⟨S16x1x512x512, .f32⟩ : BufTy).Contents (Elt F)) :
    val_main_v151 (F := F) x0 = addf (val_main_v136 (F := F) x0) (ridgeR (val_main_v131 (F := F) x0)) := rfl
theorem val_main_v156_stage (x0 : (⟨S16x1x512x512, .f32⟩ : BufTy).Contents (Elt F)) :
    val_main_v156 (F := F) x0 = erodeR (val_main_v131 (F := F) x0) := rfl
theorem val_main_v162_stage (x1 : (⟨S16x1x512x512, .f32⟩ : BufTy).Contents (Elt F)) :
    val_main_v162 (F := F) x1 = erodeR x1 := rfl
theorem val_main_v167_stage (x1 : (⟨S16x1x512x512, .f32⟩ : BufTy).Contents (Elt F)) :
    val_main_v167 (F := F) x1 = addf (zeroR (F := F)) (ridgeR x1) := rfl
theorem val_main_v172_stage (x1 : (⟨S16x1x512x512, .f32⟩ : BufTy).Contents (Elt F)) :
    val_main_v172 (F := F) x1 = erodeR x1 := rfl
theorem val_main_v177_stage (x1 : (⟨S16x1x512x512, .f32⟩ : BufTy).Contents (Elt F)) :
    val_main_v177 (F := F) x1 = erodeR (val_main_v162 (F := F) x1) := rfl
theorem val_main_v182_stage (x1 : (⟨S16x1x512x512, .f32⟩ : BufTy).Contents (Elt F)) :
    val_main_v182 (F := F) x1 = addf (val_main_v167 (F := F) x1) (ridgeR (val_main_v162 (F := F) x1)) := rfl
theorem val_main_v187_stage (x1 : (⟨S16x1x512x512, .f32⟩ : BufTy).Contents (Elt F)) :
    val_main_v187 (F := F) x1 = erodeR (val_main_v162 (F := F) x1) := rfl
theorem val_main_v192_stage (x1 : (⟨S16x1x512x512, .f32⟩ : BufTy).Contents (Elt F)) :
    val_main_v192 (F := F) x1 = erodeR (val_main_v177 (F := F) x1) := rfl
theorem val_main_v197_stage (x1 : (⟨S16x1x512x512, .f32⟩ : BufTy).Contents (Elt F)) :
    val_main_v197 (F := F) x1 = addf (val_main_v182 (F := F) x1) (ridgeR (val_main_v177 (F := F) x1)) := rfl
theorem val_main_v202_stage (x1 : (⟨S16x1x512x512, .f32⟩ : BufTy).Contents (Elt F)) :
    val_main_v202 (F := F) x1 = erodeR (val_main_v177 (F := F) x1) := rfl
theorem val_main_v207_stage (x1 : (⟨S16x1x512x512, .f32⟩ : BufTy).Contents (Elt F)) :
    val_main_v207 (F := F) x1 = erodeR (val_main_v192 (F := F) x1) := rfl
theorem val_main_v212_stage (x1 : (⟨S16x1x512x512, .f32⟩ : BufTy).Contents (Elt F)) :
    val_main_v212 (F := F) x1 = addf (val_main_v197 (F := F) x1) (ridgeR (val_main_v192 (F := F) x1)) := rfl
theorem val_main_v217_stage (x1 : (⟨S16x1x512x512, .f32⟩ : BufTy).Contents (Elt F)) :
    val_main_v217 (F := F) x1 = erodeR (val_main_v192 (F := F) x1) := rfl
theorem val_main_v222_stage (x1 : (⟨S16x1x512x512, .f32⟩ : BufTy).Contents (Elt F)) :
    val_main_v222 (F := F) x1 = erodeR (val_main_v207 (F := F) x1) := rfl
theorem val_main_v227_stage (x1 : (⟨S16x1x512x512, .f32⟩ : BufTy).Contents (Elt F)) :
    val_main_v227 (F := F) x1 = addf (val_main_v212 (F := F) x1) (ridgeR (val_main_v207 (F := F) x1)) := rfl
theorem val_main_v232_stage (x1 : (⟨S16x1x512x512, .f32⟩ : BufTy).Contents (Elt F)) :
    val_main_v232 (F := F) x1 = erodeR (val_main_v207 (F := F) x1) := rfl
theorem val_main_v237_stage (x1 : (⟨S16x1x512x512, .f32⟩ : BufTy).Contents (Elt F)) :
    val_main_v237 (F := F) x1 = erodeR (val_main_v222 (F := F) x1) := rfl
theorem val_main_v242_stage (x1 : (⟨S16x1x512x512, .f32⟩ : BufTy).Contents (Elt F)) :
    val_main_v242 (F := F) x1 = addf (val_main_v227 (F := F) x1) (ridgeR (val_main_v222 (F := F) x1)) := rfl
theorem val_main_v247_stage (x1 : (⟨S16x1x512x512, .f32⟩ : BufTy).Contents (Elt F)) :
    val_main_v247 (F := F) x1 = erodeR (val_main_v222 (F := F) x1) := rfl
theorem val_main_v252_stage (x1 : (⟨S16x1x512x512, .f32⟩ : BufTy).Contents (Elt F)) :
    val_main_v252 (F := F) x1 = erodeR (val_main_v237 (F := F) x1) := rfl
theorem val_main_v257_stage (x1 : (⟨S16x1x512x512, .f32⟩ : BufTy).Contents (Elt F)) :
    val_main_v257 (F := F) x1 = addf (val_main_v242 (F := F) x1) (ridgeR (val_main_v237 (F := F) x1)) := rfl
theorem val_main_v262_stage (x1 : (⟨S16x1x512x512, .f32⟩ : BufTy).Contents (Elt F)) :
    val_main_v262 (F := F) x1 = erodeR (val_main_v237 (F := F) x1) := rfl
theorem val_main_v267_stage (x1 : (⟨S16x1x512x512, .f32⟩ : BufTy).Contents (Elt F)) :
    val_main_v267 (F := F) x1 = erodeR (val_main_v252 (F := F) x1) := rfl
theorem val_main_v272_stage (x1 : (⟨S16x1x512x512, .f32⟩ : BufTy).Contents (Elt F)) :
    val_main_v272 (F := F) x1 = addf (val_main_v257 (F := F) x1) (ridgeR (val_main_v252 (F := F) x1)) := rfl
theorem val_main_v277_stage (x1 : (⟨S16x1x512x512, .f32⟩ : BufTy).Contents (Elt F)) :
    val_main_v277 (F := F) x1 = erodeR (val_main_v252 (F := F) x1) := rfl
theorem val_main_v282_stage (x1 : (⟨S16x1x512x512, .f32⟩ : BufTy).Contents (Elt F)) :
    val_main_v282 (F := F) x1 = erodeR (val_main_v267 (F := F) x1) := rfl
theorem val_main_v287_stage (x1 : (⟨S16x1x512x512, .f32⟩ : BufTy).Contents (Elt F)) :
    val_main_v287 (F := F) x1 = addf (val_main_v272 (F := F) x1) (ridgeR (val_main_v267 (F := F) x1)) := rfl
theorem val_main_v292_stage (x1 : (⟨S16x1x512x512, .f32⟩ : BufTy).Contents (Elt F)) :
    val_main_v292 (F := F) x1 = erodeR (val_main_v267 (F := F) x1) := rfl
theorem val_main_v297_stage (x1 : (⟨S16x1x512x512, .f32⟩ : BufTy).Contents (Elt F)) :
    val_main_v297 (F := F) x1 = erodeR (val_main_v282 (F := F) x1) := rfl
theorem val_main_v302_stage (x1 : (⟨S16x1x512x512, .f32⟩ : BufTy).Contents (Elt F)) :
    val_main_v302 (F := F) x1 = addf (val_main_v287 (F := F) x1) (ridgeR (val_main_v282 (F := F) x1)) := rfl
theorem val_main_v307_stage (x1 : (⟨S16x1x512x512, .f32⟩ : BufTy).Contents (Elt F)) :
    val_main_v307 (F := F) x1 = erodeR (val_main_v282 (F := F) x1) := rfl

/-- The prediction branch: ten steps from the logistic of the first argument. -/
theorem skel_pred (x0 : (⟨S16x1x512x512, .f32⟩ : BufTy).Contents (Elt F)) :
    val_main_v151 (F := F) x0 = skelR (val_main_v5 (F := F) x0) := by
  simp only [val_main_v11_stage, val_main_v16_stage, val_main_v21_stage, val_main_v26_stage, val_main_v31_stage, val_main_v36_stage, val_main_v41_stage, val_main_v46_stage, val_main_v51_stage, val_main_v56_stage, val_main_v61_stage, val_main_v66_stage, val_main_v71_stage, val_main_v76_stage, val_main_v81_stage, val_main_v86_stage, val_main_v91_stage, val_main_v96_stage, val_main_v101_stage, val_main_v106_stage, val_main_v111_stage, val_main_v116_stage, val_main_v121_stage, val_main_v126_stage, val_main_v131_stage, val_main_v136_stage, val_main_v141_stage, val_main_v146_stage, val_main_v151_stage, val_main_v156_stage, val_main_v162_stage, val_main_v167_stage, val_main_v172_stage, val_main_v177_stage, val_main_v182_stage, val_main_v187_stage, val_main_v192_stage, val_main_v197_stage, val_main_v202_stage, val_main_v207_stage, val_main_v212_stage, val_main_v217_stage, val_main_v222_stage, val_main_v227_stage, val_main_v232_stage, val_main_v237_stage, val_main_v242_stage, val_main_v247_stage, val_main_v252_stage, val_main_v257_stage, val_main_v262_stage, val_main_v267_stage, val_main_v272_stage, val_main_v277_stage, val_main_v282_stage, val_main_v287_stage, val_main_v292_stage, val_main_v297_stage, val_main_v302_stage, val_main_v307_stage]
  rfl

/-- The target branch: ten steps from the second argument. -/
theorem skel_targ (x1 : (⟨S16x1x512x512, .f32⟩ : BufTy).Contents (Elt F)) :
    val_main_v302 (F := F) x1 = skelR x1 := by
  simp only [val_main_v11_stage, val_main_v16_stage, val_main_v21_stage, val_main_v26_stage, val_main_v31_stage, val_main_v36_stage, val_main_v41_stage, val_main_v46_stage, val_main_v51_stage, val_main_v56_stage, val_main_v61_stage, val_main_v66_stage, val_main_v71_stage, val_main_v76_stage, val_main_v81_stage, val_main_v86_stage, val_main_v91_stage, val_main_v96_stage, val_main_v101_stage, val_main_v106_stage, val_main_v111_stage, val_main_v116_stage, val_main_v121_stage, val_main_v126_stage, val_main_v131_stage, val_main_v136_stage, val_main_v141_stage, val_main_v146_stage, val_main_v151_stage, val_main_v156_stage, val_main_v162_stage, val_main_v167_stage, val_main_v172_stage, val_main_v177_stage, val_main_v182_stage, val_main_v187_stage, val_main_v192_stage, val_main_v197_stage, val_main_v202_stage, val_main_v207_stage, val_main_v212_stage, val_main_v217_stage, val_main_v222_stage, val_main_v227_stage, val_main_v232_stage, val_main_v237_stage, val_main_v242_stage, val_main_v247_stage, val_main_v252_stage, val_main_v257_stage, val_main_v262_stage, val_main_v267_stage, val_main_v272_stage, val_main_v277_stage, val_main_v282_stage, val_main_v287_stage, val_main_v292_stage, val_main_v297_stage, val_main_v302_stage, val_main_v307_stage]
  rfl

/-- The result: the loss of the four sums. -/
theorem result_stage (x0 x1 : (⟨S16x1x512x512, .f32⟩ : BufTy).Contents (Elt F)) :
    val_main_v323 (F := F) x0 x1
      = combine (sumR (mulf (val_main_v5 (F := F) x0) (val_main_v302 (F := F) x1))) (sumR (val_main_v302 (F := F) x1))
          (sumR (mulf x1 (val_main_v151 (F := F) x0))) (sumR (val_main_v151 (F := F) x0)) := rfl

end Cert.ReferenceIdeal.Stages

end
-- ==== Proof.RefResult.lean ====
/-
  The batched program's result on the extended reals: the loss of the four batched sums, with the prediction the
  logistic of the first argument.  The program spells the logistic 1 / (1 + exp (-x)), which is the logistic's
  definition on the extended reals (the binary32 word 0x3F800000 is the number one).
-/
import proofs.«131082_j25872882991527_1_alg».proof.Proof.RefStages
import Idealize.ShloMosaic.Lib.IdealHost

noncomputable section

namespace Cert.ReferenceIdeal.Stages

open Idealize.ShloMosaic Cert.ReferenceIdeal Cert.ReferenceIdeal.ReadP ClDice

/-- The stage 1 / (1 + exp (-x)) is the logistic. -/
theorem sigmoid_eq (x0 : FVec Ideal Batch .f32) : val_main_v5 (F := Ideal) x0 = logistic x0 := by
  funext i
  rw [val_main_v5_apply, val_main_v4_apply, val_main_cst_0_apply, val_main_v3_apply, val_main_v2_apply, val_main_cst_apply,
    val_main_v1_apply, val_main_v0_apply]
  show Ideal.div (Ideal.ofBits .f32 0x3F800000#32) (Ideal.ofBits .f32 0x3F800000#32 + Ideal.exp (-(x0 i))) = Ideal.logistic (x0 i)
  rw [Ideal.ofBits_one_f32]
  rfl

/-- The batched program's result. -/
theorem ref_result (x0 x1 : FVec Ideal Batch .f32) :
    val_main_v323 (F := Ideal) x0 x1
      = combine (F := Ideal) (sumR (mulf (logistic x0) (skelR (F := Ideal) x1))) (sumR (skelR (F := Ideal) x1))
          (sumR (mulf x1 (skelR (F := Ideal) (logistic x0)))) (sumR (skelR (F := Ideal) (logistic x0))) := by
  rw [result_stage, skel_pred, skel_targ, sigmoid_eq]

end Cert.ReferenceIdeal.Stages

end
-- ==== Proof.RefWindows.lean ====
/-
  The batched window operations, read entry by entry on the extended reals.

  A window reduction folds a binary operation, from the neutral element, over the window's positions in row-major
  order; position n of the window at index j reads the array at j + n - lo when that lies inside the array and the
  neutral element otherwise.  For the images of a batch [16, 1, 512, 512]:

  * the 3 x 1 window padded by one row on each side reads the entries above, at and below (r, c), so the fold of
    the minimum from +infinity is  min (min up mid) down;
  * the 1 x 3 window padded by one column on each side reads the entries left of, at and right of (r, c);
  * the 3 x 3 window padded by one line on every side reads the nine neighbours row by row; the nine-fold maximum
    from -infinity regroups (the maximum is associative, -infinity its neutral element) as the maximum over the three
    rows of each row's three-entry maximum, a row outside the image contributing -infinity.

  Hence the batched erosion and dilation at (b, 0, r, c) are the erosion and dilation of image b at (r, c).
-/
import Idealize.ShloMosaic.PureOps.Ideal
import Idealize.ShloMosaic.Lib.ValueIdx
import Idealize.ShloMosaic.Lib.Pipeline.Value
import proofs.«131082_j25872882991527_1_alg».proof.Proof.Spec

noncomputable section

namespace ClDice

open Idealize.ShloMosaic Idealize.ShloMosaic.ValueIdx

/-! ## The neutral elements, and a fold over three or nine positions -/

/-- The binary32 word 0x7F800000 denotes +infinity. -/
theorem pinfR_apply (i : Sc.Idx) : pinfR (F := Ideal) i = ⊤ := by
  show Ideal.ofBits .f32 0x7F800000#32 = ⊤
  simp [Ideal.ofBits, Ideal.ieee]

/-- The binary32 word 0xFF800000 denotes -infinity. -/
theorem ninfR_apply (i : Sc.Idx) : ninfR (F := Ideal) i = ⊥ := by
  show Ideal.ofBits .f32 0xFF800000#32 = ⊥
  simp [Ideal.ofBits, Ideal.ieee]

/-- A fold over the positions below m is the fold over the positions below n when m = n. -/
theorem foldl_finRange_cast {β : Type} {m n : Nat} (h : m = n) (g : β → Fin m → β) (v : β) :
    (List.finRange m).foldl g v = (List.finRange n).foldl (fun r k => g r (k.cast h.symm)) v := by
  subst h; rfl

/-- A left fold over three positions, written out. -/
theorem foldl_finRange_three {β : Type} (g : β → Fin 3 → β) (v : β) :
    (List.finRange 3).foldl g v = g (g (g v 0) 1) 2 := by
  simp [List.finRange_succ, List.foldl]

/-! ## The windows' positions -/

theorem numel_3x1 : (⟨4, ![1, 1, 3, 1]⟩ : Shape).numel = 3 := by decide
theorem numel_1x3 : (⟨4, ![1, 1, 1, 3]⟩ : Shape).numel = 3 := by decide
theorem numel_3x3 : (⟨4, ![1, 1, 3, 3]⟩ : Shape).numel = 9 := by decide

/-- Position n of the 3 x 1 window is (0, 0, n, 0). -/
theorem pos_3x1 : ∀ n : Fin 3, ∀ a : Fin 4,
    (((⟨4, ![1, 1, 3, 1]⟩ : Shape).rowMajor.symm (n.cast numel_3x1.symm)) a).val = (![0, 0, n.val, 0] : Fin 4 → Nat) a := by
  decide

/-- Position n of the 1 x 3 window is (0, 0, 0, n). -/
theorem pos_1x3 : ∀ n : Fin 3, ∀ a : Fin 4,
    (((⟨4, ![1, 1, 1, 3]⟩ : Shape).rowMajor.symm (n.cast numel_1x3.symm)) a).val = (![0, 0, 0, n.val] : Fin 4 → Nat) a := by
  decide

/-- Position n of the 3 x 3 window is (0, 0, n / 3, n % 3). -/
theorem pos_3x3 : ∀ n : Fin 9, ∀ a : Fin 4,
    (((⟨4, ![1, 1, 3, 3]⟩ : Shape).rowMajor.symm (n.cast numel_3x3.symm)) a).val = (![0, 0, n.val / 3, n.val % 3] : Fin 4 → Nat) a := by
  decide

/-- A left fold over nine positions, written out. -/
theorem foldl_finRange_nine {β : Type} (g : β → Fin 9 → β) (v : β) :
    (List.finRange 9).foldl g v = g (g (g (g (g (g (g (g (g v 0) 1) 2) 3) 4) 5) 6) 7) 8 := by
  simp [List.finRange_succ, List.foldl]

/-- One window position: the array read at p - lo when every coordinate is in range, else the fill. -/
def tap {α : Type} (x : Batch.Idx → α) (v : α) (lo p : Fin 4 → Nat) : α :=
  if hin : ∀ a, lo a ≤ p a ∧ p a - lo a < Batch.size a then x (fun a => ⟨p a - lo a, (hin a).2⟩) else v

/-- A position whose coordinates are those of an index i shifted by lo reads the array at i. -/
theorem tap_in {α : Type} (x : Batch.Idx → α) (v : α) (lo p : Fin 4 → Nat) (i : Batch.Idx)
    (h : ∀ a, p a = (i a).val + lo a) : tap x v lo p = x i := by
  unfold tap
  have hin : ∀ a, lo a ≤ p a ∧ p a - lo a < Batch.size a := fun a => by
    have := (i a).isLt; rw [h a]; constructor <;> omega
  rw [dif_pos hin]
  congr 1; funext a; apply Fin.ext; simp [h a]

/-- A position with one coordinate out of range reads the fill. -/
theorem tap_out {α : Type} (x : Batch.Idx → α) (v : α) (lo p : Fin 4 → Nat) (a : Fin 4)
    (h : p a < lo a ∨ Batch.size a ≤ p a - lo a) : tap x v lo p = v := by
  unfold tap
  rw [dif_neg]; intro hin; have := hin a; omega

/-- The coordinates of window position n of the window at j, strides one. -/
def winPos (window : Fin 4 → Nat) {k : Nat} (hn : (⟨4, window⟩ : Shape).numel = k) (j : Batch.Idx) (n : Fin k) :
    Fin 4 → Nat :=
  fun a => (j a).val * (![1, 1, 1, 1] : Fin 4 → Nat) a + ((⟨4, window⟩ : Shape).rowMajor.symm (n.cast hn.symm) a).val

/-- A window reduction with three positions and strides one is the three-step fold of its reads. -/
theorem reduceWindow_three {α : Type} (f : α → α → α) (window lo hi : Fin 4 → Nat) (x : Batch.Idx → α)
    (init : Sc.Idx → α) (h : Batch.ReduceWindows window ![1, 1, 1, 1] lo hi Batch) (hu : 0 < Sc.numel)
    (hn : (⟨4, window⟩ : Shape).numel = 3) (j : Batch.Idx) :
    Host.reduceWindow f window ![1, 1, 1, 1] lo hi x init h hu j =
      f (f (f (init (Shape.Idx.first hu)) (tap x (init (Shape.Idx.first hu)) lo (winPos window hn j 0)))
        (tap x (init (Shape.Idx.first hu)) lo (winPos window hn j 1)))
        (tap x (init (Shape.Idx.first hu)) lo (winPos window hn j 2)) := by
  unfold Host.reduceWindow
  simp only []
  rw [foldl_finRange_cast hn, foldl_finRange_three]
  rfl

/-- The 3 x 1 window at (b, 0, r, c): position n has coordinates (b, 0, r + n, c). -/
theorem winPos_3x1 (b : Fin 16) (r c : Fin 512) (n : Fin 3) (a : Fin 4) :
    winPos ![1, 1, 3, 1] numel_3x1 (ix4 b (0 : Fin 1) r c) n a = (![b.val, 0, r.val + n.val, c.val] : Fin 4 → Nat) a := by
  unfold winPos
  rw [pos_3x1]; fin_cases a <;> simp

/-- The 1 x 3 window at (b, 0, r, c): position n has coordinates (b, 0, r, c + n). -/
theorem winPos_1x3 (b : Fin 16) (r c : Fin 512) (n : Fin 3) (a : Fin 4) :
    winPos ![1, 1, 1, 3] numel_1x3 (ix4 b (0 : Fin 1) r c) n a = (![b.val, 0, r.val, c.val + n.val] : Fin 4 → Nat) a := by
  unfold winPos
  rw [pos_1x3]; fin_cases a <;> simp

/-- The 3 x 3 window at (b, 0, r, c): position n has coordinates (b, 0, r + n / 3, c + n % 3). -/
theorem winPos_3x3 (b : Fin 16) (r c : Fin 512) (n : Fin 9) (a : Fin 4) :
    winPos ![1, 1, 3, 3] numel_3x3 (ix4 b (0 : Fin 1) r c) n a
      = (![b.val, 0, r.val + n.val / 3, c.val + n.val % 3] : Fin 4 → Nat) a := by
  unfold winPos
  rw [pos_3x3]; fin_cases a <;> simp

/-- A window reduction with nine positions and strides one is the nine-step fold of its reads. -/
theorem reduceWindow_nine {α : Type} (f : α → α → α) (window lo hi : Fin 4 → Nat) (x : Batch.Idx → α)
    (init : Sc.Idx → α) (h : Batch.ReduceWindows window ![1, 1, 1, 1] lo hi Batch) (hu : 0 < Sc.numel)
    (hn : (⟨4, window⟩ : Shape).numel = 9) (j : Batch.Idx) :
    Host.reduceWindow f window ![1, 1, 1, 1] lo hi x init h hu j =
      f (f (f (f (f (f (f (f (f (init (Shape.Idx.first hu))
        (tap x (init (Shape.Idx.first hu)) lo (winPos window hn j 0)))
        (tap x (init (Shape.Idx.first hu)) lo (winPos window hn j 1)))
        (tap x (init (Shape.Idx.first hu)) lo (winPos window hn j 2)))
        (tap x (init (Shape.Idx.first hu)) lo (winPos window hn j 3)))
        (tap x (init (Shape.Idx.first hu)) lo (winPos window hn j 4)))
        (tap x (init (Shape.Idx.first hu)) lo (winPos window hn j 5)))
        (tap x (init (Shape.Idx.first hu)) lo (winPos window hn j 6)))
        (tap x (init (Shape.Idx.first hu)) lo (winPos window hn j 7)))
        (tap x (init (Shape.Idx.first hu)) lo (winPos window hn j 8)) := by
  unfold Host.reduceWindow
  simp only []
  rw [foldl_finRange_cast hn, foldl_finRange_nine]
  rfl

/-- The entry of image b at (kr - lr, kc - lc) when both are in range, else the fill. -/
def rdAt {α : Type} (X : Batch.Idx → α) (v : α) (b : Fin 16) (lr lc kr kc : Nat) : α :=
  if h : (lr ≤ kr ∧ kr - lr < 512) ∧ (lc ≤ kc ∧ kc - lc < 512) then
    X (ix4 b (0 : Fin 1) (⟨kr - lr, h.1.2⟩ : Fin 512) (⟨kc - lc, h.2.2⟩ : Fin 512)) else v

/-- In range, the read is the entry. -/
theorem rdAt_in {α : Type} (X : Batch.Idx → α) (v : α) (b : Fin 16) (lr lc kr kc : Nat) (r' c' : Fin 512)
    (hr : kr = r'.val + lr) (hc : kc = c'.val + lc) : rdAt X v b lr lc kr kc = X (ix4 b (0 : Fin 1) r' c') := by
  unfold rdAt
  have h : (lr ≤ kr ∧ kr - lr < 512) ∧ (lc ≤ kc ∧ kc - lc < 512) := by
    have := r'.isLt; have := c'.isLt; omega
  rw [dif_pos h]
  have e1 : (⟨kr - lr, h.1.2⟩ : Fin 512) = r' := Fin.ext (by simp [hr])
  have e2 : (⟨kc - lc, h.2.2⟩ : Fin 512) = c' := Fin.ext (by simp [hc])
  rw [e1, e2]

/-- Out of range on either axis, the read is the fill. -/
theorem rdAt_out {α : Type} (X : Batch.Idx → α) (v : α) (b : Fin 16) (lr lc kr kc : Nat)
    (h : (kr < lr ∨ 512 ≤ kr - lr) ∨ (kc < lc ∨ 512 ≤ kc - lc)) : rdAt X v b lr lc kr kc = v := by
  unfold rdAt
  rw [dif_neg]; intro h'; omega

/-- A window position with coordinates (b, 0, kr, kc) under padding (0, 0, lr, lc) reads image b at (kr - lr, kc - lc). -/
theorem tap_eq_rdAt {α : Type} (X : Batch.Idx → α) (v : α) (lo p : Fin 4 → Nat) (b : Fin 16) (lr lc kr kc : Nat)
    (hlo : ∀ a, lo a = (![0, 0, lr, lc] : Fin 4 → Nat) a) (hp : ∀ a, p a = (![b.val, 0, kr, kc] : Fin 4 → Nat) a) :
    tap X v lo p = rdAt X v b lr lc kr kc := by
  by_cases h : (lr ≤ kr ∧ kr - lr < 512) ∧ (lc ≤ kc ∧ kc - lc < 512)
  · rw [rdAt_in X v b lr lc kr kc ⟨kr - lr, h.1.2⟩ ⟨kc - lc, h.2.2⟩ (by simp; omega) (by simp; omega)]
    apply tap_in
    intro a; rw [hp, hlo]; fin_cases a <;> simp <;> omega
  · rw [rdAt_out X v b lr lc kr kc (by omega)]
    by_cases hr : lr ≤ kr ∧ kr - lr < 512
    · have hc : ¬(lc ≤ kc ∧ kc - lc < 512) := fun hc => h ⟨hr, hc⟩
      apply tap_out X v lo p 3
      rw [hp, hlo]; simp [Batch]; omega
    · apply tap_out X v lo p 2
      rw [hp, hlo]; simp [Batch]; omega

/-! The three row positions, the three column positions, and the nine positions of the square window
    as the neighbourhood reads. -/

/-- Row coordinate r under one line of padding: the entry above (r, c). -/
theorem rd_up {α : Type} (X : Batch.Idx → α) (v : α) (b : Fin 16) (r c : Fin 512) (lc kc : Nat) (hc : kc = c.val + lc) :
    rdAt X v b 1 lc r.val kc = upAt v (imgOf X b) r c := by
  unfold upAt
  by_cases h : 0 < r.val
  · rw [dif_pos h]; exact rdAt_in X v b 1 lc r.val kc ⟨r.val - 1, by omega⟩ c (by simp; omega) hc
  · rw [dif_neg h]; exact rdAt_out X v b 1 lc r.val kc (by omega)

/-- Coordinates (r + lr, c + lc): the entry at (r, c). -/
theorem rd_mid {α : Type} (X : Batch.Idx → α) (v : α) (b : Fin 16) (r c : Fin 512) (lr lc kr kc : Nat)
    (hr : kr = r.val + lr) (hc : kc = c.val + lc) :
    rdAt X v b lr lc kr kc = imgOf X b (ix2 r c) := rdAt_in X v b lr lc kr kc r c hr hc

/-- Row coordinate r + 2 under one line of padding: the entry below (r, c). -/
theorem rd_down {α : Type} (X : Batch.Idx → α) (v : α) (b : Fin 16) (r c : Fin 512) (lc kc : Nat) (hc : kc = c.val + lc) :
    rdAt X v b 1 lc (r.val + 2) kc = downAt v (imgOf X b) r c := by
  unfold downAt
  by_cases h : r.val + 1 < 512
  · rw [dif_pos h]; exact rdAt_in X v b 1 lc (r.val + 2) kc ⟨r.val + 1, h⟩ c (by simp) hc
  · rw [dif_neg h]; exact rdAt_out X v b 1 lc (r.val + 2) kc (by omega)

/-- Column coordinate c under one line of padding: the entry left of (r, c). -/
theorem rd_left {α : Type} (X : Batch.Idx → α) (v : α) (b : Fin 16) (r c : Fin 512) (lr kr : Nat) (hr : kr = r.val + lr) :
    rdAt X v b lr 1 kr c.val = leftAt v (imgOf X b) r c := by
  unfold leftAt
  by_cases h : 0 < c.val
  · rw [dif_pos h]; exact rdAt_in X v b lr 1 kr c.val r ⟨c.val - 1, by omega⟩ hr (by simp; omega)
  · rw [dif_neg h]; exact rdAt_out X v b lr 1 kr c.val (by omega)

/-- Column coordinate c + 2 under one line of padding: the entry right of (r, c). -/
theorem rd_right {α : Type} (X : Batch.Idx → α) (v : α) (b : Fin 16) (r c : Fin 512) (lr kr : Nat) (hr : kr = r.val + lr) :
    rdAt X v b lr 1 kr (c.val + 2) = rightAt v (imgOf X b) r c := by
  unfold rightAt
  by_cases h : c.val + 1 < 512
  · rw [dif_pos h]; exact rdAt_in X v b lr 1 kr (c.val + 2) r ⟨c.val + 1, h⟩ hr (by simp)
  · rw [dif_neg h]; exact rdAt_out X v b lr 1 kr (c.val + 2) (by omega)

/-! ## The 3 x 1 and 1 x 3 windows, and erosion -/

/-- The 3 x 1 window minimum at (b, 0, r, c): the minimum of the entries above, at and below (r, c). -/
theorem minRowsR_apply (X : FVec Ideal Batch .f32) (b : Fin 16) (r c : Fin 512) :
    minRowsR (F := Ideal) X (ix4 b (0 : Fin 1) r c)
      = min (min (upAt ⊤ (imgOf X b) r c) (imgOf X b (ix2 r c))) (downAt ⊤ (imgOf X b) r c) := by
  unfold minRowsR
  rw [reduceWindow_three _ _ _ _ _ _ _ _ numel_3x1]
  simp only [pinfR_apply]
  rw [tap_eq_rdAt X ⊤ ![0, 0, 1, 0] _ b 1 0 r.val c.val (fun _ => rfl) (winPos_3x1 b r c 0),
    tap_eq_rdAt X ⊤ ![0, 0, 1, 0] _ b 1 0 (r.val + 1) c.val (fun _ => rfl) (winPos_3x1 b r c 1),
    tap_eq_rdAt X ⊤ ![0, 0, 1, 0] _ b 1 0 (r.val + 2) c.val (fun _ => rfl) (winPos_3x1 b r c 2)]
  rw [rd_up X ⊤ b r c 0 c.val rfl, rd_mid X ⊤ b r c 1 0 (r.val + 1) c.val rfl rfl, rd_down X ⊤ b r c 0 c.val rfl]
  simp only [Ideal.minimumf_def, min_top_left]

/-- The 1 x 3 window minimum at (b, 0, r, c): the minimum of the entries left of, at and right of (r, c). -/
theorem minColsR_apply (X : FVec Ideal Batch .f32) (b : Fin 16) (r c : Fin 512) :
    minColsR (F := Ideal) X (ix4 b (0 : Fin 1) r c)
      = min (min (leftAt ⊤ (imgOf X b) r c) (imgOf X b (ix2 r c))) (rightAt ⊤ (imgOf X b) r c) := by
  unfold minColsR
  rw [reduceWindow_three _ _ _ _ _ _ _ _ numel_1x3]
  simp only [pinfR_apply]
  rw [tap_eq_rdAt X ⊤ ![0, 0, 0, 1] _ b 0 1 r.val c.val (fun _ => rfl) (winPos_1x3 b r c 0),
    tap_eq_rdAt X ⊤ ![0, 0, 0, 1] _ b 0 1 r.val (c.val + 1) (fun _ => rfl) (winPos_1x3 b r c 1),
    tap_eq_rdAt X ⊤ ![0, 0, 0, 1] _ b 0 1 r.val (c.val + 2) (fun _ => rfl) (winPos_1x3 b r c 2)]
  rw [rd_left X ⊤ b r c 0 r.val rfl, rd_mid X ⊤ b r c 0 1 r.val (c.val + 1) rfl rfl, rd_right X ⊤ b r c 0 r.val rfl]
  simp only [Ideal.minimumf_def, min_top_left]

/-- The batched erosion at (b, 0, r, c) is the erosion of image b at (r, c). -/
theorem erodeR_apply (X : FVec Ideal Batch .f32) (b : Fin 16) (r c : Fin 512) :
    erodeR (F := Ideal) X (ix4 b (0 : Fin 1) r c) = erodeAt (imgOf X b) r c := by
  unfold erodeR erodeAt
  rw [minimumf_apply, minRowsR_apply, minColsR_apply]

/-! ## The 3 x 3 window, and dilation -/

/-- The three reads of one in-range row of the square window are that row's three-entry maximum. -/
theorem row_mid (X : FVec Ideal Batch .f32) (b : Fin 16) (r' c : Fin 512) (kr : Nat) (hr : kr = r'.val + 1) :
    max (max (rdAt X ⊥ b 1 1 kr c.val) (rdAt X ⊥ b 1 1 kr (c.val + 1))) (rdAt X ⊥ b 1 1 kr (c.val + 2))
      = maxColsAt (imgOf X b) r' c := by
  unfold maxColsAt
  rw [rd_left X ⊥ b r' c 1 kr hr, rd_mid X ⊥ b r' c 1 1 kr (c.val + 1) hr rfl, rd_right X ⊥ b r' c 1 kr hr]

/-- The three reads of an out-of-range row are all the fill. -/
theorem row_out (X : FVec Ideal Batch .f32) (b : Fin 16) (c : Fin 512) (kr : Nat) (hr : kr < 1 ∨ 512 ≤ kr - 1) :
    max (max (rdAt X ⊥ b 1 1 kr c.val) (rdAt X ⊥ b 1 1 kr (c.val + 1))) (rdAt X ⊥ b 1 1 kr (c.val + 2)) = ⊥ := by
  rw [rdAt_out X ⊥ b 1 1 kr c.val (Or.inl hr), rdAt_out X ⊥ b 1 1 kr (c.val + 1) (Or.inl hr),
    rdAt_out X ⊥ b 1 1 kr (c.val + 2) (Or.inl hr)]
  simp

/-- The window's first row is the row maximum above (r, c), or -infinity on the first row. -/
theorem row_up (X : FVec Ideal Batch .f32) (b : Fin 16) (r c : Fin 512) :
    max (max (rdAt X ⊥ b 1 1 r.val c.val) (rdAt X ⊥ b 1 1 r.val (c.val + 1))) (rdAt X ⊥ b 1 1 r.val (c.val + 2))
      = upAt ⊥ (fun j => maxColsAt (imgOf X b) (j 0) (j 1)) r c := by
  unfold upAt
  by_cases h : 0 < r.val
  · rw [dif_pos h]
    exact row_mid X b ⟨r.val - 1, by omega⟩ c r.val (by show r.val = r.val - 1 + 1; omega)
  · rw [dif_neg h]
    exact row_out X b c r.val (by omega)

/-- The window's last row is the row maximum below (r, c), or -infinity on the last row. -/
theorem row_down (X : FVec Ideal Batch .f32) (b : Fin 16) (r c : Fin 512) :
    max (max (rdAt X ⊥ b 1 1 (r.val + 2) c.val) (rdAt X ⊥ b 1 1 (r.val + 2) (c.val + 1)))
        (rdAt X ⊥ b 1 1 (r.val + 2) (c.val + 2))
      = downAt ⊥ (fun j => maxColsAt (imgOf X b) (j 0) (j 1)) r c := by
  unfold downAt
  by_cases h : r.val + 1 < 512
  · rw [dif_pos h]
    exact row_mid X b ⟨r.val + 1, h⟩ c (r.val + 2) rfl
  · rw [dif_neg h]
    exact row_out X b c (r.val + 2) (by omega)

/-- A nine-fold maximum from the bottom element, regrouped by rows. -/
theorem max9_regroup (a0 a1 a2 b0 b1 b2 c0 c1 c2 : EReal) :
    max (max (max (max (max (max (max (max (max ⊥ a0) a1) a2) b0) b1) b2) c0) c1) c2
      = max (max (max (max a0 a1) a2) (max (max b0 b1) b2)) (max (max c0 c1) c2) := by
  rw [max_bot_left]
  simp only [max_assoc]

/-- The batched dilation at (b, 0, r, c) is the dilation of image b at (r, c). -/
theorem dilateR_apply (X : FVec Ideal Batch .f32) (b : Fin 16) (r c : Fin 512) :
    dilateR (F := Ideal) X (ix4 b (0 : Fin 1) r c) = dilateAt (imgOf X b) r c := by
  unfold dilateR
  rw [reduceWindow_nine _ _ _ _ _ _ _ _ numel_3x3]
  simp only [ninfR_apply]
  rw [tap_eq_rdAt X ⊥ ![0, 0, 1, 1] _ b 1 1 r.val c.val (fun _ => rfl) (winPos_3x3 b r c 0),
    tap_eq_rdAt X ⊥ ![0, 0, 1, 1] _ b 1 1 r.val (c.val + 1) (fun _ => rfl) (winPos_3x3 b r c 1),
    tap_eq_rdAt X ⊥ ![0, 0, 1, 1] _ b 1 1 r.val (c.val + 2) (fun _ => rfl) (winPos_3x3 b r c 2),
    tap_eq_rdAt X ⊥ ![0, 0, 1, 1] _ b 1 1 (r.val + 1) c.val (fun _ => rfl) (winPos_3x3 b r c 3),
    tap_eq_rdAt X ⊥ ![0, 0, 1, 1] _ b 1 1 (r.val + 1) (c.val + 1) (fun _ => rfl) (winPos_3x3 b r c 4),
    tap_eq_rdAt X ⊥ ![0, 0, 1, 1] _ b 1 1 (r.val + 1) (c.val + 2) (fun _ => rfl) (winPos_3x3 b r c 5),
    tap_eq_rdAt X ⊥ ![0, 0, 1, 1] _ b 1 1 (r.val + 2) c.val (fun _ => rfl) (winPos_3x3 b r c 6),
    tap_eq_rdAt X ⊥ ![0, 0, 1, 1] _ b 1 1 (r.val + 2) (c.val + 1) (fun _ => rfl) (winPos_3x3 b r c 7),
    tap_eq_rdAt X ⊥ ![0, 0, 1, 1] _ b 1 1 (r.val + 2) (c.val + 2) (fun _ => rfl) (winPos_3x3 b r c 8)]
  simp only [Ideal.maximumf_def]
  rw [max9_regroup, row_up, row_mid X b r c (r.val + 1) rfl, row_down]
  rfl

end ClDice

end
-- ==== Proof.ImgShifts.lean ====
/-
  The one-line shifts of a 512 x 512 image, and the erosion and dilation built from them, read entry by entry.

  Each shift is a two-piece concatenation along one axis: a single line holding the fill value, and the 511 lines of
  the image that remain after dropping its last (or first) line.  An entry of the result whose coordinate on the
  shifted axis falls in the one-line piece is the fill; any other entry is the image's entry one line over.  So

    prevRow fill x at (r, c) = x (r - 1, c) for 0 < r, and fill on row 0          (upAt),
    nextRow fill x at (r, c) = x (r + 1, c) for r + 1 < 512, and fill on row 511   (downAt),

  and likewise prevCol / nextCol along the columns (leftAt / rightAt).

  On the extended reals the entrywise minimum and maximum are min and max, the word 0x7F800000 denotes +infinity
  and the word 0xFF800000 denotes -infinity.  Hence the erosion at (r, c) is the minimum of the entry, its two
  column neighbours and its two row neighbours (+infinity outside the image), and the dilation at (r, c) is the
  maximum, over the three rows r - 1, r, r + 1, of the maximum of the three entries c - 1, c, c + 1 of that row
  (-infinity outside the image).
-/
import Idealize.ShloMosaic.Lib.ValueIdx
import Idealize.ShloMosaic.Lib.Pipeline.Value
import Idealize.ShloMosaic.PureOps.Ideal
import proofs.«131082_j25872882991527_1_alg».proof.Proof.Spec

namespace ClDice

open Idealize.ShloMosaic Idealize.ShloMosaic.ValueIdx

/-! ## The four shifts at an entry -/

section Shifts
variable {F : FTy → Type} [FloatOps F] (fill : F .f32) (x : FVec F Img .f32) (r c : Fin 512)

/-- Row r of the image shifted down by one row is row r - 1 of the image; row 0 is the fill. -/
theorem prevRow_apply : prevRow fill x (ix2 r c) = upAt fill x r c := by
  unfold prevRow upAt
  by_cases h : 0 < r.val
  · rw [dif_pos h]
    refine (concatenate_pair_apply_right (t := Img) (s₁ := Row1) (s₂ := Rows511) (0 : Fin 2) _ _ cat_rows_first
      (ix2 r c) rfl rfl (ix2 (⟨r.val - 1, by omega⟩ : Fin 511) c) (fun b hb => by
        match b with
        | ⟨0, _⟩ => exact absurd rfl hb
        | ⟨1, _⟩ => rfl) (by show r.val - 1 + 1 = r.val; omega)).trans ?_
    exact extractStridedSlice_apply _ x _ _ (ix2 (⟨r.val - 1, by omega⟩ : Fin 512) c) (fun a => by
      match a with
      | ⟨0, _⟩ => show r.val - 1 = 0 + (r.val - 1); omega
      | ⟨1, _⟩ => show c.val = 0 + c.val; omega)
  · rw [dif_neg h]
    exact concatenate_pair_apply_left (t := Img) (s₁ := Row1) (s₂ := Rows511) (0 : Fin 2) _ _ cat_rows_first
      (ix2 r c) rfl (ix2 (0 : Fin 1) c) (fun b => by
        match b with
        | ⟨0, _⟩ => show 0 = r.val; omega
        | ⟨1, _⟩ => rfl)

/-- Row r of the image shifted up by one row is row r + 1 of the image; row 511 is the fill. -/
theorem nextRow_apply : nextRow fill x (ix2 r c) = downAt fill x r c := by
  unfold nextRow downAt
  by_cases h : r.val + 1 < 512
  · rw [dif_pos h]
    refine (concatenate_pair_apply_left (t := Img) (s₁ := Rows511) (s₂ := Row1) (0 : Fin 2) _ _ cat_rows_last
      (ix2 r c) rfl (ix2 (⟨r.val, by omega⟩ : Fin 511) c) (fun b => by
        match b with
        | ⟨0, _⟩ => rfl
        | ⟨1, _⟩ => rfl)).trans ?_
    exact extractStridedSlice_apply _ x _ _ (ix2 (⟨r.val + 1, h⟩ : Fin 512) c) (fun a => by
      match a with
      | ⟨0, _⟩ => show r.val + 1 = 1 + r.val; omega
      | ⟨1, _⟩ => show c.val = 0 + c.val; omega)
  · rw [dif_neg h]
    exact concatenate_pair_apply_right (t := Img) (s₁ := Rows511) (s₂ := Row1) (0 : Fin 2) _ _ cat_rows_last
      (ix2 r c) rfl rfl (ix2 (0 : Fin 1) c) (fun b hb => by
        match b with
        | ⟨0, _⟩ => exact absurd rfl hb
        | ⟨1, _⟩ => rfl) (by show 0 + 511 = r.val; have := r.isLt; omega)

/-- Column c of the image shifted right by one column is column c - 1 of the image; column 0 is the fill. -/
theorem prevCol_apply : prevCol fill x (ix2 r c) = leftAt fill x r c := by
  unfold prevCol leftAt
  by_cases h : 0 < c.val
  · rw [dif_pos h]
    refine (concatenate_pair_apply_right (t := Img) (s₁ := Col1) (s₂ := Cols511) (1 : Fin 2) _ _ cat_cols_first
      (ix2 r c) rfl rfl (ix2 r (⟨c.val - 1, by omega⟩ : Fin 511)) (fun b hb => by
        match b with
        | ⟨0, _⟩ => rfl
        | ⟨1, _⟩ => exact absurd rfl hb) (by show c.val - 1 + 1 = c.val; omega)).trans ?_
    exact extractStridedSlice_apply _ x _ _ (ix2 r (⟨c.val - 1, by omega⟩ : Fin 512)) (fun a => by
      match a with
      | ⟨0, _⟩ => show r.val = 0 + r.val; omega
      | ⟨1, _⟩ => show c.val - 1 = 0 + (c.val - 1); omega)
  · rw [dif_neg h]
    exact concatenate_pair_apply_left (t := Img) (s₁ := Col1) (s₂ := Cols511) (1 : Fin 2) _ _ cat_cols_first
      (ix2 r c) rfl (ix2 r (0 : Fin 1)) (fun b => by
        match b with
        | ⟨0, _⟩ => rfl
        | ⟨1, _⟩ => show 0 = c.val; omega)

/-- Column c of the image shifted left by one column is column c + 1 of the image; column 511 is the fill. -/
theorem nextCol_apply : nextCol fill x (ix2 r c) = rightAt fill x r c := by
  unfold nextCol rightAt
  by_cases h : c.val + 1 < 512
  · rw [dif_pos h]
    refine (concatenate_pair_apply_left (t := Img) (s₁ := Cols511) (s₂ := Col1) (1 : Fin 2) _ _ cat_cols_last
      (ix2 r c) rfl (ix2 r (⟨c.val, by omega⟩ : Fin 511)) (fun b => by
        match b with
        | ⟨0, _⟩ => rfl
        | ⟨1, _⟩ => rfl)).trans ?_
    exact extractStridedSlice_apply _ x _ _ (ix2 r (⟨c.val + 1, h⟩ : Fin 512)) (fun a => by
      match a with
      | ⟨0, _⟩ => show r.val = 0 + r.val; omega
      | ⟨1, _⟩ => show c.val + 1 = 1 + c.val; omega)
  · rw [dif_neg h]
    exact concatenate_pair_apply_right (t := Img) (s₁ := Cols511) (s₂ := Col1) (1 : Fin 2) _ _ cat_cols_last
      (ix2 r c) rfl rfl (ix2 r (0 : Fin 1)) (fun b hb => by
        match b with
        | ⟨0, _⟩ => rfl
        | ⟨1, _⟩ => exact absurd rfl hb) (by show 0 + 511 = c.val; have := c.isLt; omega)

end Shifts

/-! ## On the extended reals: the two infinities, the line minima and maxima, erosion and dilation -/

section Ideal
variable (x : FVec Ideal Img .f32) (r c : Fin 512)

/-- The word 0x7F800000 denotes +infinity. -/
theorem pinf_ideal : (pinf : Ideal .f32) = (⊤ : EReal) := by
  show Ideal.ofBits .f32 0x7F800000#32 = ⊤
  simp [Ideal.ofBits, Ideal.ieee]

/-- The word 0xFF800000 denotes -infinity. -/
theorem ninf_ideal : (ninf : Ideal .f32) = (⊥ : EReal) := by
  show Ideal.ofBits .f32 0xFF800000#32 = ⊥
  simp [Ideal.ofBits, Ideal.ieee]

/-- The minimum over the column neighbourhood: the entry, the one above and the one below. -/
theorem minRows_apply :
    minRows (F := Ideal) x (ix2 r c) = min (min (upAt (⊤ : EReal) x r c) (x (ix2 r c))) (downAt (⊤ : EReal) x r c) := by
  show min (min (prevRow (F := Ideal) pinf x (ix2 r c)) (x (ix2 r c))) (nextRow (F := Ideal) pinf x (ix2 r c)) = _
  rw [prevRow_apply, nextRow_apply, pinf_ideal]

/-- The minimum over the row neighbourhood: the entry, the one to its left and the one to its right. -/
theorem minCols_apply :
    minCols (F := Ideal) x (ix2 r c) = min (min (leftAt (⊤ : EReal) x r c) (x (ix2 r c))) (rightAt (⊤ : EReal) x r c) := by
  show min (min (prevCol (F := Ideal) pinf x (ix2 r c)) (x (ix2 r c))) (nextCol (F := Ideal) pinf x (ix2 r c)) = _
  rw [prevCol_apply, nextCol_apply, pinf_ideal]

/-- The maximum over the column neighbourhood: the entry, the one above and the one below. -/
theorem maxRows_apply :
    maxRows (F := Ideal) x (ix2 r c) = max (max (upAt (⊥ : EReal) x r c) (x (ix2 r c))) (downAt (⊥ : EReal) x r c) := by
  show max (max (prevRow (F := Ideal) ninf x (ix2 r c)) (x (ix2 r c))) (nextRow (F := Ideal) ninf x (ix2 r c)) = _
  rw [prevRow_apply, nextRow_apply, ninf_ideal]

/-- The maximum over the row neighbourhood: the entry, the one to its left and the one to its right. -/
theorem maxCols_apply : maxCols (F := Ideal) x (ix2 r c) = maxColsAt x r c := by
  show max (max (prevCol (F := Ideal) ninf x (ix2 r c)) (x (ix2 r c))) (nextCol (F := Ideal) ninf x (ix2 r c)) = _
  rw [prevCol_apply, nextCol_apply, ninf_ideal]
  rfl

/-- The image of row maxima, as a function of the index. -/
theorem maxCols_eq : maxCols (F := Ideal) x = fun j => maxColsAt x (j 0) (j 1) := by
  funext j
  exact (congrArg (maxCols (F := Ideal) x) (eq_ix2 j)).trans (maxCols_apply x (j 0) (j 1))

/-- Erosion at (r, c) is the minimum over the plus-shaped neighbourhood, +infinity outside the image. -/
theorem erodeK_apply : erodeK (F := Ideal) x (ix2 r c) = erodeAt x r c := by
  show min (minRows (F := Ideal) x (ix2 r c)) (minCols (F := Ideal) x (ix2 r c)) = _
  rw [minRows_apply, minCols_apply]
  rfl

/-- Dilation at (r, c) is the maximum over the 3 x 3 neighbourhood, -infinity outside the image. -/
theorem dilateK_apply : dilateK (F := Ideal) x (ix2 r c) = dilateAt x r c := by
  unfold dilateK
  rw [maxCols_eq x, maxRows_apply]
  rfl

end Ideal

end ClDice
-- ==== Proof.Images.lean ====
/-
  The batched skeleton, image by image, is the per-image skeleton.

  Image b of an erosion (dilation) of a batch is the erosion (dilation) of image b: both read, entry by entry, the same
  neighbours of the same image (the entry-by-entry forms `erodeAt`, `dilateAt`).  Subtraction, maximum with zero and
  addition act entry by entry, so image b of one skeleton step is the step of image b, and so for ten steps.
-/
import proofs.«131082_j25872882991527_1_alg».proof.Proof.Spec
import proofs.«131082_j25872882991527_1_alg».proof.Proof.RefWindows
import proofs.«131082_j25872882991527_1_alg».proof.Proof.ImgShifts

noncomputable section

namespace ClDice

open Idealize.ShloMosaic ValueIdx

/-- Image b of the erosion of a batch is the erosion of image b. -/
theorem imgOf_erodeR (X : FVec Ideal Batch .f32) (b : Fin 16) :
    imgOf (erodeR (F := Ideal) X) b = erodeK (F := Ideal) (imgOf X b) := by
  funext j
  obtain ⟨r, c, rfl⟩ : ∃ (r c : Fin 512), j = ix2 r c := ⟨j 0, j 1, eq_ix2 j⟩
  rw [erodeK_apply]
  exact erodeR_apply X b r c

/-- Image b of the dilation of a batch is the dilation of image b. -/
theorem imgOf_dilateR (X : FVec Ideal Batch .f32) (b : Fin 16) :
    imgOf (dilateR (F := Ideal) X) b = dilateK (F := Ideal) (imgOf X b) := by
  funext j
  obtain ⟨r, c, rfl⟩ : ∃ (r c : Fin 512), j = ix2 r c := ⟨j 0, j 1, eq_ix2 j⟩
  rw [dilateK_apply]
  exact dilateR_apply X b r c

/-- Image b of the ridge of a batch is the ridge of image b. -/
theorem imgOf_ridgeR (X : FVec Ideal Batch .f32) (b : Fin 16) :
    imgOf (ridgeR (F := Ideal) X) b = ridgeK (F := Ideal) (imgOf X b) := by
  have h : imgOf (dilateR (F := Ideal) (erodeR (F := Ideal) X)) b = dilateK (F := Ideal) (erodeK (F := Ideal) (imgOf X b)) := by
    rw [imgOf_dilateR, imgOf_erodeR]
  funext j
  have hj := congrFun h j
  unfold imgOf at hj
  show max (X _ - dilateR (F := Ideal) (erodeR (F := Ideal) X) _) _ = max (imgOf X b j - dilateK (F := Ideal) (erodeK (F := Ideal) (imgOf X b)) j) _
  rw [hj]
  rfl

/-- Image b of one step is the step of image b. -/
theorem imgOf_stepR (s : FVec Ideal Batch .f32 × FVec Ideal Batch .f32) (b : Fin 16) :
    (imgOf (stepR (F := Ideal) s).1 b, imgOf (stepR (F := Ideal) s).2 b) = stepK (F := Ideal) (imgOf s.1 b, imgOf s.2 b) := by
  show (imgOf (erodeR (F := Ideal) s.1) b, imgOf (addf s.2 (ridgeR (F := Ideal) s.1)) b) = (erodeK (F := Ideal) (imgOf s.1 b), addf (imgOf s.2 b) (ridgeK (F := Ideal) (imgOf s.1 b)))
  rw [imgOf_erodeR, ← imgOf_ridgeR]
  rfl

/-- Image b of n steps is n steps of image b. -/
theorem imgOf_iterate (n : Nat) (s : FVec Ideal Batch .f32 × FVec Ideal Batch .f32) (b : Fin 16) :
    (imgOf ((stepR (F := Ideal))^[n] s).1 b, imgOf ((stepR (F := Ideal))^[n] s).2 b) = (stepK (F := Ideal))^[n] (imgOf s.1 b, imgOf s.2 b) := by
  induction n generalizing s with
  | zero => rfl
  | succ n ih => rw [Function.iterate_succ_apply, Function.iterate_succ_apply, ih, imgOf_stepR]

/-- Image b of the batched skeleton is the skeleton of image b. -/
theorem imgOf_skelR (X : FVec Ideal Batch .f32) (b : Fin 16) :
    imgOf (skelR (F := Ideal) X) b = skelK (F := Ideal) (imgOf X b) := by
  have h := congrArg Prod.snd (imgOf_iterate 10 (X, zeroR (F := Ideal)) b)
  exact h

end ClDice

end
-- ==== Proof.Sums.lean ====
/-
  The sums of the two programs, as plain finite sums on the extended reals.

  The per-image program sums an image by one reduction over both axes of its [1, 512, 512] reshaping; the batched
  program sums a batch by one reduction over all four axes.  A sum over the batch's indices is the sum over the sixteen
  images of the sums over an image's indices (the indices of [16, 1, 512, 512] are the pairs of an image number and an
  index of [512, 512]); addition on the extended reals is commutative and associative, so no finiteness is asked.
-/
import proofs.«131082_j25872882991527_1_alg».proof.Proof.Spec
import Idealize.ShloMosaic.PureOps.Ideal.Laws
import Idealize.ShloMosaic.Lib.ValueIdx
import Idealize.ShloMosaic.Lib.Pipeline.Value

noncomputable section

namespace ClDice

open Idealize.ShloMosaic ValueIdx

/-- The sum of an image as the per-image program spells it is the sum of its entries. -/
theorem sumK_eq (v : FVec Ideal Img .f32) : sumK (F := Ideal) v = ∑ i : Img.Idx, v i := by
  unfold sumK extractAt
  refine (Ideal.multiReduction_add_total (shapeCast Img3 v _) _ _ (by decide) _ _ _).trans ?_
  unfold shapeCast
  exact Equiv.sum_comp (Shape.reshapeEquiv (s := Img) (s' := Img3) (by decide)) v

/-- The sum of a batch as the batched program spells it is the sum of its entries. -/
theorem sumR_eq (X : FVec Ideal Batch .f32) (i : Sc.Idx) : sumR (F := Ideal) X i = ∑ j : Batch.Idx, X j := by
  unfold sumR
  simp only [Host.reduceAdd, Ideal.hostReduceAdd_def]
  rw [Ideal.hostReduceAdd_total reducesAll (fun b => b.elim0)]
  show Ideal.ofBits .f32 0x00000000#32 + _ = _
  rw [Ideal.ofBits_zero_f32, zero_add]

/-- An index of a batch is an image number and an index of an image. -/
def batchEquiv : Batch.Idx ≃ Fin 16 × Img.Idx where
  toFun j := (j 0, ix2 (j 2) (j 3))
  invFun p := ix4 p.1 (0 : Fin 1) (p.2 0) (p.2 1)
  left_inv j := by
    funext a
    match a with
    | ⟨0, _⟩ => rfl
    | ⟨1, _⟩ => exact Subsingleton.elim (α := Fin 1) _ _
    | ⟨2, _⟩ => rfl
    | ⟨3, _⟩ => rfl
  right_inv p := Prod.ext rfl (eq_ix2 p.2).symm

/-- A sum over a batch is the sum over the images of the sums over each image. -/
theorem sum_batch {M : Type} [AddCommMonoid M] (f : Batch.Idx → M) :
    ∑ j, f j = ∑ b : Fin 16, ∑ i : Img.Idx, f (ix4 b (0 : Fin 1) (i 0) (i 1)) := by
  rw [← Equiv.sum_comp batchEquiv.symm f, Fintype.sum_prod_type]
  rfl

/-- The sum of a batch is the sum of the images' sums. -/
theorem sum_batch_imgOf {M : Type} [AddCommMonoid M] (f : Batch.Idx → M) :
    ∑ j, f j = ∑ b : Fin 16, ∑ i : Img.Idx, imgOf f b i := sum_batch f

/-- An index of a vector of sixteen is its one coordinate. -/
def vec16Equiv : Vec16.Idx ≃ Fin 16 where
  toFun k := k 0
  invFun b := ix1 b
  left_inv k := (eq_ix1 k).symm
  right_inv _ := rfl

/-- The host lines' sum of an output array that is the spread of sixteen numbers is the sum of the numbers. -/
theorem sum16_spread (s : Fin 16 → EReal) (i : Sc.Idx) : sum16 (F := Ideal) (spread (F := Ideal) s) i = ∑ b : Fin 16, s b := by
  unfold sum16
  simp only [Host.reduceAdd, Ideal.hostReduceAdd_def]
  rw [Ideal.hostReduceAdd_total reduces16 (fun b => b.elim0)]
  show Ideal.ofBits .f32 0x00000000#32 + _ = _
  rw [Ideal.ofBits_zero_f32, zero_add, ← Equiv.sum_comp vec16Equiv.symm]
  refine Finset.sum_congr rfl fun b _ => ?_
  show shapeCast Vec16 (extractStridedSlice Out11 ![0, 0, 0] (spread (F := Ideal) s) slicesOut) _ (ix1 b) = s b
  rw [shapeCast_apply _ _ (ix1 b) (ix3 b (0 : Fin 1) (0 : Fin 1)) (by rw [Shape.rowMajor_val_three, Shape.rowMajor_val_one]; simp)]
  show s _ = s b
  congr 1
  exact Fin.ext (Nat.zero_add _)

end ClDice

end
-- ==== Proof.Bridge.lean ====
/-
  The four sums agree: the sum over the sixteen slabs of the per-image sums is the batched sum.

  With p the logistic of the first argument batch and t the second: image b of p * skeleton t is
  (image b of p) * skeleton (image b of t), since the batched skeleton is the per-image skeleton image by image; a sum
  over the batch is the sum over the images of the sums over each image.  Only commutativity and associativity of
  addition are used, so the argument holds on all extended reals.
-/
import proofs.«131082_j25872882991527_1_alg».proof.Proof.Spec
import proofs.«131082_j25872882991527_1_alg».proof.Proof.Images
import proofs.«131082_j25872882991527_1_alg».proof.Proof.Sums

noncomputable section

namespace ClDice

open Idealize.ShloMosaic ValueIdx

variable (A0 A1 : FVec Ideal Batch .f32)

theorem s1_sum : sum16 (F := Ideal) (spread (F := Ideal) (s1 (F := Ideal) A0 A1)) = sumR (F := Ideal) (mulf (logistic A0) (skelR (F := Ideal) A1)) := by
  funext i
  rw [sum16_spread, sumR_eq, sum_batch_imgOf]
  refine Finset.sum_congr rfl fun b _ => ?_
  unfold s1
  rw [sumK_eq]
  refine Finset.sum_congr rfl fun j _ => ?_
  show FloatOps.mulf (logistic (imgOf A0 b) j) (skelK (F := Ideal) (imgOf A1 b) j) = FloatOps.mulf (imgOf (logistic A0) b j) (imgOf (skelR (F := Ideal) A1) b j)
  rw [imgOf_skelR]
  rfl

theorem s2_sum : sum16 (F := Ideal) (spread (F := Ideal) (s2 (F := Ideal) A0 A1)) = sumR (F := Ideal) (skelR (F := Ideal) A1) := by
  funext i
  rw [sum16_spread, sumR_eq, sum_batch_imgOf]
  refine Finset.sum_congr rfl fun b _ => ?_
  unfold s2
  rw [sumK_eq, imgOf_skelR]

theorem s3_sum : sum16 (F := Ideal) (spread (F := Ideal) (s3 (F := Ideal) A0 A1)) = sumR (F := Ideal) (mulf A1 (skelR (F := Ideal) (logistic A0))) := by
  funext i
  rw [sum16_spread, sumR_eq, sum_batch_imgOf]
  refine Finset.sum_congr rfl fun b _ => ?_
  unfold s3
  rw [sumK_eq]
  refine Finset.sum_congr rfl fun j _ => ?_
  show FloatOps.mulf (imgOf A1 b j) (skelK (F := Ideal) (logistic (imgOf A0 b)) j) = FloatOps.mulf (imgOf A1 b j) (imgOf (skelR (F := Ideal) (logistic A0)) b j)
  rw [imgOf_skelR]
  rfl

theorem s4_sum : sum16 (F := Ideal) (spread (F := Ideal) (s4 (F := Ideal) A0 A1)) = sumR (F := Ideal) (skelR (F := Ideal) (logistic A0)) := by
  funext i
  rw [sum16_spread, sumR_eq, sum_batch_imgOf]
  refine Finset.sum_congr rfl fun b _ => ?_
  unfold s4
  rw [sumK_eq, imgOf_skelR]
  rfl

end ClDice

end
-- ==== Proof.lean ====
/-
  Soft-skeleton cl-Dice loss: the per-image program against the batched program, on the extended reals.

  Both programs compute 1 - 2 a b / (a + b + e) with a = S1 / (S2 + e), b = S3 / (S4 + e), where, p being the logistic
  of the first argument and t the second, S1 = sum of p * skeleton t, S2 = sum of skeleton t, S3 = sum of
  t * skeleton p, S4 = sum of skeleton p, the skeleton being ten steps of (image, skeleton) to
  (erosion image, skeleton + relu (image - dilation (erosion image))).

  * The per-image program runs one image per grid point: it shifts the image by a row or a column (filling with the
    neutral element) and folds the shifted copies; it writes each image's four sums to slab b of four output arrays,
    and the host lines after it add the sixteen slabs.
  * The batched program folds 3 x 1, 1 x 3 and 3 x 3 windows of the padded batch and sums over all four axes.

  Entry by entry both erosions read the same five neighbours and both dilations the same nine (minimum and maximum are
  associative, +infinity and -infinity their neutral elements), so image b of the batched skeleton is the skeleton of
  image b; a sum over the batch is the sum over the images of the sums over an image.  Nothing here needs the inputs
  finite: only commutativity and associativity of addition, minimum and maximum are used.
-/
import proofs.«131082_j25872882991527_1_alg».proof.Defs
import proofs.«131082_j25872882991527_1_alg».proof.Proof.Gen.Kernel
import proofs.«131082_j25872882991527_1_alg».proof.Proof.FramePKernel
import proofs.«131082_j25872882991527_1_alg».proof.Proof.Gen.KernelIdeal
import proofs.«131082_j25872882991527_1_alg».proof.Proof.FramePKernelIdeal
import proofs.«131082_j25872882991527_1_alg».proof.Proof.Gen.ReferenceIdeal
import proofs.«131082_j25872882991527_1_alg».proof.Proof.RefRun
import proofs.«131082_j25872882991527_1_alg».proof.Proof.Gen.Pre_finite_inputs
import proofs.«131082_j25872882991527_1_alg».proof.Proof.KernelTail
import proofs.«131082_j25872882991527_1_alg».proof.Proof.RefResult
import proofs.«131082_j25872882991527_1_alg».proof.Proof.Bridge
import Idealize.ShloMosaic.Adequacy
import Idealize.ShloMosaic.Init

noncomputable section

namespace Cert.Proof

open Idealize.ShloMosaic Idealize.SL.Sem ClDice

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- The per-image sums, slab by slab, add up to the batched sums: the two losses are one number. -/
theorem result_eq (A0 A1 : FVec Ideal Batch .f32) :
    Cert.KernelIdeal.Tail.result (F := Ideal) A0 A1
      = combine (F := Ideal) (sumR (mulf (logistic A0) (skelR (F := Ideal) A1))) (sumR (skelR (F := Ideal) A1))
          (sumR (mulf A1 (skelR (F := Ideal) (logistic A0)))) (sumR (skelR (F := Ideal) (logistic A0))) := by
  unfold Cert.KernelIdeal.Tail.result
  rw [s1_sum, s2_sum, s3_sum, s4_sum]

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Tail.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.Stages.ref_result, (hagree c).1, (hagree c).2]
  exact (result_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
